-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 999999#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S1000000x64 : Shape := ⟨2, ![1000000, 64]⟩
abbrev S200x16384 : Shape := ⟨2, ![200, 16384]⟩
abbrev S_ : Shape := ⟨0, ![]⟩
abbrev S1000000x128 : Shape := ⟨2, ![1000000, 128]⟩
abbrev S200x16384x128 : Shape := ⟨3, ![200, 16384, 128]⟩
abbrev S128 : Shape := ⟨1, ![128]⟩
abbrev S128x128 : Shape := ⟨2, ![128, 128]⟩
abbrev S1x128 : Shape := ⟨2, ![1, 128]⟩
abbrev S1x128x128 : Shape := ⟨3, ![1, 128, 128]⟩
abbrev S200x16384x64 : Shape := ⟨3, ![200, 16384, 64]⟩
abbrev S16384x200x64 : Shape := ⟨3, ![16384, 200, 64]⟩

abbrev nBuf : Table → Nat
  | .hbm => 12
  | .local .scVector .vmem => 8
  | _ => 0

abbrev bufTy : (tb : Table) → Fin (nBuf tb) → BufTy
  | .hbm, ⟨0, _⟩ => ⟨S16384x200, .i32⟩
  | .hbm, ⟨1, _⟩ => ⟨S1000000x64, .f32⟩
  | .hbm, ⟨2, _⟩ => ⟨S200x16384, .i32⟩
  | .hbm, ⟨3, _⟩ => ⟨S_, .i32⟩
  | .hbm, ⟨4, _⟩ => ⟨S_, .f32⟩
  | .hbm, ⟨5, _⟩ => ⟨S1000000x128, .f32⟩
  | .hbm, ⟨6, _⟩ => ⟨S200x16384x128, .f32⟩
  | .hbm, ⟨7, _⟩ => ⟨S200x16384x64, .f32⟩
  | .hbm, ⟨8, _⟩ => ⟨S16384x200x64, .f32⟩
  | .hbm, ⟨9, _⟩ => ⟨S_, .f32⟩
  | .hbm, ⟨10, _⟩ => ⟨S16384x200x64, .f32⟩
  | .hbm, ⟨11, _⟩ => ⟨S16384x200x64, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v1_scv : Ref sig .scVector := ⟨.hbm, 5, rfl⟩
abbrev main_v0_scv : Ref sig .scVector := ⟨.hbm, 2, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![0, v3.toNat]
@[reducible] def k0_t1_loop : Scf.Loop 32 :=
  let c0_i32_17 : BitVec 32 := 0#32
  let c200_i32 : BitVec 32 := 200#32
  let v41 : BitVec 32 := Scalar.addi c0_i32_17 c200_i32
  let c1_i32 : BitVec 32 := 1#32
  ⟨c0_i32_17, v41, c1_i32⟩
def k0_cond1 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_24 : BitVec 32 := 199#32
  let v48 : BitVec 1 := Scalar.cmpi .slt arg25 c199_i32_24
  let v49 : BitVec 32 := Scalar.extui v48
  let c0_i32_25 : BitVec 32 := 0#32
  let v50 : BitVec 1 := Scalar.cmpi .ne v49 c0_i32_25
  v50

def k0_off2 (i : grid0.Coords) (k0_t1 : Fin k0_t1_loop.trips) : Fin 2 → Nat :=
  let c0_i32_17 : BitVec 32 := 0#32
  let c1_i32 : BitVec 32 := 1#32
  let arg25 : BitVec 32 := Scf.iv c0_i32_17 c1_i32 k0_t1
  let c1_i32_71 : BitVec 32 := 1#32
  let v116 : BitVec 32 := Scalar.addi arg25 c1_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_72 : BitVec 32 := 0#32
  let v117 : BitVec 32 := Scalar.addi v2 c0_i32_72
  ![v116.toNat, v117.toNat]
def k0_cond2 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c1_i32_26 : BitVec 32 := 1#32
  let v51 : BitVec 1 := Scalar.cmpi .sge arg25 c1_i32_26
  let v52 : BitVec 32 := Scalar.extui v51
  let c0_i32_27 : BitVec 32 := 0#32
  let v53 : BitVec 1 := Scalar.cmpi .ne v52 c0_i32_27
  v53

def k0_off3 (i : grid0.Coords) (k0_t1 : Fin k0_t1_loop.trips) : Fin 3 → Nat :=
  let c0_i32_17 : BitVec 32 := 0#32
  let c1_i32 : BitVec 32 := 1#32
  let arg25 : BitVec 32 := Scf.iv c0_i32_17 c1_i32 k0_t1
  let c1_i32_71 : BitVec 32 := 1#32
  let v116 : BitVec 32 := Scalar.subi arg25 c1_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_72 : BitVec 32 := 384#32
  let v117 : BitVec 32 := Scalar.addi v2 c384_i32_72
  let c0_i32_73 : BitVec 32 := 0#32
  ![v116.toNat, v117.toNat, 0]
def k0_off4 (i : grid0.Coords) : Fin 2 → Nat :=
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_28 : BitVec 32 := 384#32
  let v54 : BitVec 32 := Scalar.addi v2 c384_i32_28
  ![0, v54.toNat]
def k0_off5 (i : grid0.Coords) (k0_t1 : Fin k0_t1_loop.trips) (c0_i32_32 : BitVec 32) : Fin 3 → Nat :=
  let c0_i32_17 : BitVec 32 := 0#32
  let c1_i32 : BitVec 32 := 1#32
  let arg25 : BitVec 32 := Scf.iv c0_i32_17 c1_i32 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v60 : BitVec 32 := Scalar.addi v2 c0_i32_32
  let c0_i32_33 : BitVec 32 := 0#32
  ![arg25.toNat, v60.toNat, 0]
def k0_cond3 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_37 : BitVec 32 := 199#32
  let v66 : BitVec 1 := Scalar.cmpi .slt arg25 c199_i32_37
  let v67 : BitVec 32 := Scalar.extui v66
  let c0_i32_38 : BitVec 32 := 0#32
  let v68 : BitVec 1 := Scalar.cmpi .ne v67 c0_i32_38
  v68

def k0_off6 (i : grid0.Coords) (k0_t1 : Fin k0_t1_loop.trips) : Fin 2 → Nat :=
  let c0_i32_17 : BitVec 32 := 0#32
  let c1_i32 : BitVec 32 := 1#32
  let arg25 : BitVec 32 := Scf.iv c0_i32_17 c1_i32 k0_t1
  let c1_i32_71 : BitVec 32 := 1#32
  let v116 : BitVec 32 := Scalar.addi arg25 c1_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_72 : BitVec 32 := 128#32
  let v117 : BitVec 32 := Scalar.addi v2 c128_i32_72
  ![v116.toNat, v117.toNat]
def k0_cond4 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_42 : BitVec 32 := 199#32
  let v74 : BitVec 1 := Scalar.cmpi .slt arg25 c199_i32_42
  let v75 : BitVec 32 := Scalar.extui v74
  let c0_i32_43 : BitVec 32 := 0#32
  let v76 : BitVec 1 := Scalar.cmpi .ne v75 c0_i32_43
  v76

def k0_off7 (i : grid0.Coords) : Fin 2 → Nat :=
  let c0_i32_72 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_71 : BitVec 32 := 0#32
  let v116 : BitVec 32 := Scalar.addi v2 c0_i32_71
  ![0, v116.toNat]
def k0_cond5 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_49 : BitVec 32 := 199#32
  let v83 : BitVec 1 := Scalar.cmpi .slt arg25 c199_i32_49
  let v84 : BitVec 32 := Scalar.extui v83
  let c0_i32_50 : BitVec 32 := 0#32
  let v85 : BitVec 1 := Scalar.cmpi .ne v84 c0_i32_50
  v85

def k0_off8 (i : grid0.Coords) (k0_t1 : Fin k0_t1_loop.trips) : Fin 2 → Nat :=
  let c0_i32_17 : BitVec 32 := 0#32
  let c1_i32 : BitVec 32 := 1#32
  let arg25 : BitVec 32 := Scf.iv c0_i32_17 c1_i32 k0_t1
  let c1_i32_71 : BitVec 32 := 1#32
  let v116 : BitVec 32 := Scalar.addi arg25 c1_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_72 : BitVec 32 := 256#32
  let v117 : BitVec 32 := Scalar.addi v2 c256_i32_72
  ![v116.toNat, v117.toNat]
def k0_cond6 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_54 : BitVec 32 := 199#32
  let v91 : BitVec 1 := Scalar.cmpi .slt arg25 c199_i32_54
  let v92 : BitVec 32 := Scalar.extui v91
  let c0_i32_55 : BitVec 32 := 0#32
  let v93 : BitVec 1 := Scalar.cmpi .ne v92 c0_i32_55
  v93

def k0_off9 (i : grid0.Coords) : Fin 2 → Nat :=
  let c0_i32_72 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_71 : BitVec 32 := 128#32
  let v116 : BitVec 32 := Scalar.addi v2 c128_i32_71
  ![0, v116.toNat]
def k0_cond7 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_61 : BitVec 32 := 199#32
  let v100 : BitVec 1 := Scalar.cmpi .slt arg25 c199_i32_61
  let v101 : BitVec 32 := Scalar.extui v100
  let c0_i32_62 : BitVec 32 := 0#32
  let v102 : BitVec 1 := Scalar.cmpi .ne v101 c0_i32_62
  v102

def k0_off10 (i : grid0.Coords) (k0_t1 : Fin k0_t1_loop.trips) : Fin 2 → Nat :=
  let c0_i32_17 : BitVec 32 := 0#32
  let c1_i32 : BitVec 32 := 1#32
  let arg25 : BitVec 32 := Scf.iv c0_i32_17 c1_i32 k0_t1
  let c1_i32_71 : BitVec 32 := 1#32
  let v116 : BitVec 32 := Scalar.addi arg25 c1_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_72 : BitVec 32 := 384#32
  let v117 : BitVec 32 := Scalar.addi v2 c384_i32_72
  ![v116.toNat, v117.toNat]
def k0_cond8 (k0_t1 : Fin k0_t1_loop.trips) : BitVec 1 :=
  let c0_i32_17 : BitVec 32 := 0#32
  let c1_i32 : BitVec 32 := 1#32
  let arg25 : BitVec 32 := Scf.iv c0_i32_17 c1_i32 k0_t1
  let c199_i32_66 : BitVec 32 := 199#32
  let v108 : BitVec 1 := Scalar.cmpi .slt arg25 c199_i32_66
  let v109 : BitVec 32 := Scalar.extui v108
  let c0_i32_67 : BitVec 32 := 0#32
  let v110 : BitVec 1 := Scalar.cmpi .ne v109 c0_i32_67
  v110

def k0_off11 (i : grid0.Coords) : Fin 2 → Nat :=
  let c0_i32_72 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_71 : BitVec 32 := 256#32
  let v116 : BitVec 32 := Scalar.addi v2 c256_i32_71
  ![0, v116.toNat]
def k0_off12 (i : grid0.Coords) : Fin 3 → Nat :=
  let c199_i32 : BitVec 32 := 199#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_19 : BitVec 32 := 384#32
  let v42 : BitVec 32 := Scalar.addi v2 c384_i32_19
  let c0_i32_20 : BitVec 32 := 0#32
  ![199, v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  pads_S1000000x64_S1000000x128_000_0640 : S1000000x64.Pads (![0, 0] : Fin 2 → Nat) ![0, 64] ![0, 0] S1000000x128
  h_S_ : 0 < S_.numel
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  squeezes_S1x128x128_S128x128 : S1x128x128.Squeezes S128x128
  slices_S200x16384x128_S200x16384x64_0_0_0 : S200x16384x128.Slices ![0, 0, 0] S200x16384x64
  transposes_S200x16384x64_S16384x200x64_1_0_2 : S200x16384x64.Transposes [1, 0, 2] S16384x200x64
  bcast_S_S16384x200x64 : S_.BroadcastsInDim S16384x200x64 (![] : Fin 0 → Fin S16384x200x64.rank)
  hcc0_scratch8 : 0 + S_.numel ≤ 12
  hcc0_scratch9 : 1 + S_.numel ≤ 12
  hcc0_scratch10 : 2 + S_.numel ≤ 12
  hcc0_scratch11 : 3 + S_.numel ≤ 12
  hcc0_scratch12 : 4 + S_.numel ≤ 12
  hcc0_scratch13 : 5 + S_.numel ≤ 12
  hcc0_scratch14 : 6 + S_.numel ≤ 12
  hcc0_scratch15 : 7 + S_.numel ≤ 12
  hcc0_scratch16 : 8 + S_.numel ≤ 12
  hcc0_scratch17 : 9 + S_.numel ≤ 12
  hcc0_scratch18 : 10 + S_.numel ≤ 12
  hcc0_scratch19 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (128 * r.val))) a + S1x128.size a ≤ S200x16384.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x128.size a ≤ S200x16384.size a
  k0_off3_inb : ∀ (i : grid0.Coords) (k0_t1 : Fin k0_t1_loop.trips), ∀ (k0_h2 : k0_cond2 k0_t1 = 1#1), ∀ a, (k0_off3 i k0_t1) a + S1x128x128.size a ≤ S200x16384x128.size a
  k0_off4_inb : ∀ i : grid0.Coords, ∀ a, (k0_off4 i) a + S1x128.size a ≤ S200x16384.size a
  k0_off5_inb : ∀ (i : grid0.Coords) (k0_t1 : Fin k0_t1_loop.trips), ∀ (r : Fin 4), ∀ a, (k0_off5 i k0_t1 (BitVec.ofNat 32 (128 * r.val))) a + S1x128x128.size a ≤ S200x16384x128.size a
  k0_off6_inb : ∀ (i : grid0.Coords) (k0_t1 : Fin k0_t1_loop.trips), ∀ (k0_h3 : k0_cond3 k0_t1 = 1#1), ∀ a, (k0_off6 i k0_t1) a + S1x128.size a ≤ S200x16384.size a
  k0_off7_inb : ∀ (i : grid0.Coords) (k0_t1 : Fin k0_t1_loop.trips), ∀ (k0_h4 : k0_cond4 k0_t1 = 1#1), ∀ a, (k0_off7 i) a + S1x128.size a ≤ S200x16384.size a
  k0_off8_inb : ∀ (i : grid0.Coords) (k0_t1 : Fin k0_t1_loop.trips), ∀ (k0_h5 : k0_cond5 k0_t1 = 1#1), ∀ a, (k0_off8 i k0_t1) a + S1x128.size a ≤ S200x16384.size a
  k0_off9_inb : ∀ (i : grid0.Coords) (k0_t1 : Fin k0_t1_loop.trips), ∀ (k0_h6 : k0_cond6 k0_t1 = 1#1), ∀ a, (k0_off9 i) a + S1x128.size a ≤ S200x16384.size a
  k0_off10_inb : ∀ (i : grid0.Coords) (k0_t1 : Fin k0_t1_loop.trips), ∀ (k0_h7 : k0_cond7 k0_t1 = 1#1), ∀ a, (k0_off10 i k0_t1) a + S1x128.size a ≤ S200x16384.size a
  k0_off11_inb : ∀ (i : grid0.Coords) (k0_t1 : Fin k0_t1_loop.trips), ∀ (k0_h8 : k0_cond8 k0_t1 = 1#1), ∀ a, (k0_off11 i) a + S1x128.size a ≤ S200x16384.size a
  k0_off12_inb : ∀ i : grid0.Coords, ∀ a, (k0_off12 i) a + S1x128x128.size a ≤ S200x16384x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19

class Facts : Prop extends Facts₀ where

variable [Facts]
-- ==== ReferenceIdeal.lean ====
abbrev S16384x200 : Shape := ⟨2, ![16384, 200]⟩
abbrev S1000000x64 : Shape := ⟨2, ![1000000, 64]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x64 : Shape := ⟨3, ![16384, 200, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000000x64, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x64, .f32⟩
  | .hbm, ⟨21, _⟩ => ⟨S16384x200x64, .i1⟩
  | .hbm, ⟨22, _⟩ => ⟨S_, .f32⟩
  | .hbm, ⟨23, _⟩ => ⟨S16384x200x64, .f32⟩
  | .hbm, ⟨24, _⟩ => ⟨S16384x200x64, .f32⟩
  | .hbm, ⟨25, _⟩ => ⟨S_, .f32⟩
  | .hbm, ⟨26, _⟩ => ⟨S16384x200x64, .f32⟩
  | .hbm, ⟨27, _⟩ => ⟨S16384x200x64, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x64_0_1 : S16384x200.BroadcastsInDim S16384x200x64 (![0, 1] : Fin 2 → Fin S16384x200x64.rank)
  bcast_S_S16384x200x64 : S_.BroadcastsInDim S16384x200x64 (![] : Fin 0 → Fin S16384x200x64.rank)
  gather_S1000000x64_S16384x200x1_S16384x200x64_2_0_n_n_0_2_164_wf : GatherDims.WF S1000000x64 S16384x200x1 S16384x200x64 [2] [0] [] [0] [] 2 ![1, 64]

variable [Facts₀]

def gather_S1000000x64_S16384x200x1_S16384x200x64_2_0_n_n_0_2_164 : GatherDims S1000000x64 S16384x200x1 S16384x200x64 where
  offsetDims := [2]
  collapsedSliceDims := [0]
  operandBatchingDims := []
  startIndicesBatchingDims := []
  startIndexMap := [0]
  indexVectorDim := 2
  sliceSizes := ![1, 64]
  wf := gather_S1000000x64_S16384x200x1_S16384x200x64_2_0_n_n_0_2_164_wf

class Facts : Prop extends Facts₀ where

variable [Facts]
-- ==== Proof.Spec.lean ====
/-
  The lookup both programs compute, as whole-array functions of the argument arrays.
  `G x tab` : entry (b, l, d) of the result is 8 times entry (x[b,l], d) of the table, the row number read
  unsigned and clamped to the last row (inside the precondition's range the clamp never bites).
  `GK xT tb` : what the tiles leave in the staging array — entry (l, c, k) is entry (xT[l,c], k) of the
  lane-padded table; generic in the float instance, since it only moves elements.
-/
import Idealize.ShloMosaic.PureOps.Ideal
import Idealize.ShloMosaic.Lib.ValueIdx

noncomputable section

namespace Cert.Lookup

open Idealize.ShloMosaic Idealize.ShloMosaic.ValueIdx

abbrev SX : Shape := ⟨2, ![16384, 200]⟩
abbrev SXT : Shape := ⟨2, ![200, 16384]⟩
abbrev ST : Shape := ⟨2, ![1000000, 64]⟩
abbrev STP : Shape := ⟨2, ![1000000, 128]⟩
abbrev SR : Shape := ⟨3, ![200, 16384, 128]⟩
abbrev SO : Shape := ⟨3, ![16384, 200, 64]⟩

/-- The table row a 32-bit word names: its unsigned value, clamped to the last row. -/
def rowOf (w : BitVec 32) : Fin 1000000 := ⟨min w.toNat 999999, by omega⟩

theorem rowOf_val_of_lt {w : BitVec 32} (h : w.toNat < 1000000) : (rowOf w).val = w.toNat := by
  show min w.toNat 999999 = w.toNat; omega

/-- The embedding lookup scaled by 8: result[b, l, d] = table[x[b, l], d] * 8. -/
def G (x : IVec SX 32) (tab : FVec Ideal ST .f32) : FVec Ideal SO .f32 :=
  fun j => tab (ix2 (rowOf (x (ix2 (n0 := 16384) (n1 := 200) (j 0) (j 1)))) (j 2 : Fin 64)) * Ideal.ofBits .f32 0x41000000#32

/-- The rows the tiles gather: staging[l, c, k] = paddedTable[xT[l, c], k]. -/
def GK {F : FTy → Type} (xT : IVec SXT 32) (tb : FVec F STP .f32) : FVec F SR .f32 :=
  fun j => tb (ix2 (rowOf (xT (ix2 (n0 := 200) (n1 := 16384) (j 0) (j 1)))) (j 2 : Fin 128))

end Cert.Lookup

end
-- ==== Proof.CommonK.lean ====
/-
  Names shared by the tile's task and the launch of the lookup kernel: the program as the launch theorem sees it,
  the resource algebra (the handshakes' rounds beside the transfers' counters), the three arrays the call touches —
  the transposed index array `xT`, the lane-padded table `tb`, the staging array `out` — and how they are dealt
  to the 32 tiles: tile `w = 2·s + c` (subcore `s` of SparseCore `c`) reads `xT` and `tb` through a read share
  of its own and owns the columns `[512·w, 512·w + 512)` of every row of `out`.
-/
import proofs.«206412_g41506563948974_cont_8to1_b_738_25_alg».proof.Defs
import proofs.«206412_g41506563948974_cont_8to1_b_738_25_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206412_g41506563948974_cont_8to1_b_738_25_alg».proof.Proof.Gen.Kernel
import proofs.«206412_g41506563948974_cont_8to1_b_738_25_alg».proof.Proof.Gen.Kernel.Skeleton

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The three arrays of the call -/

abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

/-- The tile number of subcore `s` of SparseCore `c`: `2·s + c`. -/
def wid (c : Fin 2) (s : Fin 16) : Fin 32 := ⟨2 * s.val + c.val, by omega⟩

/-! ## The rows a tile moves, and what they hold -/

local notation "tVm" => (Memref.whole Cert.Kernel.main_v1_scv : Memref Cert.Kernel.sig Kind.scVector Space.hbm Cert.Kernel.S1000000x128 EltTy.f32)
local notation "xVm" => (Memref.whole Cert.Kernel.main_v0_scv : Memref Cert.Kernel.sig Kind.scVector Space.hbm Cert.Kernel.S200x16384 EltTy.i32)
local notation "oVm" => (Memref.whole Cert.Kernel.main_v2_scv : Memref Cert.Kernel.sig Kind.scVector Space.hbm Cert.Kernel.S200x16384x128 EltTy.f32)

/-- The first column of chunk `b` of the tile at grid point `L`: `512·(2·s + c) + 128·b`. -/
def cbase (L : grid0.Coords) (b : ℕ) : ℕ := 1024 * (L 1).val + 512 * (L 0).val + 128 * b

theorem cbase_le (L : grid0.Coords) (b : ℕ) (hb : b < 4) : cbase L b + 128 ≤ 16384 := by
  have h0 : (L 0).val < 2 := (L 0).isLt
  have h1 : (L 1).val < 16 := (L 1).isLt
  unfold cbase; omega

/-- 128 consecutive entries of one row of `xT`, as a tile's copy addresses them. -/
abbrev xRowM (off : Fin 2 → ℕ) (h : ∀ a, off a + S1x128.size a ≤ S200x16384.size a) : Memref sig .scVector .hbm S128 .i32 :=
  ((xVm).slice (Rect.unit (s := S200x16384) off S1x128.size h) (fun _ => rfl)).squeeze S128 Gen.squeezes_S1x128_S128
/-- 128 consecutive rows (all 128 lanes) of one plane of `out`, as a tile's copy addresses them. -/
abbrev oWinM (off : Fin 3 → ℕ) (h : ∀ a, off a + S1x128x128.size a ≤ S200x16384x128.size a) : Memref sig .scVector .hbm S128x128 .f32 :=
  ((oVm).slice (Rect.unit (s := S200x16384x128) off S1x128x128.size h) (fun _ => rfl)).squeeze S128x128 Gen.squeezes_S1x128x128_S128x128
/-- All of the padded table, as a tile's gather addresses it. -/
abbrev tAllM : Memref sig .scVector .hbm S1000000x128 .f32 :=
  (tVm).slice (Rect.unit (s := S1000000x128) ![0, 0] S1000000x128.size Gen.inb_S1000000x128_S1000000x128_0_0) (fun _ => rfl)

theorem xin (L : grid0.Coords) (r b : ℕ) (hr : r < 200) (hb : b < 4) : ∀ a, (![r, cbase L b] : Fin 2 → ℕ) a + S1x128.size a ≤ S200x16384.size a := by
  have := cbase_le L b hb
  intro a; match a with
  | ⟨0, _⟩ => show r + 1 ≤ 200; omega
  | ⟨1, _⟩ => show cbase L b + 128 ≤ 16384; omega
theorem oin (L : grid0.Coords) (r b : ℕ) (hr : r < 200) (hb : b < 4) : ∀ a, (![r, cbase L b, 0] : Fin 3 → ℕ) a + S1x128x128.size a ≤ S200x16384x128.size a := by
  have := cbase_le L b hb
  intro a; match a with
  | ⟨0, _⟩ => show r + 1 ≤ 200; omega
  | ⟨1, _⟩ => show cbase L b + 128 ≤ 16384; omega
  | ⟨2, _⟩ => show 0 + 128 ≤ 128; omega

/-- The 128 row numbers of chunk `b` of row `r` of `xT` (entry `y` is `xT[r, cbase L b + y]`; indices taken modulo the
    extents, which they never reach). -/
def idxC (fX : S200x16384.Idx → BitVec 32) (L : grid0.Coords) (r b : ℕ) : S128.Idx → BitVec 32 :=
  fun y => fX (ValueIdx.ix2 (⟨r % 200, Nat.mod_lt _ (by decide)⟩ : Fin 200) (⟨(cbase L b + (y 0).val) % 16384, Nat.mod_lt _ (by decide)⟩ : Fin 16384))

/-- The 128 table rows those numbers name: entry `(y, k)` is `tb[xT[r, cbase L b + y], k]`. -/
def pairC (fX : S200x16384.Idx → BitVec 32) (fT : S1000000x128.Idx → F .f32) (L : grid0.Coords) (r b : ℕ) : S128x128.Idx → F .f32 :=
  fun y => fT (ValueIdx.ix2 (Cert.Lookup.rowOf (idxC fX L r b (ValueIdx.ix1 (y 0 : Fin 128)))) (y 1 : Fin 128))

/-! ## The copies' offsets in closed form, and the loop's guards decided -/

theorem off1_0 (L : grid0.Coords) : k0_off1 L 0#32 = ![0, cbase L 0] := k0_off1_eq L ⟨0, by decide⟩
theorem off1_1 (L : grid0.Coords) : k0_off1 L 128#32 = ![0, cbase L 1] := k0_off1_eq L ⟨1, by decide⟩
theorem off1_2 (L : grid0.Coords) : k0_off1 L 256#32 = ![0, cbase L 2] := k0_off1_eq L ⟨2, by decide⟩
theorem off1_3 (L : grid0.Coords) : k0_off1 L 384#32 = ![0, cbase L 3] := k0_off1_eq L ⟨3, by decide⟩
theorem off2_c (L : grid0.Coords) (k : Fin k0_t1_loop.trips) : k0_off2 L k = ![k.val + 1, cbase L 0] := k0_off2_eq L k
theorem off6_c (L : grid0.Coords) (k : Fin k0_t1_loop.trips) : k0_off6 L k = ![k.val + 1, cbase L 1] := k0_off6_eq L k
theorem off8_c (L : grid0.Coords) (k : Fin k0_t1_loop.trips) : k0_off8 L k = ![k.val + 1, cbase L 2] := k0_off8_eq L k
theorem off10_c (L : grid0.Coords) (k : Fin k0_t1_loop.trips) : k0_off10 L k = ![k.val + 1, cbase L 3] := k0_off10_eq L k
theorem off5_0 (L : grid0.Coords) (k : Fin k0_t1_loop.trips) : k0_off5 L k 0#32 = ![k.val, cbase L 0, 0] := k0_off5_eq L k ⟨0, by decide⟩
theorem off5_1 (L : grid0.Coords) (k : Fin k0_t1_loop.trips) : k0_off5 L k 128#32 = ![k.val, cbase L 1, 0] := k0_off5_eq L k ⟨1, by decide⟩
theorem off5_2 (L : grid0.Coords) (k : Fin k0_t1_loop.trips) : k0_off5 L k 256#32 = ![k.val, cbase L 2, 0] := k0_off5_eq L k ⟨2, by decide⟩
theorem off5_3 (L : grid0.Coords) (k : Fin k0_t1_loop.trips) : k0_off5 L k 384#32 = ![k.val, cbase L 3, 0] := k0_off5_eq L k ⟨3, by decide⟩

theorem trips_eq : k0_t1_loop.trips = 200 := by decide +kernel
theorem cond1_pos : ∀ k : Fin k0_t1_loop.trips, k.val < 199 → k0_cond1 k = 1#1 := by decide +kernel
theorem cond1_neg : ∀ k : Fin k0_t1_loop.trips, ¬ k.val < 199 → ¬ k0_cond1 k = 1#1 := by decide +kernel
theorem cond3_pos : ∀ k : Fin k0_t1_loop.trips, k.val < 199 → k0_cond3 k = 1#1 := by decide +kernel
theorem cond3_neg : ∀ k : Fin k0_t1_loop.trips, ¬ k.val < 199 → ¬ k0_cond3 k = 1#1 := by decide +kernel
theorem cond4_pos : ∀ k : Fin k0_t1_loop.trips, k.val < 199 → k0_cond4 k = 1#1 := by decide +kernel
theorem cond4_neg : ∀ k : Fin k0_t1_loop.trips, ¬ k.val < 199 → ¬ k0_cond4 k = 1#1 := by decide +kernel
theorem cond5_pos : ∀ k : Fin k0_t1_loop.trips, k.val < 199 → k0_cond5 k = 1#1 := by decide +kernel
theorem cond5_neg : ∀ k : Fin k0_t1_loop.trips, ¬ k.val < 199 → ¬ k0_cond5 k = 1#1 := by decide +kernel
theorem cond6_pos : ∀ k : Fin k0_t1_loop.trips, k.val < 199 → k0_cond6 k = 1#1 := by decide +kernel
theorem cond6_neg : ∀ k : Fin k0_t1_loop.trips, ¬ k.val < 199 → ¬ k0_cond6 k = 1#1 := by decide +kernel
theorem cond7_pos : ∀ k : Fin k0_t1_loop.trips, k.val < 199 → k0_cond7 k = 1#1 := by decide +kernel
theorem cond7_neg : ∀ k : Fin k0_t1_loop.trips, ¬ k.val < 199 → ¬ k0_cond7 k = 1#1 := by decide +kernel
theorem cond8_pos : ∀ k : Fin k0_t1_loop.trips, k.val < 199 → k0_cond8 k = 1#1 := by decide +kernel
theorem cond8_neg : ∀ k : Fin k0_t1_loop.trips, ¬ k.val < 199 → ¬ k0_cond8 k = 1#1 := by decide +kernel
theorem cond2_pos : ∀ k : Fin k0_t1_loop.trips, 1 ≤ k.val → k0_cond2 k = 1#1 := by decide +kernel
theorem cond2_neg : ∀ k : Fin k0_t1_loop.trips, ¬ 1 ≤ k.val → ¬ k0_cond2 k = 1#1 := by decide +kernel

/-! ## A vector subcore's own semaphores and scratch buffers, one by one -/

local notation "𝕄" => MT nD τ sig (HIx 1) (Elt F) ℕ UU ℕ

/-- The twelve DMA semaphores of a vector subcore, by number. -/
def dsem (k : Fin 12) : DmaSem sig := k

def cellE (thr : Thread nD τ) : Fin 12 ↪ GSem nD τ sig :=
  ⟨fun k => (thr, SemLoc.dma (dsem k)), fun a b h => by
    have h2 : (SemLoc.dma (dsem a) : SemLoc sig) = SemLoc.dma (dsem b) := (Prod.ext_iff.mp h).2
    exact SemLoc.dma.inj h2⟩

theorem dsem_scoped : ∀ k : Fin 12, (SemLoc.dma (dsem k) : SemLoc sig).isScoped .scVector = true := by decide

theorem cells_sub (d : Dev nD) (c : Fin τ.nSC) (j : Fin τ.nSub) : Finset.univ.map (cellE (V d c j)) ⊆ ownCells (V d c j) := by
  intro g hg
  obtain ⟨k, -, rfl⟩ := Finset.mem_map.mp hg
  exact mem_ownCells.mpr ⟨rfl, dsem_scoped k⟩

theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A vector subcore's scoped semaphores at zero: its twelve DMA semaphores, one by one, and the rest. -/
theorem ownSems0_cells (d : Dev nD) (c : Fin τ.nSC) (j : Fin τ.nSub) :
    (ownSems0 (V d c j) : sProp 𝕄)
      = iprop((semVal (V d c j, SemLoc.dma (dsem 0)) 0 ∗ semVal (V d c j, SemLoc.dma (dsem 1)) 0 ∗ semVal (V d c j, SemLoc.dma (dsem 2)) 0
          ∗ semVal (V d c j, SemLoc.dma (dsem 3)) 0 ∗ semVal (V d c j, SemLoc.dma (dsem 4)) 0 ∗ semVal (V d c j, SemLoc.dma (dsem 5)) 0
          ∗ semVal (V d c j, SemLoc.dma (dsem 6)) 0 ∗ semVal (V d c j, SemLoc.dma (dsem 7)) 0 ∗ semVal (V d c j, SemLoc.dma (dsem 8)) 0
          ∗ semVal (V d c j, SemLoc.dma (dsem 9)) 0 ∗ semVal (V d c j, SemLoc.dma (dsem 10)) 0 ∗ semVal (V d c j, SemLoc.dma (dsem 11)) 0)
          ∗ bigSep (ownCells (V d c j) \ Finset.univ.map (cellE (V d c j))) fun g => semVal g 0) := by
  unfold SparseCore.Cfg.ownSems0
  rw [SparseCore.bigSep_sdiff_split' (cells_sub d c j), BI.bigSep_map, bigSep_fin12]
  rfl

/-- The eight scratch buffers of a vector subcore, by number. -/
def scr (k : Fin 8) : Ref sig .scVector := ⟨.vmem, ⟨k.val, by have := k.isLt; show k.val < 8; omega⟩, rfl⟩

def bufE (c : Fin τ.nSC) (j : Fin τ.nSub) : Fin 8 ↪ DevRef τ sig :=
  ⟨fun k => (Proc.scVector c j).devRef (scr k), fun a b h => by
    have h2 : scr a = scr b := Proc.devRef_injective _ h
    have h3 := congrArg (fun r : Ref sig .scVector => r.idx.val) h2
    exact Fin.ext h3⟩

theorem bufs_sub (c : Fin τ.nSC) (j : Fin τ.nSub) : Finset.univ.map (bufE c j) ⊆ ownRefs (τ := τ) (sig := sig) (Proc.scVector c j) := by
  intro b hb
  obtain ⟨k, -, rfl⟩ := Finset.mem_map.mp hb
  show (Proc.scVector c j).devRef (scr k) ∈ ownRefs (τ := τ) (sig := sig) (Proc.scVector c j)
  exact SparseCore.Cfg.mem_ownRefs_of_owner (p := Proc.scVector c j) (b := (Proc.scVector c j).devRef (scr k)) rfl

/-- A vector subcore's own buffers: its eight scratch buffers at some contents, one by one, and the rest. -/
theorem ownBufs_scr (d : Dev nD) (c : Fin τ.nSC) (j : Fin τ.nSub) :
    (ownBufs (V d c j) : sProp 𝕄)
      = iprop(((∃ f, (V d c j).loc (scr 0) ↦{fullShare} f) ∗ (∃ f, (V d c j).loc (scr 1) ↦{fullShare} f) ∗ (∃ f, (V d c j).loc (scr 2) ↦{fullShare} f)
          ∗ (∃ f, (V d c j).loc (scr 3) ↦{fullShare} f) ∗ (∃ f, (V d c j).loc (scr 4) ↦{fullShare} f) ∗ (∃ f, (V d c j).loc (scr 5) ↦{fullShare} f)
          ∗ (∃ f, (V d c j).loc (scr 6) ↦{fullShare} f) ∗ (∃ f, (V d c j).loc (scr 7) ↦{fullShare} f))
          ∗ bigSep (ownRefs (τ := τ) (Proc.scVector c j) \ Finset.univ.map (bufE c j))
              fun b => iprop(∃ f, ((d, b) : Loc nD τ sig) ↦{fullShare} f)) := by
  unfold SparseCore.Cfg.ownBufs
  rw [SparseCore.bigSep_sdiff_split' (bufs_sub c j), BI.bigSep_map, bigSep_fin8]
  simp only [bufE, Function.Embedding.coeFn_mk]
  rfl

end Cert.Proof.K

end
-- ==== Proof.OutSplitK.lean ====
/-
  The staging array dealt to the tiles, window by window. The array `out` has shape [200, 16384, 128]. The tile at
  grid point (c, s) owns, in every plane r, the rows [1024·s + 512·c, 1024·s + 512·c + 512), which it fills in four
  windows of 128 rows (all 128 lanes): window (c, s, r, b) is plane r, rows [1024·s + 512·c + 128·b, + 128).
  Two different windows differ in the plane or in the row range: the map (s, c, b) ↦ 8·s + 4·c + b is one to one into
  [0, 128), and the row range of a window is [128·n, 128·n + 128) for that number n; so the windows are pairwise
  disjoint. Every element (r, j, k) lies in the window with s = j / 1024, c = (j mod 1024) / 512, b = (j mod 512) / 128.
  Hence the points-to of the whole array is the separating conjunction of the 2·16·200·4 windows' points-to.
-/
import proofs.«206412_g41506563948974_cont_8to1_b_738_25_alg».proof.Proof.CommonK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of subcore `s` of SparseCore `c`. -/
def coordsV (c : Fin (grid0.bound 0)) (s : Fin (grid0.bound 1)) : grid0.Coords := fun | 0 => c | 1 => s | ⟨_ + 2, h⟩ => absurd h (Nat.not_lt.2 (Nat.le_add_left _ _))

theorem cbase_coordsV (c : Fin (grid0.bound 0)) (s : Fin (grid0.bound 1)) (b : ℕ) :
    cbase (coordsV c s) b = 1024 * s.val + 512 * c.val + 128 * b := rfl

/-- Window (L, r, b) as a rectangle of the staging array: plane `r`, 128 rows from `cbase L b`, all lanes. -/
abbrev winRect (L : grid0.Coords) (r b : ℕ) (hr : r < 200) (hb : b < 4) : Rect S200x16384x128 :=
  Rect.unit (s := S200x16384x128) ![r, cbase L b, 0] S1x128x128.size (oin L r b hr hb)

/-- The elements of the staging array in window (L, r, b); empty outside the 200 planes and 4 chunks. -/
def winSet (L : grid0.Coords) (r b : ℕ) : Finset S200x16384x128.Idx :=
  if h : r < 200 ∧ b < 4 then (oWinM ![r, cbase L b, 0] (oin L r b h.1 h.2)).view.set else ∅

theorem winSet_eq (L : grid0.Coords) (r b : ℕ) (hr : r < 200) (hb : b < 4) :
    winSet L r b = (oWinM ![r, cbase L b, 0] (oin L r b hr hb)).view.set := by
  unfold winSet; rw [dif_pos ⟨hr, hb⟩]

/-- The window's elements are its rectangle's. -/
theorem winSet_rect (L : grid0.Coords) (r b : ℕ) (hr : r < 200) (hb : b < 4) :
    winSet L r b = (winRect L r b hr hb).set := by
  rw [winSet_eq L r b hr hb]
  show (((View.whole (main_v2_scv : Ref sig .scVector)).slice (winRect L r b hr hb)).reshape S128x128
    Gen.squeezes_S1x128x128_S128x128.numel_eq).set = _
  rw [View.set_reshape, View.set_slice]; exact Finset.map_refl

/-- The index type of the windows: SparseCore, subcore, plane, chunk. -/
abbrev WIx : Type := Fin 2 × Fin 16 × Fin 200 × Fin 4

/-- The window of an index. -/
def winOf (t : WIx) : Finset S200x16384x128.Idx := winSet (coordsV t.1 t.2.1) t.2.2.1.val t.2.2.2.val

theorem winOf_rect (t : WIx) :
    winOf t = (winRect (coordsV t.1 t.2.1) t.2.2.1.val t.2.2.2.val t.2.2.1.isLt t.2.2.2.isLt).set :=
  winSet_rect _ _ _ _ _

/-- Different windows are disjoint: they differ in the plane or in the row range. -/
theorem win_disjoint : ∀ t ∈ (Finset.univ : Finset WIx), ∀ t' ∈ (Finset.univ : Finset WIx), t ≠ t' → Disjoint (winOf t) (winOf t') := by
  rintro ⟨c, s, r, b⟩ - ⟨c', s', r', b'⟩ - hne
  rw [winOf_rect, winOf_rect]
  have hc : c.val < 2 := c.isLt
  have hc' : c'.val < 2 := c'.isLt
  have hs : s.val < 16 := s.isLt
  have hs' : s'.val < 16 := s'.isLt
  have hb : b.val < 4 := b.isLt
  have hb' : b'.val < 4 := b'.isLt
  by_cases hrr : r.val = r'.val
  · -- the same plane: the row ranges are separated
    have hcsb : ¬(c.val = c'.val ∧ s.val = s'.val ∧ b.val = b'.val) := fun ⟨e1, e2, e3⟩ =>
      hne (by rw [Fin.ext e1, Fin.ext e2, Fin.ext hrr, Fin.ext e3])
    refine Rect.unit_disjoint (1 : Fin 3) ?_
    show 1024 * s.val + 512 * c.val + 128 * b.val + 128 ≤ 1024 * s'.val + 512 * c'.val + 128 * b'.val
      ∨ 1024 * s'.val + 512 * c'.val + 128 * b'.val + 128 ≤ 1024 * s.val + 512 * c.val + 128 * b.val
    omega
  · refine Rect.unit_disjoint (0 : Fin 3) ?_
    show r.val + 1 ≤ r'.val ∨ r'.val + 1 ≤ r.val
    omega

/-- Every element of the staging array lies in a window. -/
theorem win_cover : (Finset.univ : Finset WIx).biUnion winOf = Finset.univ := by
  ext i
  simp only [Finset.mem_biUnion, Finset.mem_univ, true_and, iff_true]
  have h0 : (i 0).val < 200 := (i 0).isLt
  have h1 : (i 1).val < 16384 := (i 1).isLt
  have h2 : (i 2).val < 128 := (i 2).isLt
  refine ⟨(⟨(i 1).val % 1024 / 512, by omega⟩, ⟨(i 1).val / 1024, by omega⟩, ⟨(i 0).val, h0⟩, ⟨(i 1).val % 512 / 128, by omega⟩), ?_⟩
  rw [winOf_rect]
  refine Rect.mem_set_unit.mpr fun a => ?_
  match a with
  | ⟨0, _⟩ => exact ⟨Nat.le_refl _, Nat.lt_succ_self _⟩
  | ⟨1, _⟩ =>
    show 1024 * ((i 1).val / 1024) + 512 * ((i 1).val % 1024 / 512) + 128 * ((i 1).val % 512 / 128) ≤ (i 1).val
      ∧ (i 1).val < 1024 * ((i 1).val / 1024) + 512 * ((i 1).val % 1024 / 512) + 128 * ((i 1).val % 512 / 128) + 128
    omega
  | ⟨2, _⟩ => exact ⟨Nat.zero_le _, by show (i 2).val < 0 + 128; omega⟩

/-- The whole staging array is its windows, over the one index type. -/
theorem out_split_flat (d : Dev nD) (f : Buf (Elt F) (oLoc d)) :
    (oLoc d ↦{fullShare} f : sProp 𝕄) = bigSep Finset.univ fun t : WIx => oLoc d ↦[winOf t]{fullShare} f := by
  rw [← pointsTo_biUnion Finset.univ (ℓ := oLoc d) winOf win_disjoint, win_cover]; try rfl

/-- The whole staging array is its 2·16·200·4 windows. -/
theorem out_split (d : Dev nD) (f : Buf (Elt F) (oLoc d)) :
    (oLoc d ↦{fullShare} f : sProp 𝕄)
      = bigSep Finset.univ fun c : Fin 2 => bigSep Finset.univ fun s : Fin 16 => bigSep Finset.univ fun r : Fin 200 =>
          bigSep Finset.univ fun b : Fin 4 => oLoc d ↦[winSet (coordsV c s) r.val b.val]{fullShare} f := by
  rw [out_split_flat, bigSep_univ_prod]
  refine bigSep_congr fun c _ => ?_
  rw [bigSep_univ_prod]
  refine bigSep_congr fun s _ => ?_
  rw [bigSep_univ_prod]
  rfl

/-- The windows, all at one contents, join to the whole staging array. -/
theorem out_join (d : Dev nD) (g : Buf (Elt F) (oLoc d)) :
    (bigSep Finset.univ fun c : Fin 2 => bigSep Finset.univ fun s : Fin 16 => bigSep Finset.univ fun r : Fin 200 =>
        bigSep Finset.univ fun b : Fin 4 => oLoc d ↦[winSet (coordsV c s) r.val b.val]{fullShare} g)
      ⊢ (oLoc d ↦{fullShare} g : sProp 𝕄) :=
  Entails.of_eq (out_split d g).symm

/-! ## The windows as resources, row by row -/

/-- Window (L, r, b) of the staging array at contents `f`. -/
def Win (d : Dev nD) (L : grid0.Coords) (f : Buf (Elt F) (oLoc d)) (r b : ℕ) : sProp 𝕄 := oLoc d ↦[winSet L r b]{fullShare} f

/-- The first three windows of each row in `s`. -/
def Rows (d : Dev nD) (L : grid0.Coords) (f : Buf (Elt F) (oLoc d)) (s : Finset ℕ) : sProp 𝕄 :=
  bigSep s fun r => iprop(Win d L f r 0 ∗ Win d L f r 1 ∗ Win d L f r 2)

/-- The fourth window of each row in `s`. -/
def Rows3 (d : Dev nD) (L : grid0.Coords) (f : Buf (Elt F) (oLoc d)) (s : Finset ℕ) : sProp 𝕄 :=
  bigSep s fun r => Win d L f r 3

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [SparseCore.bigSep_insert' (by decide), SparseCore.bigSep_insert' (by decide), SparseCore.bigSep_insert' (by decide),
    bigSep_singleton]

/-- Four conjuncts regrouped as three and one. -/
theorem sep_regroup4 (A B C D : sProp 𝕄) : iprop(A ∗ B ∗ C ∗ D) = iprop((A ∗ B ∗ C) ∗ D) :=
  show BI.sep A (BI.sep B (BI.sep C D)) = BI.sep (BI.sep A (BI.sep B C)) D from
    ((Std.Associative.assoc (op := (BI.sep : sProp 𝕄 → sProp 𝕄 → sProp 𝕄)) A (BI.sep B C) D).trans
      (congrArg (BI.sep A) (Std.Associative.assoc (op := (BI.sep : sProp 𝕄 → sProp 𝕄 → sProp 𝕄)) B C D))).symm

/-- A separating conjunction over `Fin n` of a function of the value is the one over `Finset.range n`. -/
theorem bigSep_fin_range (n : ℕ) (Φ : ℕ → sProp 𝕄) :
    (bigSep Finset.univ fun r : Fin n => Φ r.val) = bigSep (Finset.range n) Φ := by
  rw [← Nat.Iio_eq_range, ← Fin.map_valEmbedding_univ, BI.bigSep_map]
  rfl

/-- The whole staging array, tile by tile: each tile's rows as three windows and one. -/
theorem out_split_rows (d : Dev nD) (f : Buf (Elt F) (oLoc d)) :
    (oLoc d ↦{fullShare} f : sProp 𝕄)
      = bigSep Finset.univ fun c : Fin 2 => bigSep Finset.univ fun s : Fin 16 =>
          iprop(Rows d (coordsV c s) f (Finset.range 200) ∗ Rows3 d (coordsV c s) f (Finset.range 200)) := by
  rw [out_split]
  refine bigSep_congr fun c _ => bigSep_congr fun s _ => ?_
  have e1 : (bigSep Finset.univ fun r : Fin 200 => bigSep Finset.univ fun b : Fin 4 =>
        (oLoc d ↦[winSet (coordsV c s) r.val b.val]{fullShare} f : sProp 𝕄))
      = bigSep Finset.univ fun r : Fin 200 =>
          iprop((Win d (coordsV c s) f r.val 0 ∗ Win d (coordsV c s) f r.val 1 ∗ Win d (coordsV c s) f r.val 2) ∗ Win d (coordsV c s) f r.val 3) :=
    bigSep_congr fun r _ => (bigSep_fin4 (fun b : Fin 4 => (oLoc d ↦[winSet (coordsV c s) r.val b.val]{fullShare} f : sProp 𝕄))).trans (by
      exact sep_regroup4 (Win d (coordsV c s) f r.val 0) (Win d (coordsV c s) f r.val 1) (Win d (coordsV c s) f r.val 2) (Win d (coordsV c s) f r.val 3))
  have e2 := bigSep_fin_range (F := F) 200 (fun r => iprop((Win d (coordsV c s) f r 0 ∗ Win d (coordsV c s) f r 1 ∗ Win d (coordsV c s) f r 2)
    ∗ Win d (coordsV c s) f r 3))
  have e3 := bigSep_sep (Finset.range 200) (fun r => iprop(Win d (coordsV c s) f r 0 ∗ Win d (coordsV c s) f r 1 ∗ Win d (coordsV c s) f r 2))
    (fun r => Win d (coordsV c s) f r 3)
  exact e1.trans (e2.trans e3)

theorem Rows_empty (d : Dev nD) (L : grid0.Coords) (f : Buf (Elt F) (oLoc d)) : Rows d L f ∅ = (iprop(emp) : sProp 𝕄) := rfl
theorem Rows3_empty (d : Dev nD) (L : grid0.Coords) (f : Buf (Elt F) (oLoc d)) : Rows3 d L f ∅ = (iprop(emp) : sProp 𝕄) := rfl

theorem Rows_insert (d : Dev nD) (L : grid0.Coords) (f : Buf (Elt F) (oLoc d)) {s : Finset ℕ} {r : ℕ} (h : r ∉ s) :
    Rows d L f (insert r s) = iprop((Win d L f r 0 ∗ Win d L f r 1 ∗ Win d L f r 2) ∗ Rows d L f s) := by
  unfold Rows; rw [bigSep_insert h]; rfl

theorem Rows3_insert (d : Dev nD) (L : grid0.Coords) (f : Buf (Elt F) (oLoc d)) {s : Finset ℕ} {r : ℕ} (h : r ∉ s) :
    Rows3 d L f (insert r s) = iprop(Win d L f r 3 ∗ Rows3 d L f s) := by
  unfold Rows3; rw [bigSep_insert h]; rfl

/-- A window only depends on the contents at its own elements. -/
theorem Win_congr (d : Dev nD) (L : grid0.Coords) (f g : Buf (Elt F) (oLoc d)) (r b : ℕ) (h : ∀ y ∈ winSet L r b, f y = g y) :
    Win d L f r b = Win d L g r b := by
  unfold Win; exact pointsTo_congr h

/-- The window as a tile's copy addresses it. -/
theorem Win_eq (d : Dev nD) (L : grid0.Coords) (f : Buf (Elt F) (oLoc d)) (r b : ℕ) (hr : r < 200) (hb : b < 4)
    (c : Fin τ.nSC) (j : Fin τ.nSub) :
    ((oWinM ![r, cbase L b, 0] (oin L r b hr hb)).view.loc (V d c j) ↦[(oWinM ![r, cbase L b, 0] (oin L r b hr hb)).view.set]{fullShare} f : sProp 𝕄)
      = Win d L f r b := by
  unfold Win; rw [winSet_eq L r b hr hb]

/-- The same at any spelling of the offset. -/
theorem Win_eq_off (d : Dev nD) (L : grid0.Coords) (f : Buf (Elt F) (oLoc d)) (r b : ℕ) (hr : r < 200) (hb : b < 4)
    (c : Fin τ.nSC) (j : Fin τ.nSub) (off : Fin 3 → ℕ) (h : ∀ a, off a + S1x128x128.size a ≤ S200x16384x128.size a)
    (e : off = ![r, cbase L b, 0]) :
    ((oWinM off h).view.loc (V d c j) ↦[(oWinM off h).view.set]{fullShare} f : sProp 𝕄) = Win d L f r b := by
  subst e; exact Win_eq d L f r b hr hb c j

end Cert.Proof.K

end
-- ==== Proof.LandK.lean ====
/-
  What a copy leaves in a buffer. A tile's copy of chunk b of row r of the transposed index array moves the 128
  words xT[r, cbase + y], y < 128, into one of its four list buffers, which it fills: afterwards the buffer holds
  exactly those words. The source is addressed as a [1, 128] slice of the array at offset (r, cbase), squeezed to [128]:
  entry y of the squeezed slice is entry (0, y) of the slice, which is entry (r, cbase + y) of the array. Every word of
  the array names a table row (it is below 1000000), so every word the list buffer holds afterwards does.
-/
import proofs.«206412_g41506563948974_cont_8to1_b_738_25_alg».proof.Proof.CommonK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

/-! ## The copies' source and target windows only depend on their offsets -/

theorem xRowM_congr {off off' : Fin 2 → ℕ} (h : ∀ a, off a + S1x128.size a ≤ S200x16384.size a)
    (h' : ∀ a, off' a + S1x128.size a ≤ S200x16384.size a) (e : off = off') : xRowM off h = xRowM off' h' := by
  subst e; rfl

theorem oWinM_congr {off off' : Fin 3 → ℕ} (h : ∀ a, off a + S1x128x128.size a ≤ S200x16384x128.size a)
    (h' : ∀ a, off' a + S1x128x128.size a ≤ S200x16384x128.size a) (e : off = off') : oWinM off h = oWinM off' h' := by
  subst e; rfl

/-! ## A row chunk read through its squeezed slice -/

/-- Entry `y` of the squeezed [1, 128] slice at offset `off` is entry `(off 0, off 1 + y)` of the array. -/
theorem xRow_read (fX : S200x16384.Idx → BitVec 32) (off : Fin 2 → ℕ) (h : ∀ a, off a + S1x128.size a ≤ S200x16384.size a)
    (y : S128.Idx) (k : S200x16384.Idx) (hk0 : (k 0).val = off 0) (hk1 : (k 1).val = off 1 + (y 0).val) :
    View.read (Elt F) (xRowM off h).view fX y = fX k := by
  refine (View.read_apply _ _).trans ((cast_eq _ _).trans (congrArg fX ?_))
  show (Rect.unit (s := S200x16384) off S1x128.size h).emb (Shape.reshapeEquiv Gen.squeezes_S1x128_S128.numel_eq y) = k
  rw [Shape.reshapeEquiv_cons_one]
  funext a
  refine Fin.ext ?_
  match a with
  | ⟨0, _⟩ => show off 0 + 1 * 0 = (k 0).val; omega
  | ⟨1, _⟩ => show off 1 + 1 * (y 0).val = (k 1).val; omega

/-- The chunk of row `r` at column `cbase L b`, read through its squeezed slice, is `idxC`. -/
theorem xRow_read_idxC (fX : S200x16384.Idx → BitVec 32) (L : grid0.Coords) (off : Fin 2 → ℕ)
    (h : ∀ a, off a + S1x128.size a ≤ S200x16384.size a) (r b : ℕ) (hr : r < 200) (hb : b < 4) (hoff : off = ![r, cbase L b]) :
    View.read (Elt F) (xRowM off h).view fX = idxC fX L r b := by
  subst hoff
  funext y
  have hy : (y 0).val < 128 := (y 0).isLt
  have hc := cbase_le L b hb
  unfold idxC
  refine xRow_read fX _ h y _ ?_ ?_
  · show r % 200 = r
    exact Nat.mod_eq_of_lt hr
  · show (cbase L b + (y 0).val) % 16384 = cbase L b + (y 0).val
    exact Nat.mod_eq_of_lt (by omega)

/-! ### List buffer 0 -/

/-- After the copy, every word of list buffer 0 names a table row. -/
theorem hin_0 (fX : S200x16384.Idx → BitVec 32) (hX : ∀ j, (fX j).toNat < 1000000) :
    ∀ (f : S128.Idx → BitVec 32) (off : Fin 2 → ℕ) (h : ∀ a, off a + S1x128.size a ≤ S200x16384.size a) x,
      ((i0V).view.read (Elt F) (View.write (Elt F) (i0V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 0, names a table row. -/
theorem hinC_0 (fX : S200x16384.Idx → BitVec 32) (hX : ∀ j, (fX j).toNat < 1000000) (L : grid0.Coords) :
    ∀ (r b : ℕ) x, ((i0V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 0. -/
theorem land_idx_0 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i0V).view f (ReadAs.same.apply (View.read (Elt F) (xRowM off h).view fX)) Finset.univ = idxC fX L r b := by
  rw [View.write_whole_univ]
  exact xRow_read_idxC fX L off h r b hr hb hoff

/-! ### List buffer 1 -/

/-- After the copy, every word of list buffer 1 names a table row. -/
theorem hin_1 (fX : S200x16384.Idx → BitVec 32) (hX : ∀ j, (fX j).toNat < 1000000) :
    ∀ (f : S128.Idx → BitVec 32) (off : Fin 2 → ℕ) (h : ∀ a, off a + S1x128.size a ≤ S200x16384.size a) x,
      ((i1V).view.read (Elt F) (View.write (Elt F) (i1V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 1, names a table row. -/
theorem hinC_1 (fX : S200x16384.Idx → BitVec 32) (hX : ∀ j, (fX j).toNat < 1000000) (L : grid0.Coords) :
    ∀ (r b : ℕ) x, ((i1V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 1. -/
theorem land_idx_1 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i1V).view f (ReadAs.same.apply (View.read (Elt F) (xRowM off h).view fX)) Finset.univ = idxC fX L r b := by
  rw [View.write_whole_univ]
  exact xRow_read_idxC fX L off h r b hr hb hoff

/-! ### List buffer 2 -/

/-- After the copy, every word of list buffer 2 names a table row. -/
theorem hin_2 (fX : S200x16384.Idx → BitVec 32) (hX : ∀ j, (fX j).toNat < 1000000) :
    ∀ (f : S128.Idx → BitVec 32) (off : Fin 2 → ℕ) (h : ∀ a, off a + S1x128.size a ≤ S200x16384.size a) x,
      ((i2V).view.read (Elt F) (View.write (Elt F) (i2V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 2, names a table row. -/
theorem hinC_2 (fX : S200x16384.Idx → BitVec 32) (hX : ∀ j, (fX j).toNat < 1000000) (L : grid0.Coords) :
    ∀ (r b : ℕ) x, ((i2V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 2. -/
theorem land_idx_2 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i2V).view f (ReadAs.same.apply (View.read (Elt F) (xRowM off h).view fX)) Finset.univ = idxC fX L r b := by
  rw [View.write_whole_univ]
  exact xRow_read_idxC fX L off h r b hr hb hoff

/-! ### List buffer 3 -/

/-- After the copy, every word of list buffer 3 names a table row. -/
theorem hin_3 (fX : S200x16384.Idx → BitVec 32) (hX : ∀ j, (fX j).toNat < 1000000) :
    ∀ (f : S128.Idx → BitVec 32) (off : Fin 2 → ℕ) (h : ∀ a, off a + S1x128.size a ≤ S200x16384.size a) x,
      ((i3V).view.read (Elt F) (View.write (Elt F) (i3V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 3, names a table row. -/
theorem hinC_3 (fX : S200x16384.Idx → BitVec 32) (hX : ∀ j, (fX j).toNat < 1000000) (L : grid0.Coords) :
    ∀ (r b : ℕ) x, ((i3V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 3. -/
theorem land_idx_3 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i3V).view f (ReadAs.same.apply (View.read (Elt F) (xRowM off h).view fX)) Finset.univ = idxC fX L r b := by
  rw [View.write_whole_univ]
  exact xRow_read_idxC fX L off h r b hr hb hoff

/-! ## The gather: what the stream leaves in a row buffer -/

/-- The whole padded table read through the tile's view of it is the table. -/
theorem tAll_read (fT : S1000000x128.Idx → F .f32) (z : S1000000x128.Idx) :
    View.read (Elt F) (tAllM).view fT z = fT z := by
  refine (View.read_apply _ _).trans ((cast_eq _ _).trans (congrArg fT ?_))
  funext a
  refine Fin.ext ?_
  match a with
  | ⟨0, _⟩ => show 0 + 1 * (z 0).val = (z 0).val; omega
  | ⟨1, _⟩ => show 0 + 1 * (z 1).val = (z 1).val; omega

/-- Entry `k` of a rank-one list in row-major order is entry `k`. -/
theorem rowMajor_symm_S128 (k : Fin S128.numel) (k' : Fin 128) (e : k.val = k'.val) :
    S128.rowMajor.symm k = ValueIdx.ix1 k' := by
  rw [Equiv.symm_apply_eq]
  refine Fin.ext ?_
  rw [Shape.rowMajor_val_one]
  exact e

/-- Under the list's range, the row the lookup clamps to is the word's own value. -/
theorem rowOf_val_of_lt' {w : BitVec 32} (h : w.toNat < 1000000) : (Cert.Lookup.rowOf w).val = w.toNat :=
  Cert.Lookup.rowOf_val_of_lt h

/-- The gather over list buffer 0 leaves in row buffer 0 the table rows the list names. -/
theorem land_gather_0 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i0V).view I x).toNat < S1000000x128.size gathers_S1000000x128_S128x128.axis)
    (r b : ℕ) (hIe : I = idxC fX L r b) :
    (p0V).view.writes (Elt F) g [⟨Rect.whole S128x128, SparseCore.gatherPayload gathers_S1000000x128_S128x128 (View.read (Elt F) (tAllM).view fT)
        (SparseCore.rows (View.read (Elt F) (i0V).view I) hn hI)⟩] = pairC fX fT L r b := by
  subst hIe
  refine (View.write_univ_eq_writes_whole (Val := Elt F) (p0V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 1 leaves in row buffer 1 the table rows the list names. -/
theorem land_gather_1 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i1V).view I x).toNat < S1000000x128.size gathers_S1000000x128_S128x128.axis)
    (r b : ℕ) (hIe : I = idxC fX L r b) :
    (p1V).view.writes (Elt F) g [⟨Rect.whole S128x128, SparseCore.gatherPayload gathers_S1000000x128_S128x128 (View.read (Elt F) (tAllM).view fT)
        (SparseCore.rows (View.read (Elt F) (i1V).view I) hn hI)⟩] = pairC fX fT L r b := by
  subst hIe
  refine (View.write_univ_eq_writes_whole (Val := Elt F) (p1V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 2 leaves in row buffer 2 the table rows the list names. -/
theorem land_gather_2 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i2V).view I x).toNat < S1000000x128.size gathers_S1000000x128_S128x128.axis)
    (r b : ℕ) (hIe : I = idxC fX L r b) :
    (p2V).view.writes (Elt F) g [⟨Rect.whole S128x128, SparseCore.gatherPayload gathers_S1000000x128_S128x128 (View.read (Elt F) (tAllM).view fT)
        (SparseCore.rows (View.read (Elt F) (i2V).view I) hn hI)⟩] = pairC fX fT L r b := by
  subst hIe
  refine (View.write_univ_eq_writes_whole (Val := Elt F) (p2V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 3 leaves in row buffer 3 the table rows the list names. -/
theorem land_gather_3 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i3V).view I x).toNat < S1000000x128.size gathers_S1000000x128_S128x128.axis)
    (r b : ℕ) (hIe : I = idxC fX L r b) :
    (p3V).view.writes (Elt F) g [⟨Rect.whole S128x128, SparseCore.gatherPayload gathers_S1000000x128_S128x128 (View.read (Elt F) (tAllM).view fT)
        (SparseCore.rows (View.read (Elt F) (i3V).view I) hn hI)⟩] = pairC fX fT L r b := by
  subst hIe
  refine (View.write_univ_eq_writes_whole (Val := Elt F) (p3V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

end Cert.Proof.K

end
-- ==== Proof.WinLandK.lean ====
/-
  What a tile's copy-out leaves in its window of the staging array. The window (L, r, b) is the [1, 128, 128] slice of
  the array at offset (r, cbase L b, 0), squeezed to [128, 128]: its entry (y0, y1) is the array's entry
  (r, cbase L b + y0, y1). The copy fills the window with the row buffer's contents, which are the 128 table rows
  named by chunk b of row r of the transposed index array: entry (y0, y1) is tb[xT[r, cbase L b + y0], y1]. That is
  the staging array's intended entry at (r, cbase L b + y0, y1); so after the copy the window holds its part of the
  intended array.
-/
import proofs.«206412_g41506563948974_cont_8to1_b_738_25_alg».proof.Proof.OutSplitK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

/-- Entry `(y0, y1)` of the squeezed [1, 128, 128] slice at offset `off` is the array's entry
    `(off 0, off 1 + y0, off 2 + y1)`. -/
theorem oWin_emb (off : Fin 3 → ℕ) (h : ∀ a, off a + S1x128x128.size a ≤ S200x16384x128.size a) (y : S128x128.Idx)
    (k : S200x16384x128.Idx) (hk0 : (k 0).val = off 0) (hk1 : (k 1).val = off 1 + (y 0).val) (hk2 : (k 2).val = off 2 + (y 1).val) :
    (oWinM off h).view.emb y = k := by
  show (Rect.unit (s := S200x16384x128) off S1x128x128.size h).emb (Shape.reshapeEquiv Gen.squeezes_S1x128x128_S128x128.numel_eq y) = k
  rw [Shape.reshapeEquiv_cons_one]
  funext a
  refine Fin.ext ?_
  match a with
  | ⟨0, _⟩ => show off 0 + 1 * 0 = (k 0).val; omega
  | ⟨1, _⟩ => show off 1 + 1 * (y 0).val = (k 1).val; omega
  | ⟨2, _⟩ => show off 2 + 1 * (y 1).val = (k 2).val; omega

/-- The 128 words of chunk `b` of row `r`, without the reductions modulo the extents. -/
theorem idxC_apply (fX : S200x16384.Idx → BitVec 32) (L : grid0.Coords) (r b : ℕ) (hr : r < 200) (hb : b < 4) (y0 : Fin 128)
    (hlt : cbase L b + y0.val < 16384) :
    idxC fX L r b (ValueIdx.ix1 y0) = fX (ValueIdx.ix2 (⟨r, hr⟩ : Fin 200) (⟨cbase L b + y0.val, hlt⟩ : Fin 16384)) := by
  unfold idxC
  refine congrArg fX ?_
  funext a
  refine Fin.ext ?_
  match a with
  | ⟨0, _⟩ => exact Nat.mod_eq_of_lt hr
  | ⟨1, _⟩ => exact Nat.mod_eq_of_lt hlt

/-! ### Row buffer 0 -/

/-- After the copy-out from row buffer 0, the window's entry `y` is the intended array's. -/
theorem land_store_emb_0 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p0V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p0V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_0 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p0V).view P)⟩]) y
        = Cert.Lookup.GK (F := F) fX fT y := by
  intro y hy
  obtain ⟨y', -, rfl⟩ := Finset.mem_map.mp hy
  exact land_store_emb_0 fX fT L fO off h P r b hr hb hoff hP y'

/-- After the copy-out from row buffer 0, the window as the tile's copy addresses it is the window of the intended array. -/
theorem Win_land_0 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p0V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_0 fX fT L fO _ h P r b hr hb rfl hP y hy

/-! ### Row buffer 1 -/

/-- After the copy-out from row buffer 1, the window's entry `y` is the intended array's. -/
theorem land_store_emb_1 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p1V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p1V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_1 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p1V).view P)⟩]) y
        = Cert.Lookup.GK (F := F) fX fT y := by
  intro y hy
  obtain ⟨y', -, rfl⟩ := Finset.mem_map.mp hy
  exact land_store_emb_1 fX fT L fO off h P r b hr hb hoff hP y'

/-- After the copy-out from row buffer 1, the window as the tile's copy addresses it is the window of the intended array. -/
theorem Win_land_1 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p1V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_1 fX fT L fO _ h P r b hr hb rfl hP y hy

/-! ### Row buffer 2 -/

/-- After the copy-out from row buffer 2, the window's entry `y` is the intended array's. -/
theorem land_store_emb_2 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p2V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p2V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_2 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p2V).view P)⟩]) y
        = Cert.Lookup.GK (F := F) fX fT y := by
  intro y hy
  obtain ⟨y', -, rfl⟩ := Finset.mem_map.mp hy
  exact land_store_emb_2 fX fT L fO off h P r b hr hb hoff hP y'

/-- After the copy-out from row buffer 2, the window as the tile's copy addresses it is the window of the intended array. -/
theorem Win_land_2 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p2V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_2 fX fT L fO _ h P r b hr hb rfl hP y hy

/-! ### Row buffer 3 -/

/-- After the copy-out from row buffer 3, the window's entry `y` is the intended array's. -/
theorem land_store_emb_3 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p3V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p3V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_3 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p3V).view P)⟩]) y
        = Cert.Lookup.GK (F := F) fX fT y := by
  intro y hy
  obtain ⟨y', -, rfl⟩ := Finset.mem_map.mp hy
  exact land_store_emb_3 fX fT L fO off h P r b hr hb hoff hP y'

/-- After the copy-out from row buffer 3, the window as the tile's copy addresses it is the window of the intended array. -/
theorem Win_land_3 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p3V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_3 fX fT L fO _ h P r b hr hb rfl hP y hy

end Cert.Proof.K

end
-- ==== Proof.InvK.lean ====
/-
  What one tile holds between two trips of its loop over the 200 rows of `xT`.
  The tile runs a ring of four slots. Before trip `n` (row `n`): the gathers of row `n`'s chunks 0, 1, 2 are in
  flight into the row buffers 0, 1, 2, the copy of chunk 3's row numbers is in flight into list buffer 3, the
  copy-out of chunk 3 of row `n - 1` is in flight from row buffer 3 (none before trip 0); rows below `n` of the
  tile's columns of `out` hold the looked-up rows (chunk 3 of row `n - 1` excepted), rows from `n` on hold what
  they held at the start. After the last trip only the copy-out of chunk 3 of row 199 is in flight.
  Every buffer's contents is named as a function of `xT` and the padded table (`idxC`, `pairC`, `GK`).
-/
import proofs.«206412_g41506563948974_cont_8to1_b_738_25_alg».proof.Proof.CommonK
import proofs.«206412_g41506563948974_cont_8to1_b_738_25_alg».proof.Proof.OutSplitK
import proofs.«206412_g41506563948974_cont_8to1_b_738_25_alg».proof.Proof.LandK
import proofs.«206412_g41506563948974_cont_8to1_b_738_25_alg».proof.Proof.WinLandK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem pts_x (q : PosShare TreeShare) (f : Buf (Elt F) (xLoc d)) : ((xV).view.loc (thr d L) ↦{q} f : sProp 𝕄) = xLoc d ↦{q} f := rfl
theorem pts_t (q : PosShare TreeShare) (f : Buf (Elt F) (tLoc d)) : ((tV).view.loc (thr d L) ↦{q} f : sProp 𝕄) = tLoc d ↦{q} f := rfl
theorem pts_s0 (f : Buf (Elt F) ((thr d L).loc (scr 0))) : ((i0V).view.loc (thr d L) ↦{fullShare} f : sProp 𝕄) = (thr d L).loc (scr 0) ↦{fullShare} f := rfl
theorem pts_s1 (f : Buf (Elt F) ((thr d L).loc (scr 1))) : ((i1V).view.loc (thr d L) ↦{fullShare} f : sProp 𝕄) = (thr d L).loc (scr 1) ↦{fullShare} f := rfl
theorem pts_s2 (f : Buf (Elt F) ((thr d L).loc (scr 2))) : ((i2V).view.loc (thr d L) ↦{fullShare} f : sProp 𝕄) = (thr d L).loc (scr 2) ↦{fullShare} f := rfl
theorem pts_s3 (f : Buf (Elt F) ((thr d L).loc (scr 3))) : ((i3V).view.loc (thr d L) ↦{fullShare} f : sProp 𝕄) = (thr d L).loc (scr 3) ↦{fullShare} f := rfl
theorem pts_s4 (f : Buf (Elt F) ((thr d L).loc (scr 4))) : ((p0V).view.loc (thr d L) ↦{fullShare} f : sProp 𝕄) = (thr d L).loc (scr 4) ↦{fullShare} f := rfl
theorem pts_s5 (f : Buf (Elt F) ((thr d L).loc (scr 5))) : ((p1V).view.loc (thr d L) ↦{fullShare} f : sProp 𝕄) = (thr d L).loc (scr 5) ↦{fullShare} f := rfl
theorem pts_s6 (f : Buf (Elt F) ((thr d L).loc (scr 6))) : ((p2V).view.loc (thr d L) ↦{fullShare} f : sProp 𝕄) = (thr d L).loc (scr 6) ↦{fullShare} f := rfl
theorem pts_s7 (f : Buf (Elt F) ((thr d L).loc (scr 7))) : ((p3V).view.loc (thr d L) ↦{fullShare} f : sProp 𝕄) = (thr d L).loc (scr 7) ↦{fullShare} f := rfl
theorem cell_0 (n : ℕ) : (semVal (thr d L, SemLoc.dma (SemArray.sem cc0_scratch8)) n : sProp 𝕄) = semVal (thr d L, SemLoc.dma (dsem 0)) n := rfl
theorem cell_1 (n : ℕ) : (semVal (thr d L, SemLoc.dma (SemArray.sem cc0_scratch9)) n : sProp 𝕄) = semVal (thr d L, SemLoc.dma (dsem 1)) n := rfl
theorem cell_2 (n : ℕ) : (semVal (thr d L, SemLoc.dma (SemArray.sem cc0_scratch10)) n : sProp 𝕄) = semVal (thr d L, SemLoc.dma (dsem 2)) n := rfl
theorem cell_3 (n : ℕ) : (semVal (thr d L, SemLoc.dma (SemArray.sem cc0_scratch11)) n : sProp 𝕄) = semVal (thr d L, SemLoc.dma (dsem 3)) n := rfl
theorem cell_4 (n : ℕ) : (semVal (thr d L, SemLoc.dma (SemArray.sem cc0_scratch12)) n : sProp 𝕄) = semVal (thr d L, SemLoc.dma (dsem 4)) n := rfl
theorem cell_5 (n : ℕ) : (semVal (thr d L, SemLoc.dma (SemArray.sem cc0_scratch13)) n : sProp 𝕄) = semVal (thr d L, SemLoc.dma (dsem 5)) n := rfl
theorem cell_6 (n : ℕ) : (semVal (thr d L, SemLoc.dma (SemArray.sem cc0_scratch14)) n : sProp 𝕄) = semVal (thr d L, SemLoc.dma (dsem 6)) n := rfl
theorem cell_7 (n : ℕ) : (semVal (thr d L, SemLoc.dma (SemArray.sem cc0_scratch15)) n : sProp 𝕄) = semVal (thr d L, SemLoc.dma (dsem 7)) n := rfl
theorem cell_8 (n : ℕ) : (semVal (thr d L, SemLoc.dma (SemArray.sem cc0_scratch16)) n : sProp 𝕄) = semVal (thr d L, SemLoc.dma (dsem 8)) n := rfl
theorem cell_9 (n : ℕ) : (semVal (thr d L, SemLoc.dma (SemArray.sem cc0_scratch17)) n : sProp 𝕄) = semVal (thr d L, SemLoc.dma (dsem 9)) n := rfl
theorem cell_10 (n : ℕ) : (semVal (thr d L, SemLoc.dma (SemArray.sem cc0_scratch18)) n : sProp 𝕄) = semVal (thr d L, SemLoc.dma (dsem 10)) n := rfl
theorem cell_11 (n : ℕ) : (semVal (thr d L, SemLoc.dma (SemArray.sem cc0_scratch19)) n : sProp 𝕄) = semVal (thr d L, SemLoc.dma (dsem 11)) n := rfl

theorem lt4_0 : 0 < 4 := by decide
theorem lt4_1 : 1 < 4 := by decide
theorem lt4_2 : 2 < 4 := by decide
theorem lt4_3 : 3 < 4 := by decide

/-- The read share of `xT` (of the table) that the copies completing on list cell `b` (gather cell `b`) borrow. -/
abbrev tokx (q : PosShare TreeShare) (b : ℕ) : PosShare TreeShare := Transfers.shareTokN q b
abbrev tokt (q : PosShare TreeShare) (b : ℕ) : PosShare TreeShare := Transfers.shareTokN q (4 + b)

variable (O : CellTallies nD τ sig (HIx 1)) (W : Waits sig (HIx 1))
variable (fX : Buf (Elt F) (xLoc d)) (fT : Buf (Elt F) (tLoc d)) (fO : Buf (Elt F) (oLoc d)) (qx qt : PosShare TreeShare)

/-- What the tile leaves in `out`: the looked-up rows. -/
abbrev GKf : Buf (Elt F) (oLoc d) := Cert.Lookup.GK (F := F) fX fT

/-- DMA semaphore 0 of the tile at zero. -/
def CZ0 : sProp 𝕄 := semVal (thr d L, SemLoc.dma (SemArray.sem cc0_scratch8)) 0
/-- DMA semaphore 1 of the tile at zero. -/
def CZ1 : sProp 𝕄 := semVal (thr d L, SemLoc.dma (SemArray.sem cc0_scratch9)) 0
/-- DMA semaphore 2 of the tile at zero. -/
def CZ2 : sProp 𝕄 := semVal (thr d L, SemLoc.dma (SemArray.sem cc0_scratch10)) 0
/-- DMA semaphore 3 of the tile at zero. -/
def CZ3 : sProp 𝕄 := semVal (thr d L, SemLoc.dma (SemArray.sem cc0_scratch11)) 0
/-- DMA semaphore 4 of the tile at zero. -/
def CZ4 : sProp 𝕄 := semVal (thr d L, SemLoc.dma (SemArray.sem cc0_scratch12)) 0
/-- DMA semaphore 5 of the tile at zero. -/
def CZ5 : sProp 𝕄 := semVal (thr d L, SemLoc.dma (SemArray.sem cc0_scratch13)) 0
/-- DMA semaphore 6 of the tile at zero. -/
def CZ6 : sProp 𝕄 := semVal (thr d L, SemLoc.dma (SemArray.sem cc0_scratch14)) 0
/-- DMA semaphore 7 of the tile at zero. -/
def CZ7 : sProp 𝕄 := semVal (thr d L, SemLoc.dma (SemArray.sem cc0_scratch15)) 0
/-- DMA semaphore 8 of the tile at zero. -/
def CZ8 : sProp 𝕄 := semVal (thr d L, SemLoc.dma (SemArray.sem cc0_scratch16)) 0
/-- DMA semaphore 9 of the tile at zero. -/
def CZ9 : sProp 𝕄 := semVal (thr d L, SemLoc.dma (SemArray.sem cc0_scratch17)) 0
/-- DMA semaphore 10 of the tile at zero. -/
def CZ10 : sProp 𝕄 := semVal (thr d L, SemLoc.dma (SemArray.sem cc0_scratch18)) 0
/-- DMA semaphore 11 of the tile at zero. -/
def CZ11 : sProp 𝕄 := semVal (thr d L, SemLoc.dma (SemArray.sem cc0_scratch19)) 0
/-- The tile's read share number 0 of `xT`, whole. -/
def TX0 : sProp 𝕄 := (xV).view.loc (thr d L) ↦{tokx qx 0} fX
/-- The tile's read share number 0 of the padded table, whole. -/
def TT0 : sProp 𝕄 := (tV).view.loc (thr d L) ↦{tokt qt 0} fT
/-- List buffer 0 (row buffer 0) at some contents. -/
def IB0 : sProp 𝕄 := iprop(∃ f, (i0V).view.loc (thr d L) ↦{fullShare} f)
def PB0 : sProp 𝕄 := iprop(∃ g, (p0V).view.loc (thr d L) ↦{fullShare} g)
/-- The tile's read share number 1 of `xT`, whole. -/
def TX1 : sProp 𝕄 := (xV).view.loc (thr d L) ↦{tokx qx 1} fX
/-- The tile's read share number 1 of the padded table, whole. -/
def TT1 : sProp 𝕄 := (tV).view.loc (thr d L) ↦{tokt qt 1} fT
/-- List buffer 1 (row buffer 1) at some contents. -/
def IB1 : sProp 𝕄 := iprop(∃ f, (i1V).view.loc (thr d L) ↦{fullShare} f)
def PB1 : sProp 𝕄 := iprop(∃ g, (p1V).view.loc (thr d L) ↦{fullShare} g)
/-- The tile's read share number 2 of `xT`, whole. -/
def TX2 : sProp 𝕄 := (xV).view.loc (thr d L) ↦{tokx qx 2} fX
/-- The tile's read share number 2 of the padded table, whole. -/
def TT2 : sProp 𝕄 := (tV).view.loc (thr d L) ↦{tokt qt 2} fT
/-- List buffer 2 (row buffer 2) at some contents. -/
def IB2 : sProp 𝕄 := iprop(∃ f, (i2V).view.loc (thr d L) ↦{fullShare} f)
def PB2 : sProp 𝕄 := iprop(∃ g, (p2V).view.loc (thr d L) ↦{fullShare} g)
/-- The tile's read share number 3 of `xT`, whole. -/
def TX3 : sProp 𝕄 := (xV).view.loc (thr d L) ↦{tokx qx 3} fX
/-- The tile's read share number 3 of the padded table, whole. -/
def TT3 : sProp 𝕄 := (tV).view.loc (thr d L) ↦{tokt qt 3} fT
/-- List buffer 3 (row buffer 3) at some contents. -/
def IB3 : sProp 𝕄 := iprop(∃ f, (i3V).view.loc (thr d L) ↦{fullShare} f)
def PB3 : sProp 𝕄 := iprop(∃ g, (p3V).view.loc (thr d L) ↦{fullShare} g)

/-- The copy of row `r`'s chunk 3 of `xT` into list buffer 3, in flight, and what is left of the read share it borrows from. -/
def FI3 (r : ℕ) (hr : r < 200) : sProp 𝕄 :=
  iprop(Transfers.Flight countersEmb (thr d L) (SemLoc.dma (SemArray.sem cc0_scratch11)) (default : HIx 1) 4096
      iprop(((i3V).view.loc (thr d L) ↦{fullShare} idxC fX L r 3)
        ∗ ((xV).view.loc (thr d L) ↦[(xRowM ![r, cbase L 3] (xin L r 3 hr lt4_3)).view.set]{tokx qx 3} fX))
    ∗ ((xV).view.loc (thr d L) ↦[Finset.univ \ (xRowM ![r, cbase L 3] (xin L r 3 hr lt4_3)).view.set]{tokx qx 3} fX))

/-- The gather of row `r`'s chunk 0 into row buffer 0, in flight, and what is left of the read share it borrows from. -/
def FG0 (r : ℕ) : sProp 𝕄 :=
  iprop(Transfers.Flight countersEmb (thr d L) (SemLoc.dma (SemArray.sem cc0_scratch12)) (default : HIx 1) 524288
      iprop((((p0V).view.loc (thr d L) ↦{fullShare} pairC fX fT L r 0) ∗ ((i0V).view.loc (thr d L) ↦{fullShare} idxC fX L r 0))
        ∗ ((tV).view.loc (thr d L) ↦[(tAllM).view.set]{tokt qt 0} fT))
    ∗ ((tV).view.loc (thr d L) ↦[Finset.univ \ (tAllM).view.set]{tokt qt 0} fT))

/-- The gather of row `r`'s chunk 1 into row buffer 1, in flight, and what is left of the read share it borrows from. -/
def FG1 (r : ℕ) : sProp 𝕄 :=
  iprop(Transfers.Flight countersEmb (thr d L) (SemLoc.dma (SemArray.sem cc0_scratch13)) (default : HIx 1) 524288
      iprop((((p1V).view.loc (thr d L) ↦{fullShare} pairC fX fT L r 1) ∗ ((i1V).view.loc (thr d L) ↦{fullShare} idxC fX L r 1))
        ∗ ((tV).view.loc (thr d L) ↦[(tAllM).view.set]{tokt qt 1} fT))
    ∗ ((tV).view.loc (thr d L) ↦[Finset.univ \ (tAllM).view.set]{tokt qt 1} fT))

/-- The gather of row `r`'s chunk 2 into row buffer 2, in flight, and what is left of the read share it borrows from. -/
def FG2 (r : ℕ) : sProp 𝕄 :=
  iprop(Transfers.Flight countersEmb (thr d L) (SemLoc.dma (SemArray.sem cc0_scratch14)) (default : HIx 1) 524288
      iprop((((p2V).view.loc (thr d L) ↦{fullShare} pairC fX fT L r 2) ∗ ((i2V).view.loc (thr d L) ↦{fullShare} idxC fX L r 2))
        ∗ ((tV).view.loc (thr d L) ↦[(tAllM).view.set]{tokt qt 2} fT))
    ∗ ((tV).view.loc (thr d L) ↦[Finset.univ \ (tAllM).view.set]{tokt qt 2} fT))

/-- The copy-out of row buffer 3 into chunk 3 of row `r` of `out`, in flight. -/
def FS3 (r : ℕ) (hr : r < 200) : sProp 𝕄 :=
  iprop(∃ g, Transfers.Flight countersEmb (thr d L) (SemLoc.dma (SemArray.sem cc0_scratch19)) (default : HIx 1) 524288
      iprop(((oWinM ![r, cbase L 3, 0] (oin L r 3 hr lt4_3)).view.loc (thr d L) ↦[(oWinM ![r, cbase L 3, 0] (oin L r 3 hr lt4_3)).view.set]{fullShare} GKf d fX fT)
        ∗ ((p3V).view.loc (thr d L) ↦{fullShare} g)))

/-- The ring's three gathers and one list copy before trip `n < 200`; after the last trip everything at rest. -/
def Live (n : ℕ) : sProp 𝕄 :=
  if h : n < 200 then
    iprop(FI3 d L fX qx n h ∗ TX0 d L fX qx ∗ TX1 d L fX qx ∗ TX2 d L fX qx
      ∗ FG0 d L fX fT qt n ∗ FG1 d L fX fT qt n ∗ FG2 d L fX fT qt n ∗ TT3 d L fT qt
      ∗ CZ0 (F := F) d L ∗ CZ1 (F := F) d L ∗ CZ2 (F := F) d L ∗ CZ7 (F := F) d L)
  else
    iprop(IB0 (F := F) d L ∗ IB1 (F := F) d L ∗ IB2 (F := F) d L ∗ IB3 (F := F) d L ∗ PB0 (F := F) d L ∗ PB1 (F := F) d L ∗ PB2 (F := F) d L
      ∗ TX0 d L fX qx ∗ TX1 d L fX qx ∗ TX2 d L fX qx ∗ TX3 d L fX qx ∗ TT0 d L fT qt ∗ TT1 d L fT qt ∗ TT2 d L fT qt ∗ TT3 d L fT qt
      ∗ CZ0 (F := F) d L ∗ CZ1 (F := F) d L ∗ CZ2 (F := F) d L ∗ CZ3 (F := F) d L ∗ CZ4 (F := F) d L ∗ CZ5 (F := F) d L ∗ CZ6 (F := F) d L ∗ CZ7 (F := F) d L)

/-- The copy-out of chunk 3 of the row before `n`, in flight; before trip 0 row buffer 3 and its semaphore at rest. -/
def St3 (n : ℕ) : sProp 𝕄 :=
  if h : 0 < n ∧ n ≤ 200 then FS3 d L fX fT (n - 1) (by omega)
  else iprop(PB3 (F := F) d L ∗ CZ11 (F := F) d L)

/-- The loop's invariant before trip `n`. -/
def Inv (n : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ Live d L fX fT qx qt n ∗ St3 d L fX fT n
    ∗ CZ8 (F := F) d L ∗ CZ9 (F := F) d L ∗ CZ10 (F := F) d L
    ∗ Rows d L (GKf d fX fT) (Finset.range n) ∗ Rows3 d L (GKf d fX fT) (Finset.range (n - 1))
    ∗ Rows d L fO (Finset.Ico n 200) ∗ Rows3 d L fO (Finset.Ico n 200))

/-! ## What lands, as entailments between the transfers' deliveries -/

/-- The list copy's delivery, named: list buffer 0 holds the row numbers of chunk `b'` of row `r`. -/
theorem ent_idx0 (q : PosShare TreeShare) (f : Buf (Elt F) ((i0V).view.loc (thr d L))) (off : Fin 2 → ℕ) (h : ∀ a, off a + S1x128.size a ≤ S200x16384.size a)
    (r b' : ℕ) (hr : r < 200) (hb : b' < 4) (hoff : off = ![r, cbase L b']) :
    iprop((((i0V).view.loc (thr d L) ↦{fullShare} View.write (Elt F) (i0V).view f (ReadAs.same.apply (View.read (Elt F) (xRowM off h).view fX)) Finset.univ : sProp 𝕄))
        ∗ ((xV).view.loc (thr d L) ↦[(xRowM off h).view.set]{q} fX))
      ⊢ iprop(((i0V).view.loc (thr d L) ↦{fullShare} idxC fX L r b')
        ∗ ((xV).view.loc (thr d L) ↦[(xRowM ![r, cbase L b'] (xin L r b' hr hb)).view.set]{q} fX)) := by
  subst hoff
  rw [land_idx_0 (F := F) fX L f _ h r b' hr hb rfl]
/-- The list copy's delivery, named: list buffer 1 holds the row numbers of chunk `b'` of row `r`. -/
theorem ent_idx1 (q : PosShare TreeShare) (f : Buf (Elt F) ((i1V).view.loc (thr d L))) (off : Fin 2 → ℕ) (h : ∀ a, off a + S1x128.size a ≤ S200x16384.size a)
    (r b' : ℕ) (hr : r < 200) (hb : b' < 4) (hoff : off = ![r, cbase L b']) :
    iprop((((i1V).view.loc (thr d L) ↦{fullShare} View.write (Elt F) (i1V).view f (ReadAs.same.apply (View.read (Elt F) (xRowM off h).view fX)) Finset.univ : sProp 𝕄))
        ∗ ((xV).view.loc (thr d L) ↦[(xRowM off h).view.set]{q} fX))
      ⊢ iprop(((i1V).view.loc (thr d L) ↦{fullShare} idxC fX L r b')
        ∗ ((xV).view.loc (thr d L) ↦[(xRowM ![r, cbase L b'] (xin L r b' hr hb)).view.set]{q} fX)) := by
  subst hoff
  rw [land_idx_1 (F := F) fX L f _ h r b' hr hb rfl]
/-- The list copy's delivery, named: list buffer 2 holds the row numbers of chunk `b'` of row `r`. -/
theorem ent_idx2 (q : PosShare TreeShare) (f : Buf (Elt F) ((i2V).view.loc (thr d L))) (off : Fin 2 → ℕ) (h : ∀ a, off a + S1x128.size a ≤ S200x16384.size a)
    (r b' : ℕ) (hr : r < 200) (hb : b' < 4) (hoff : off = ![r, cbase L b']) :
    iprop((((i2V).view.loc (thr d L) ↦{fullShare} View.write (Elt F) (i2V).view f (ReadAs.same.apply (View.read (Elt F) (xRowM off h).view fX)) Finset.univ : sProp 𝕄))
        ∗ ((xV).view.loc (thr d L) ↦[(xRowM off h).view.set]{q} fX))
      ⊢ iprop(((i2V).view.loc (thr d L) ↦{fullShare} idxC fX L r b')
        ∗ ((xV).view.loc (thr d L) ↦[(xRowM ![r, cbase L b'] (xin L r b' hr hb)).view.set]{q} fX)) := by
  subst hoff
  rw [land_idx_2 (F := F) fX L f _ h r b' hr hb rfl]
/-- The list copy's delivery, named: list buffer 3 holds the row numbers of chunk `b'` of row `r`. -/
theorem ent_idx3 (q : PosShare TreeShare) (f : Buf (Elt F) ((i3V).view.loc (thr d L))) (off : Fin 2 → ℕ) (h : ∀ a, off a + S1x128.size a ≤ S200x16384.size a)
    (r b' : ℕ) (hr : r < 200) (hb : b' < 4) (hoff : off = ![r, cbase L b']) :
    iprop((((i3V).view.loc (thr d L) ↦{fullShare} View.write (Elt F) (i3V).view f (ReadAs.same.apply (View.read (Elt F) (xRowM off h).view fX)) Finset.univ : sProp 𝕄))
        ∗ ((xV).view.loc (thr d L) ↦[(xRowM off h).view.set]{q} fX))
      ⊢ iprop(((i3V).view.loc (thr d L) ↦{fullShare} idxC fX L r b')
        ∗ ((xV).view.loc (thr d L) ↦[(xRowM ![r, cbase L b'] (xin L r b' hr hb)).view.set]{q} fX)) := by
  subst hoff
  rw [land_idx_3 (F := F) fX L f _ h r b' hr hb rfl]
/-- The gather's delivery, named: row buffer 0 holds the table rows that list buffer 0's numbers name. -/
theorem ent_gather0 (q : PosShare TreeShare) (g : Buf (Elt F) ((p0V).view.loc (thr d L))) (I : Buf (Elt F) ((i0V).view.loc (thr d L)))
    (hn : S128.numel = S128x128.size gathers_S1000000x128_S128x128.axis') (hI : ∀ x, (View.read (Elt F) (i0V).view I x).toNat < S1000000x128.size gathers_S1000000x128_S128x128.axis)
    (r b' : ℕ) (hIe : I = idxC fX L r b') :
    iprop(((((p0V).view.loc (thr d L) ↦{fullShare} (p0V).view.writes (Elt F) g [⟨Rect.whole (cc0_scratch4 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i0V).view I) hn hI)⟩] : sProp 𝕄))
          ∗ ((i0V).view.loc (thr d L) ↦{fullShare} I))
        ∗ ((tV).view.loc (thr d L) ↦[(tAllM).view.set]{q} fT))
      ⊢ iprop((((p0V).view.loc (thr d L) ↦{fullShare} pairC fX fT L r b') ∗ ((i0V).view.loc (thr d L) ↦{fullShare} idxC fX L r b'))
        ∗ ((tV).view.loc (thr d L) ↦[(tAllM).view.set]{q} fT)) := by
  have e := land_gather_0 (F := F) fX fT L g I hn hI r b' hIe
  subst hIe
  exact Entails.of_eq (congrArg (fun c => iprop((((p0V).view.loc (thr d L) ↦{fullShare} c : sProp 𝕄) ∗ ((i0V).view.loc (thr d L) ↦{fullShare} idxC fX L r b'))
        ∗ ((tV).view.loc (thr d L) ↦[(tAllM).view.set]{q} fT))) e)
/-- The gather's delivery, named: row buffer 1 holds the table rows that list buffer 1's numbers name. -/
theorem ent_gather1 (q : PosShare TreeShare) (g : Buf (Elt F) ((p1V).view.loc (thr d L))) (I : Buf (Elt F) ((i1V).view.loc (thr d L)))
    (hn : S128.numel = S128x128.size gathers_S1000000x128_S128x128.axis') (hI : ∀ x, (View.read (Elt F) (i1V).view I x).toNat < S1000000x128.size gathers_S1000000x128_S128x128.axis)
    (r b' : ℕ) (hIe : I = idxC fX L r b') :
    iprop(((((p1V).view.loc (thr d L) ↦{fullShare} (p1V).view.writes (Elt F) g [⟨Rect.whole (cc0_scratch5 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i1V).view I) hn hI)⟩] : sProp 𝕄))
          ∗ ((i1V).view.loc (thr d L) ↦{fullShare} I))
        ∗ ((tV).view.loc (thr d L) ↦[(tAllM).view.set]{q} fT))
      ⊢ iprop((((p1V).view.loc (thr d L) ↦{fullShare} pairC fX fT L r b') ∗ ((i1V).view.loc (thr d L) ↦{fullShare} idxC fX L r b'))
        ∗ ((tV).view.loc (thr d L) ↦[(tAllM).view.set]{q} fT)) := by
  have e := land_gather_1 (F := F) fX fT L g I hn hI r b' hIe
  subst hIe
  exact Entails.of_eq (congrArg (fun c => iprop((((p1V).view.loc (thr d L) ↦{fullShare} c : sProp 𝕄) ∗ ((i1V).view.loc (thr d L) ↦{fullShare} idxC fX L r b'))
        ∗ ((tV).view.loc (thr d L) ↦[(tAllM).view.set]{q} fT))) e)
/-- The gather's delivery, named: row buffer 2 holds the table rows that list buffer 2's numbers name. -/
theorem ent_gather2 (q : PosShare TreeShare) (g : Buf (Elt F) ((p2V).view.loc (thr d L))) (I : Buf (Elt F) ((i2V).view.loc (thr d L)))
    (hn : S128.numel = S128x128.size gathers_S1000000x128_S128x128.axis') (hI : ∀ x, (View.read (Elt F) (i2V).view I x).toNat < S1000000x128.size gathers_S1000000x128_S128x128.axis)
    (r b' : ℕ) (hIe : I = idxC fX L r b') :
    iprop(((((p2V).view.loc (thr d L) ↦{fullShare} (p2V).view.writes (Elt F) g [⟨Rect.whole (cc0_scratch6 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i2V).view I) hn hI)⟩] : sProp 𝕄))
          ∗ ((i2V).view.loc (thr d L) ↦{fullShare} I))
        ∗ ((tV).view.loc (thr d L) ↦[(tAllM).view.set]{q} fT))
      ⊢ iprop((((p2V).view.loc (thr d L) ↦{fullShare} pairC fX fT L r b') ∗ ((i2V).view.loc (thr d L) ↦{fullShare} idxC fX L r b'))
        ∗ ((tV).view.loc (thr d L) ↦[(tAllM).view.set]{q} fT)) := by
  have e := land_gather_2 (F := F) fX fT L g I hn hI r b' hIe
  subst hIe
  exact Entails.of_eq (congrArg (fun c => iprop((((p2V).view.loc (thr d L) ↦{fullShare} c : sProp 𝕄) ∗ ((i2V).view.loc (thr d L) ↦{fullShare} idxC fX L r b'))
        ∗ ((tV).view.loc (thr d L) ↦[(tAllM).view.set]{q} fT))) e)
/-- The gather's delivery, named: row buffer 3 holds the table rows that list buffer 3's numbers name. -/
theorem ent_gather3 (q : PosShare TreeShare) (g : Buf (Elt F) ((p3V).view.loc (thr d L))) (I : Buf (Elt F) ((i3V).view.loc (thr d L)))
    (hn : S128.numel = S128x128.size gathers_S1000000x128_S128x128.axis') (hI : ∀ x, (View.read (Elt F) (i3V).view I x).toNat < S1000000x128.size gathers_S1000000x128_S128x128.axis)
    (r b' : ℕ) (hIe : I = idxC fX L r b') :
    iprop(((((p3V).view.loc (thr d L) ↦{fullShare} (p3V).view.writes (Elt F) g [⟨Rect.whole (cc0_scratch7 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i3V).view I) hn hI)⟩] : sProp 𝕄))
          ∗ ((i3V).view.loc (thr d L) ↦{fullShare} I))
        ∗ ((tV).view.loc (thr d L) ↦[(tAllM).view.set]{q} fT))
      ⊢ iprop((((p3V).view.loc (thr d L) ↦{fullShare} pairC fX fT L r b') ∗ ((i3V).view.loc (thr d L) ↦{fullShare} idxC fX L r b'))
        ∗ ((tV).view.loc (thr d L) ↦[(tAllM).view.set]{q} fT)) := by
  have e := land_gather_3 (F := F) fX fT L g I hn hI r b' hIe
  subst hIe
  exact Entails.of_eq (congrArg (fun c => iprop((((p3V).view.loc (thr d L) ↦{fullShare} c : sProp 𝕄) ∗ ((i3V).view.loc (thr d L) ↦{fullShare} idxC fX L r b'))
        ∗ ((tV).view.loc (thr d L) ↦[(tAllM).view.set]{q} fT))) e)

/-- The copy-out's delivery, named: chunk 3 of row `r` of `out` holds the looked-up rows; row buffer 3 comes back whole. -/
theorem ent_store3 (fO : Buf (Elt F) (oLoc d)) (off : Fin 3 → ℕ) (h : ∀ a, off a + S1x128x128.size a ≤ S200x16384x128.size a)
    (P : Buf (Elt F) ((p3V).view.loc (thr d L))) (r : ℕ) (hr : r < 200) (hoff : off = ![r, cbase L 3, 0]) (hP : P = pairC fX fT L r 3) :
    iprop((((oWinM off h).view.loc (thr d L) ↦[(oWinM off h).view.set]{fullShare}
            (oWinM off h).view.writes (Elt F) fO [⟨Rect.whole S128x128, ReadAs.same.apply (View.read (Elt F) (p3V).view P)⟩] : sProp 𝕄))
        ∗ ((p3V).view.loc (thr d L) ↦[(p3V).view.set]{fullShare} P))
      ⊢ iprop(((oWinM ![r, cbase L 3, 0] (oin L r 3 hr lt4_3)).view.loc (thr d L) ↦[(oWinM ![r, cbase L 3, 0] (oin L r 3 hr lt4_3)).view.set]{fullShare} GKf d fX fT)
        ∗ ((p3V).view.loc (thr d L) ↦{fullShare} P)) := by
  have hps : (p3V).view.set = Finset.univ := View.set_whole _
  rw [Win_land_3 d L fX fT fO off h P r 3 hr lt4_3 hoff hP (cV L) (jV L), Win_eq d L (GKf d fX fT) r 3 hr lt4_3 (cV L) (jV L), hps]

/-- What is left of a read share of `xT` beside a row chunk, with the chunk named by its row and number. -/
theorem ent_xrest (q : PosShare TreeShare) (off : Fin 2 → ℕ) (h : ∀ a, off a + S1x128.size a ≤ S200x16384.size a)
    (r b' : ℕ) (hr : r < 200) (hb : b' < 4) (hoff : off = ![r, cbase L b']) :
    ((xV).view.loc (thr d L) ↦[Finset.univ \ (xRowM off h).view.set]{q} fX : sProp 𝕄)
      ⊢ ((xV).view.loc (thr d L) ↦[Finset.univ \ (xRowM ![r, cbase L b'] (xin L r b' hr hb)).view.set]{q} fX) := by
  subst hoff
  exact Entails.rfl

end Tile

end Cert.Proof.K

end
-- ==== Proof.TripFirstK.lean ====
/-
  The first trip of the tile's loop (row 0): no copy-out is in flight yet; every other guard of the region holds.
-/
import proofs.«206412_g41506563948974_cont_8to1_b_738_25_alg».proof.Proof.InvK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_first (hX : ∀ j, (fX j).toNat < 1000000) (v2 : BitVec 32) (k : Fin k0_t1_loop.trips) (hk0 : k.val = 0) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have hk2 : k.val < 199 := by omega
  have k0_h1 := cond1_pos k hk2
  have k0_h3 := cond3_pos k hk2
  have k0_h4 := cond4_pos k hk2
  have k0_h5 := cond5_pos k hk2
  have k0_h6 := cond6_pos k hk2
  have k0_h7 := cond7_pos k hk2
  have k0_h8 := cond8_pos k hk2
  have k0_h2 := cond2_neg k (show ¬ 1 ≤ k.val by omega)
  have hk200' : k.val + 1 < 200 := by omega
  have hk200 : k.val < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_neg (show ¬ (0 < k.val ∧ k.val ≤ 200) by omega), dif_pos hk200', dif_pos (show 0 < k.val + 1 ∧ k.val + 1 ≤ 200 by omega),
    hIco, Rows_insert d L fO hnIco, Rows3_insert d L fO hnIco]
  unfold FI3 FG0 FG1 FG2 FS3 TX0 TX1 TX2 TT3 CZ0 CZ1 CZ2 CZ7 CZ8 CZ9 CZ10 CZ11 PB3
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨⟨%gp3, Hp3⟩, Hc11⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFi3 Hx3r Hx0 Hx1 Hx2 HFg0 Ht0r HFg1 Ht1r HFg2 Ht2r Ht3 Hc0 Hc1 Hc2 Hc7]
  · isplitl [HFi3 Hx3r]
    · isplitl [HFi3]
      · istop
        exact sep_elim_right.trans (Transfers.Flight_mono countersEmb (thr d L) (ent_idx3 d L fX (tokx qx 3) _ (k0_off10 L k) _ (k.val + 1) 3 hk200' lt4_3 (off10_c L k)))
      · iapply (ent_xrest d L fX (tokx qx 3) (k0_off10 L k) _ (k.val + 1) 3 hk200' lt4_3 (off10_c L k)) $$ Hx3r
    isplitl [Hx0]; · iexact Hx0
    isplitl [Hx1]; · iexact Hx1
    isplitl [Hx2]; · iexact Hx2
    isplitl [HFg0 Ht0r]
    · isplitl [HFg0]
      · istop
        exact sep_elim_right.trans (Transfers.Flight_mono countersEmb (thr d L) (ent_gather0 d L fX fT (tokt qt 0) _ _ (by decide) (hin0 _ _ _) (k.val + 1) 0
          (land_idx_0 (F := F) fX L _ (k0_off2 L k) _ (k.val + 1) 0 hk200' lt4_0 (off2_c L k))))
      · iexact Ht0r
    isplitl [HFg1 Ht1r]
    · isplitl [HFg1]
      · istop
        exact sep_elim_right.trans (Transfers.Flight_mono countersEmb (thr d L) (ent_gather1 d L fX fT (tokt qt 1) _ _ (by decide) (hin1 _ _ _) (k.val + 1) 1
          (land_idx_1 (F := F) fX L _ (k0_off6 L k) _ (k.val + 1) 1 hk200' lt4_1 (off6_c L k))))
      · iexact Ht1r
    isplitl [HFg2 Ht2r]
    · isplitl [HFg2]
      · istop
        exact sep_elim_right.trans (Transfers.Flight_mono countersEmb (thr d L) (ent_gather2 d L fX fT (tokt qt 2) _ _ (by decide) (hin2 _ _ _) (k.val + 1) 2
          (land_idx_2 (F := F) fX L _ (k0_off8 L k) _ (k.val + 1) 2 hk200' lt4_2 (off8_c L k))))
      · iexact Ht2r
    isplitl [Ht3]; · iexact Ht3
    isplitl [Hc0]; · iexact Hc0
    isplitl [Hc1]; · iexact Hc1
    isplitl [Hc2]; · iexact Hc2
    iexact Hc7
  icases Hp3 with -
  isplitl [Hc11]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3]
  · rw [show Finset.range (k.val + 1 - 1) = Finset.range (k.val - 1) from by rw [hk0]]
    iexact HD3
  isplitl [HU]; · iexact HU
  iexact HU3

end Tile

end Cert.Proof.K

end
-- ==== Proof.TripMidK.lean ====
/-
  A middle trip of the tile's loop (row k, 1 ≤ k < 199): every guard of the region holds.
-/
import proofs.«206412_g41506563948974_cont_8to1_b_738_25_alg».proof.Proof.InvK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_mid (hX : ∀ j, (fX j).toNat < 1000000) (v2 : BitVec 32) (k : Fin k0_t1_loop.trips) (hk1 : 1 ≤ k.val) (hk2 : k.val < 199) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have k0_h1 := cond1_pos k hk2
  have k0_h3 := cond3_pos k hk2
  have k0_h4 := cond4_pos k hk2
  have k0_h5 := cond5_pos k hk2
  have k0_h6 := cond6_pos k hk2
  have k0_h7 := cond7_pos k hk2
  have k0_h8 := cond8_pos k hk2
  have k0_h2 := cond2_pos k hk1
  have hk200 : k.val < 200 := by omega
  have hk200' : k.val + 1 < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_pos (show 0 < k.val ∧ k.val ≤ 200 by omega), dif_pos hk200', dif_pos (show 0 < k.val + 1 ∧ k.val + 1 ≤ 200 by omega),
    hIco, Rows_insert d L fO hnIco, Rows3_insert d L fO hnIco]
  unfold FI3 FG0 FG1 FG2 FS3 TX0 TX1 TX2 TT3 CZ0 CZ1 CZ2 CZ7 CZ8 CZ9 CZ10
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨%gp3, HFs3⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFi3 Hx3r Hx0 Hx1 Hx2 HFg0 Ht0r HFg1 Ht1r HFg2 Ht2r Ht3 Hc0 Hc1 Hc2 Hc7]
  · isplitl [HFi3 Hx3r]
    · isplitl [HFi3]
      · istop
        exact sep_elim_right.trans (Transfers.Flight_mono countersEmb (thr d L) (ent_idx3 d L fX (tokx qx 3) _ (k0_off10 L k) _ (k.val + 1) 3 hk200' lt4_3 (off10_c L k)))
      · iapply (ent_xrest d L fX (tokx qx 3) (k0_off10 L k) _ (k.val + 1) 3 hk200' lt4_3 (off10_c L k)) $$ Hx3r
    isplitl [Hx0]; · iexact Hx0
    isplitl [Hx1]; · iexact Hx1
    isplitl [Hx2]; · iexact Hx2
    isplitl [HFg0 Ht0r]
    · isplitl [HFg0]
      · istop
        exact sep_elim_right.trans (Transfers.Flight_mono countersEmb (thr d L) (ent_gather0 d L fX fT (tokt qt 0) _ _ (by decide) (hin0 _ _ _) (k.val + 1) 0
          (land_idx_0 (F := F) fX L _ (k0_off2 L k) _ (k.val + 1) 0 hk200' lt4_0 (off2_c L k))))
      · iexact Ht0r
    isplitl [HFg1 Ht1r]
    · isplitl [HFg1]
      · istop
        exact sep_elim_right.trans (Transfers.Flight_mono countersEmb (thr d L) (ent_gather1 d L fX fT (tokt qt 1) _ _ (by decide) (hin1 _ _ _) (k.val + 1) 1
          (land_idx_1 (F := F) fX L _ (k0_off6 L k) _ (k.val + 1) 1 hk200' lt4_1 (off6_c L k))))
      · iexact Ht1r
    isplitl [HFg2 Ht2r]
    · isplitl [HFg2]
      · istop
        exact sep_elim_right.trans (Transfers.Flight_mono countersEmb (thr d L) (ent_gather2 d L fX fT (tokt qt 2) _ _ (by decide) (hin2 _ _ _) (k.val + 1) 2
          (land_idx_2 (F := F) fX L _ (k0_off8 L k) _ (k.val + 1) 2 hk200' lt4_2 (off8_c L k))))
      · iexact Ht2r
    isplitl [Ht3]; · iexact Ht3
    isplitl [Hc0]; · iexact Hc0
    isplitl [Hc1]; · iexact Hc1
    isplitl [Hc2]; · iexact Hc2
    iexact Hc7
  icases HFs3_src with -
  isplitl [HFs3]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3 HFs3_dst]
  · rw [show Finset.range (k.val + 1 - 1) = insert (k.val - 1) (Finset.range (k.val - 1)) from by
        rw [Nat.add_sub_cancel]; conv_lhs => rw [show k.val = k.val - 1 + 1 by omega, Finset.range_add_one],
      Rows3_insert d L _ Finset.notMem_range_self]
    isplitl [HFs3_dst]
    · iapply (Entails.of_eq (Win_eq d L (GKf d fX fT) (k.val - 1) 3 (by omega) lt4_3 (cV L) (jV L))) $$ HFs3_dst
    · iexact HD3
  isplitl [HU]; · iexact HU
  iexact HU3

end Tile

end Cert.Proof.K

end
-- ==== Proof.TripLastK.lean ====
/-
  The last trip of the tile's loop (row 199): nothing is fetched for a next row; the ring drains but for the last copy-out.
-/
import proofs.«206412_g41506563948974_cont_8to1_b_738_25_alg».proof.Proof.InvK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_last (hX : ∀ j, (fX j).toNat < 1000000) (v2 : BitVec 32) (k : Fin k0_t1_loop.trips) (hk9 : k.val = 199) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have k0_h1 := cond1_neg k (show ¬ k.val < 199 by omega)
  have k0_h3 := cond3_neg k (show ¬ k.val < 199 by omega)
  have k0_h4 := cond4_neg k (show ¬ k.val < 199 by omega)
  have k0_h5 := cond5_neg k (show ¬ k.val < 199 by omega)
  have k0_h6 := cond6_neg k (show ¬ k.val < 199 by omega)
  have k0_h7 := cond7_neg k (show ¬ k.val < 199 by omega)
  have k0_h8 := cond8_neg k (show ¬ k.val < 199 by omega)
  have k0_h2 := cond2_pos k (show 1 ≤ k.val by omega)
  have hk200 : k.val < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_pos (show 0 < k.val ∧ k.val ≤ 200 by omega), dif_neg (show ¬ k.val + 1 < 200 by omega), dif_pos (show 0 < k.val + 1 ∧ k.val + 1 ≤ 200 by omega),
    hIco, Rows_insert d L fO hnIco, Rows3_insert d L fO hnIco]
  unfold FI3 FG0 FG1 FG2 FS3 TX0 TX1 TX2 TX3 TT0 TT1 TT2 TT3 CZ0 CZ1 CZ2 CZ3 CZ4 CZ5 CZ6 CZ7 CZ8 CZ9 CZ10 IB0 IB1 IB2 IB3 PB0 PB1 PB2
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨%gp3, HFs3⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFg0_dst_and HFg1_dst_and HFg2_dst_and HFi3_dst HFg0_dst HFg1_dst HFg2_dst Hx0 Hx1 Hx2 Hx3r Ht0r Ht1r Ht2r Ht3 Hc0 Hc1 Hc2 HFi3 HFg0 HFg1 HFg2 Hc7]
  · isplitl [HFg0_dst_and]; · iexists _; iexact HFg0_dst_and
    isplitl [HFg1_dst_and]; · iexists _; iexact HFg1_dst_and
    isplitl [HFg2_dst_and]; · iexists _; iexact HFg2_dst_and
    isplitl [HFi3_dst]; · iexists _; iexact HFi3_dst
    isplitl [HFg0_dst]; · iexists _; iexact HFg0_dst
    isplitl [HFg1_dst]; · iexists _; iexact HFg1_dst
    isplitl [HFg2_dst]; · iexists _; iexact HFg2_dst
    isplitl [Hx0]; · iexact Hx0
    isplitl [Hx1]; · iexact Hx1
    isplitl [Hx2]; · iexact Hx2
    isplitl [Hx3r]; · iexact Hx3r
    isplitl [Ht0r]; · iexact Ht0r
    isplitl [Ht1r]; · iexact Ht1r
    isplitl [Ht2r]; · iexact Ht2r
    isplitl [Ht3]; · iexact Ht3
    isplitl [Hc0]; · iexact Hc0
    isplitl [Hc1]; · iexact Hc1
    isplitl [Hc2]; · iexact Hc2
    isplitl [HFi3]; · iexact HFi3
    isplitl [HFg0]; · iexact HFg0
    isplitl [HFg1]; · iexact HFg1
    isplitl [HFg2]; · iexact HFg2
    iexact Hc7
  icases HFs3_src with -
  isplitl [HFs3]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3 HFs3_dst]
  · rw [show Finset.range (k.val + 1 - 1) = insert (k.val - 1) (Finset.range (k.val - 1)) from by
        rw [Nat.add_sub_cancel]; conv_lhs => rw [show k.val = k.val - 1 + 1 by omega, Finset.range_add_one],
      Rows3_insert d L _ Finset.notMem_range_self]
    isplitl [HFs3_dst]
    · iapply (Entails.of_eq (Win_eq d L (GKf d fX fT) (k.val - 1) 3 (by omega) lt4_3 (cV L) (jV L))) $$ HFs3_dst
    · iexact HD3
  isplitl [HU]; · iexact HU
  iexact HU3

end Tile

end Cert.Proof.K

end
-- ==== Proof.BodyK.lean ====
/-
  One tile's task of the lookup kernel, whole: the ring's start-up (four list copies, three gathers), the loop over the 200 rows by its invariant, the last copy-out's wait.
-/
import proofs.«206412_g41506563948974_cont_8to1_b_738_25_alg».proof.Proof.InvK
import proofs.«206412_g41506563948974_cont_8to1_b_738_25_alg».proof.Proof.TripFirstK
import proofs.«206412_g41506563948974_cont_8to1_b_738_25_alg».proof.Proof.TripMidK
import proofs.«206412_g41506563948974_cont_8to1_b_738_25_alg».proof.Proof.TripLastK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

omit [FloatOps F] in
theorem bigSep_range4 (Φ : ℕ → sProp 𝕄) : bigSep (Finset.range 4) Φ = iprop(Φ 0 ∗ Φ 1 ∗ Φ 2 ∗ Φ 3) := by
  rw [show Finset.range 4 = {0, 1, 2, 3} by decide, SparseCore.bigSep_insert' (by decide), SparseCore.bigSep_insert' (by decide),
    SparseCore.bigSep_insert' (by decide), bigSep_singleton]
omit [FloatOps F] in
theorem bigSep_range8 (Φ : ℕ → sProp 𝕄) : bigSep (Finset.range 8) Φ = iprop(Φ 0 ∗ Φ 1 ∗ Φ 2 ∗ Φ 3 ∗ Φ 4 ∗ Φ 5 ∗ Φ 6 ∗ Φ 7) := by
  rw [show Finset.range 8 = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- A read share of `xT` is what remains after four read tokens, and the four tokens. -/
theorem x_toks : (xLoc d ↦{qx} fX : sProp 𝕄) ⊣⊢ iprop((xLoc d ↦{Transfers.shareDrop qx 4} fX)
    ∗ (xLoc d ↦{Transfers.shareTokN qx 0} fX) ∗ (xLoc d ↦{Transfers.shareTokN qx 1} fX) ∗ (xLoc d ↦{Transfers.shareTokN qx 2} fX) ∗ (xLoc d ↦{Transfers.shareTokN qx 3} fX)) := by
  rw [← bigSep_range4 (F := F) (fun i => (xLoc d ↦{Transfers.shareTokN qx i} fX : sProp 𝕄))]
  exact Transfers.pointsTo_toks_range qx 4
omit [FloatOps F] in
/-- A read share of the padded table is what remains after eight read tokens, and the eight tokens. -/
theorem t_toks : (tLoc d ↦{qt} fT : sProp 𝕄) ⊣⊢ iprop((tLoc d ↦{Transfers.shareDrop qt 8} fT)
    ∗ (tLoc d ↦{Transfers.shareTokN qt 0} fT) ∗ (tLoc d ↦{Transfers.shareTokN qt 1} fT) ∗ (tLoc d ↦{Transfers.shareTokN qt 2} fT) ∗ (tLoc d ↦{Transfers.shareTokN qt 3} fT)
    ∗ (tLoc d ↦{Transfers.shareTokN qt 4} fT) ∗ (tLoc d ↦{Transfers.shareTokN qt 5} fT) ∗ (tLoc d ↦{Transfers.shareTokN qt 6} fT) ∗ (tLoc d ↦{Transfers.shareTokN qt 7} fT)) := by
  rw [← bigSep_range8 (F := F) (fun i => (tLoc d ↦{Transfers.shareTokN qt i} fT : sProp 𝕄))]
  exact Transfers.pointsTo_toks_range qt 8

set_option maxHeartbeats 16000000 in
/-- The tile's task on vector subcore `(L 0, L 1)` of device `d`: from read shares of `xT` and of the padded table and the
    tile's columns of `out` at their earlier contents, to the same shares and the tile's columns of `out` at the looked-up
    rows `GK xT tb`; the scratch buffers and semaphores handed back. -/
theorem tile_body (hF : (K (F := F)).Facts) (hX : ∀ j, (fX j).toNat < 1000000) (hO : ∀ g, O g none = 0) :
    iprop(levAts (K (F := F)).L (K (F := F)).lev ∗ emp
        ∗ (((xLoc d ↦{qx} fX : sProp 𝕄)) ∗ (tLoc d ↦{qt} fT) ∗ Rows d L fO (Finset.range 200) ∗ Rows3 d L fO (Finset.range 200))
        ∗ scopedBufs (thr d L) ∗ scopedSems0 (thr d L) ∗ owes (thr d L) O W)
      ⊢ wp frame (wpE (defs₀ (F := F)) 𝒱₀ (thr d L) none) Set.univ
          (cc0_k L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19)
          fun _ => iprop(((xLoc d ↦{qx} fX) ∗ (tLoc d ↦{qt} fT) ∗ Rows d L (GKf d fX fT) (Finset.range 200) ∗ Rows3 d L (GKf d fX fT) (Finset.range 200))
            ∗ scopedBufs (thr d L) ∗ scopedSems0 (thr d L)
            ∗ ∃ W', ⌜∀ p ∈ W', p ∈ W ∨ p.2 = none⌝ ∗ owes (thr d L) O W') := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  simp only [cc0_k_eq_skeleton]; unfold cc0_k_skel
  rw [(K (F := F)).scopedBufs_V hF d (cV L) (jV L), SparseCore.Cfg.scopedSems0_V (Val := Elt F) d (cV L) (jV L), ownSems0_cells, ownBufs_scr]
  iintro ⟨#Hlv, -, ⟨Hx, Ht, HR, HR3⟩, ⟨⟨⟨%f0, Hi0⟩, ⟨%f1, Hi1⟩, ⟨%f2, Hi2⟩, ⟨%f3, Hi3⟩, ⟨%g0, Hp0⟩, ⟨%g1, Hp1⟩, ⟨%g2, Hp2⟩, ⟨%g3, Hp3⟩⟩, Hbufs⟩, ⟨⟨Hs0, Hs1, Hs2, Hs3, Hs4, Hs5, Hs6, Hs7, Hs8, Hs9, Hs10, Hs11⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hxs := (x_toks (F := F) d fX qx).1 $$ Hx
  icases Hxs with ⟨Hxrem, Hx0, Hx1, Hx2, Hx3⟩
  ihave Hts := (t_toks (F := F) d fT qt).1 $$ Ht
  icases Hts with ⟨Htrem, Htu0, Htu1, Htu2, Htu3, Ht4, Ht5, Ht6, Ht7⟩
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Ht4' := (Entails.of_eq (pts_t (F := F) d L _ _).symm) $$ Ht4
  ihave Ht5' := (Entails.of_eq (pts_t (F := F) d L _ _).symm) $$ Ht5
  ihave Ht6' := (Entails.of_eq (pts_t (F := F) d L _ _).symm) $$ Ht6
  ihave Ht7' := (Entails.of_eq (pts_t (F := F) d L _ _).symm) $$ Ht7
  ihave Hi0' := (Entails.of_eq (pts_s0 (F := F) d L _).symm) $$ Hi0
  ihave Hi1' := (Entails.of_eq (pts_s1 (F := F) d L _).symm) $$ Hi1
  ihave Hi2' := (Entails.of_eq (pts_s2 (F := F) d L _).symm) $$ Hi2
  ihave Hi3' := (Entails.of_eq (pts_s3 (F := F) d L _).symm) $$ Hi3
  ihave Hp0' := (Entails.of_eq (pts_s4 (F := F) d L _).symm) $$ Hp0
  ihave Hp1' := (Entails.of_eq (pts_s5 (F := F) d L _).symm) $$ Hp1
  ihave Hp2' := (Entails.of_eq (pts_s6 (F := F) d L _).symm) $$ Hp2
  ihave Hp3' := (Entails.of_eq (pts_s7 (F := F) d L _).symm) $$ Hp3
  ihave Hc0 := (Entails.of_eq (cell_0 (F := F) d L 0).symm) $$ Hs0
  ihave Hc1 := (Entails.of_eq (cell_1 (F := F) d L 0).symm) $$ Hs1
  ihave Hc2 := (Entails.of_eq (cell_2 (F := F) d L 0).symm) $$ Hs2
  ihave Hc3 := (Entails.of_eq (cell_3 (F := F) d L 0).symm) $$ Hs3
  ihave Hc4 := (Entails.of_eq (cell_4 (F := F) d L 0).symm) $$ Hs4
  ihave Hc5 := (Entails.of_eq (cell_5 (F := F) d L 0).symm) $$ Hs5
  ihave Hc6 := (Entails.of_eq (cell_6 (F := F) d L 0).symm) $$ Hs6
  ihave Hc7 := (Entails.of_eq (cell_7 (F := F) d L 0).symm) $$ Hs7
  ihave Hc8 := (Entails.of_eq (cell_8 (F := F) d L 0).symm) $$ Hs8
  ihave Hc9 := (Entails.of_eq (cell_9 (F := F) d L 0).symm) $$ Hs9
  ihave Hc10 := (Entails.of_eq (cell_10 (F := F) d L 0).symm) $$ Hs10
  ihave Hc11 := (Entails.of_eq (cell_11 (F := F) d L 0).symm) $$ Hs11
  sl_exec
  sl_for (Inv d L O W fX fT fO qx qt) $$ [Hmw HO Hc3 Hx3' Hx0' Hx1' Hx2' Hc4 Ht4' Hc5 Ht5' Hc6 Ht6' Ht7' Hc0 Hc1 Hc2 Hc7 Hp3' Hc11 Hc8 Hc9 Hc10 HR HR3]
  case region =>
    intro k acc
    cases acc
    rcases Nat.eq_zero_or_pos k.val with hk0 | hkpos
    · exact trip_first d L O W fX fT fO qx qt hX _ k hk0
    · by_cases hk2 : k.val < 199
      · exact trip_mid d L O W fX fT fO qx qt hX _ k hkpos hk2
      · exact trip_last d L O W fX fT fO qx qt hX _ k (by
        have hlt := k.isLt
        have ht : Scf.trips k0_t1_loop.lb k0_t1_loop.ub k0_t1_loop.st = 200 := trips_eq
        omega)
  · sl_unfold_run_names
    unfold Inv Live St3
    rw [dif_pos (show (0 : ℕ) < 200 by decide), dif_neg (show ¬ ((0 : ℕ) < 0 ∧ 0 ≤ 200) by omega)]
    unfold FI3 FG0 FG1 FG2 TX0 TX1 TX2 TT3 CZ0 CZ1 CZ2 CZ7 CZ8 CZ9 CZ10 CZ11 PB3
    isplitr; · iexact Hmw
    isplitl [HO]
    · iexists _; isplitr
      swap; · iexact HO
      ipureintro; intro p hp
      repeat (rcases Finset.mem_insert.mp hp with hp | hp; · exact .inr (hp ▸ rfl))
      exact .inl hp
    isplitl [Hc3 Hx3' Hx0' Hx1' Hx2' Hc4 Ht4' Hc5 Ht5' Hc6 Ht6' Ht7' Hc0 Hc1 Hc2 Hc7]
    · isplitl [Hc3 Hx3']
      · isplitl [Hc3]
        · istop
          exact sep_elim_right.trans (Transfers.Flight_mono countersEmb (thr d L) (ent_idx3 d L fX (tokx qx 3) _ (k0_off1 L 384#32) _ 0 3 (by decide) lt4_3 (off1_3 L)))
        · iapply (ent_xrest d L fX (tokx qx 3) (k0_off1 L 384#32) _ 0 3 (by decide) lt4_3 (off1_3 L)) $$ Hx3'
      isplitl [Hx0']; · iexact Hx0'
      isplitl [Hx1']; · iexact Hx1'
      isplitl [Hx2']; · iexact Hx2'
      isplitl [Hc4 Ht4']
      · isplitl [Hc4]
        · istop
          exact sep_elim_right.trans (Transfers.Flight_mono countersEmb (thr d L) (ent_gather0 d L fX fT (tokt qt 0) _ _ (by decide) (hin0 _ _ _) 0 0
            (land_idx_0 (F := F) fX L _ (k0_off1 L 0#32) _ 0 0 (by decide) lt4_0 (off1_0 L))))
        · iexact Ht4'
      isplitl [Hc5 Ht5']
      · isplitl [Hc5]
        · istop
          exact sep_elim_right.trans (Transfers.Flight_mono countersEmb (thr d L) (ent_gather1 d L fX fT (tokt qt 1) _ _ (by decide) (hin1 _ _ _) 0 1
            (land_idx_1 (F := F) fX L _ (k0_off1 L 128#32) _ 0 1 (by decide) lt4_1 (off1_1 L))))
        · iexact Ht5'
      isplitl [Hc6 Ht6']
      · isplitl [Hc6]
        · istop
          exact sep_elim_right.trans (Transfers.Flight_mono countersEmb (thr d L) (ent_gather2 d L fX fT (tokt qt 2) _ _ (by decide) (hin2 _ _ _) 0 2
            (land_idx_2 (F := F) fX L _ (k0_off1 L 256#32) _ 0 2 (by decide) lt4_2 (off1_2 L))))
        · iexact Ht6'
      isplitl [Ht7']; · iexact Ht7'
      isplitl [Hc0]; · iexact Hc0
      isplitl [Hc1]; · iexact Hc1
      isplitl [Hc2]; · iexact Hc2
      iexact Hc7
    isplitl [Hp3' Hc11]
    · isplitl [Hp3']; · iexists _; iexact Hp3'
      iexact Hc11
    isplitl [Hc8]; · iexact Hc8
    isplitl [Hc9]; · iexact Hc9
    isplitl [Hc10]; · iexact Hc10
    rw [Finset.range_zero, Rows_empty, Rows3_empty, ← Finset.range_eq_Ico]
    isplitr [HR HR3]; · iempintro
    isplitr [HR HR3]; · iempintro
    isplitl [HR]; · iexact HR
    iexact HR3
  iintro %acc HI
  rw [show Scf.trips k0_t1_loop.lb k0_t1_loop.ub k0_t1_loop.st = 200 from trips_eq]
  unfold Inv Live St3
  rw [dif_neg (show ¬ (200 : ℕ) < 200 by decide), dif_pos (show 0 < (200 : ℕ) ∧ (200 : ℕ) ≤ 200 by decide)]
  unfold FS3 TX0 TX1 TX2 TX3 TT0 TT1 TT2 TT3 CZ0 CZ1 CZ2 CZ3 CZ4 CZ5 CZ6 CZ7 CZ8 CZ9 CZ10 IB0 IB1 IB2 IB3 PB0 PB1 PB2
  icases HI with ⟨-, ⟨%W', %hW', HO⟩, ⟨⟨%a0, Hi0⟩, ⟨%a1, Hi1⟩, ⟨%a2, Hi2⟩, ⟨%a3, Hi3⟩, ⟨%b0, Hp0⟩, ⟨%b1, Hp1⟩, ⟨%b2, Hp2⟩, Hx0, Hx1, Hx2, Hx3, Ht0, Ht1, Ht2, Ht3, Hc0, Hc1, Hc2, Hc3, Hc4, Hc5, Hc6, Hc7⟩, ⟨%gp3, HFs3⟩, Hc8, Hc9, Hc10, HD, HD3, HU, HU3⟩
  sl_exec
  sl_step
  isplitl [Hxrem Hx0 Hx1 Hx2 Hx3 Htrem Htu0 Htu1 Htu2 Htu3 Ht0 Ht1 Ht2 Ht3 HD HD3 HFs3_dst]
  · isplitl [Hxrem Hx0 Hx1 Hx2 Hx3]
    · iapply (x_toks (F := F) d fX qx).2
      isplitl [Hxrem]; · iexact Hxrem
      isplitl [Hx0]; · iexact Hx0
      isplitl [Hx1]; · iexact Hx1
      isplitl [Hx2]; · iexact Hx2
      iexact Hx3
    isplitl [Htrem Htu0 Htu1 Htu2 Htu3 Ht0 Ht1 Ht2 Ht3]
    · iapply (t_toks (F := F) d fT qt).2
      isplitl [Htrem]; · iexact Htrem
      isplitl [Htu0]; · iexact Htu0
      isplitl [Htu1]; · iexact Htu1
      isplitl [Htu2]; · iexact Htu2
      isplitl [Htu3]; · iexact Htu3
      isplitl [Ht0]; · iexact Ht0
      isplitl [Ht1]; · iexact Ht1
      isplitl [Ht2]; · iexact Ht2
      iexact Ht3
    isplitl [HD]; · iexact HD
    rw [show Finset.range 200 = insert 199 (Finset.range 199) from Finset.range_add_one, Rows3_insert d L _ Finset.notMem_range_self]
    isplitl [HFs3_dst]
    · iapply (Entails.of_eq (Win_eq d L (GKf d fX fT) (200 - 1) 3 (by decide) lt4_3 (cV L) (jV L))) $$ HFs3_dst
    · iexact HD3
  isplitl [Hi0 Hi1 Hi2 Hi3 Hp0 Hp1 Hp2 HFs3_src Hbufs]
  · isplitl [Hi0 Hi1 Hi2 Hi3 Hp0 Hp1 Hp2 HFs3_src]
    · isplitl [Hi0]; · iexists _; iexact Hi0
      isplitl [Hi1]; · iexists _; iexact Hi1
      isplitl [Hi2]; · iexists _; iexact Hi2
      isplitl [Hi3]; · iexists _; iexact Hi3
      isplitl [Hp0]; · iexists _; iexact Hp0
      isplitl [Hp1]; · iexists _; iexact Hp1
      isplitl [Hp2]; · iexists _; iexact Hp2
      iexists _; iexact HFs3_src
    · iexact Hbufs
  isplitl [Hc0 Hc1 Hc2 Hc3 Hc4 Hc5 Hc6 Hc7 Hc8 Hc9 Hc10 HFs3 Hsems]
  · isplitl [Hc0 Hc1 Hc2 Hc3 Hc4 Hc5 Hc6 Hc7 Hc8 Hc9 Hc10 HFs3]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact HFs3
    · iexact Hsems
  icases HU with -
  icases HU3 with -
  iexists _; isplitr
  swap; · iexact HO
  ipureintro; intro p hp
  repeat (rcases Finset.mem_insert.mp hp with hp | hp; · exact .inr (hp ▸ rfl))
  exact hW' p hp

end Tile

end Cert.Proof.K

end
-- ==== Proof.LaunchHostK.lean ====
/-
  The host operations of the kernel program around its SparseCore call, as valuations of the TensorCore's twelve
  arrays. Before the call: the index array is transposed, the constant 0 is made and converted to a float, the table is
  padded with it to 128 lanes; the staging array is untouched. After the call the staging array holds the looked-up rows;
  then its first 64 lanes are cut out, its two leading axes swapped back, and every entry multiplied by the broadcast
  constant. Each array's contents at each stage is the corresponding pure term of the launch contents of the two
  arguments: `XT` (the transposed indices), `TB` (the padded table), `GKo` (the looked-up rows), `RES` (the result).
-/
import proofs.«206412_g41506563948974_cont_8to1_b_738_25_alg».proof.Proof.OutSplitK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-- The two arguments' and the result's buffers on device `d`. -/
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v6

variable [FloatOps F]

/-- The transposed index array: what the call reads as `xT`. -/
abbrev XT (d : Dev nD) : Buf (Elt F) (xLoc d) :=
  transpose S200x16384 [1, 0] (m (aLoc d)) transposes_S16384x200_S200x16384_1_0
/-- The table padded to 128 lanes with the converted constant 0: what the call reads as `tb`. -/
abbrev TB (d : Dev nD) : Buf (Elt F) (tLoc d) :=
  pad S1000000x128 ![0, 0] ![0, 64] ![0, 0] (m (bLoc d)) (sitofp .f32 (constantI S_ 32 0#32)) pads_S1000000x64_S1000000x128_000_0640 h_S_
/-- The looked-up rows: what the call leaves in the staging array. -/
abbrev GKo (d : Dev nD) : Buf (Elt F) (oLoc d) := Cert.Lookup.GK (F := F) (XT m d) (TB m d)
/-- The program's result: the first 64 lanes of the looked-up rows, the leading axes swapped back, times the constant. -/
abbrev RES (d : Dev nD) : Buf (Elt F) (rLoc d) :=
  mulf (transpose S16384x200x64 [1, 0, 2] (extractStridedSlice S200x16384x64 ![0, 0, 0] (Cert.Lookup.GK (F := F) (XT m d) (TB m d))
      slices_S200x16384x128_S200x16384x64_0_0_0) transposes_S200x16384x64_S16384x200x64_1_0_2)
    (broadcastInDim S16384x200x64 ![] bcast_S_S16384x200x64 (constant S_ .f32 0x41000000#32))

/-! ## The twelve arrays and the nine operations -/

abbrev a' : DevRef τ sig := Proc.devRef .tc (main_arg0 : Ref sig .tc)
abbrev b' : DevRef τ sig := Proc.devRef .tc (main_arg1 : Ref sig .tc)
abbrev v0' : DevRef τ sig := Proc.devRef .tc (main_v0 : Ref sig .tc)
abbrev c' : DevRef τ sig := Proc.devRef .tc (main_c : Ref sig .tc)
abbrev cv0' : DevRef τ sig := Proc.devRef .tc (main_call0_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)
abbrev v6' : DevRef τ sig := Proc.devRef .tc (main_v6 : Ref sig .tc)

abbrev op1 : HloOp τ sig (Elt F) := StableHlo.unary main_arg0 main_v0 ((transpose S200x16384 [1, 0] · transposes_S16384x200_S200x16384_1_0) : (⟨S16384x200, .i32⟩ : BufTy).Contents (Elt F) → (⟨S200x16384, .i32⟩ : BufTy).Contents (Elt F))
abbrev op2 : HloOp τ sig (Elt F) := StableHlo.nullary main_c (constantI S_ 32 0#32)
abbrev op3 : HloOp τ sig (Elt F) := StableHlo.unary main_c main_call0_v0 (sitofp .f32 : (⟨S_, .i32⟩ : BufTy).Contents (Elt F) → (⟨S_, .f32⟩ : BufTy).Contents (Elt F))
abbrev op4 : HloOp τ sig (Elt F) := StableHlo.binary main_arg1 main_call0_v0 main_v1 ((fun x v => pad S1000000x128 ![0, 0] ![0, 64] ![0, 0] x v pads_S1000000x64_S1000000x128_000_0640 h_S_) : (⟨S1000000x64, .f32⟩ : BufTy).Contents (Elt F) → (⟨S_, .f32⟩ : BufTy).Contents (Elt F) → (⟨S1000000x128, .f32⟩ : BufTy).Contents (Elt F))
/-- The padding function's two operations as the program spells them, over typed references to the call's buffers, are these. -/
theorem op3_tref : (StableHlo.TRef.unary (.of main_c : StableHlo.TRef sig ⟨S_, .i32⟩) main_call0.v0 (sitofp .f32) : HloOp τ sig (Elt F)) = op3 := rfl
theorem op4_tref : (StableHlo.TRef.binary (.of main_arg1 : StableHlo.TRef sig ⟨S1000000x64, .f32⟩) main_call0.v0 main_call0.v1
    (fun x v => pad S1000000x128 ![0, 0] ![0, 64] ![0, 0] x v pads_S1000000x64_S1000000x128_000_0640 h_S_) : HloOp τ sig (Elt F)) = op4 := rfl
abbrev op5 : HloOp τ sig (Elt F) := StableHlo.unary main_v2 main_v3 ((extractStridedSlice S200x16384x64 ![0, 0, 0] · slices_S200x16384x128_S200x16384x64_0_0_0) : (⟨S200x16384x128, .f32⟩ : BufTy).Contents (Elt F) → (⟨S200x16384x64, .f32⟩ : BufTy).Contents (Elt F))
abbrev op6 : HloOp τ sig (Elt F) := StableHlo.unary main_v3 main_v4 ((transpose S16384x200x64 [1, 0, 2] · transposes_S200x16384x64_S16384x200x64_1_0_2) : (⟨S200x16384x64, .f32⟩ : BufTy).Contents (Elt F) → (⟨S16384x200x64, .f32⟩ : BufTy).Contents (Elt F))
abbrev op7 : HloOp τ sig (Elt F) := StableHlo.nullary main_cst (constant S_ .f32 0x41000000#32)
abbrev op8 : HloOp τ sig (Elt F) := StableHlo.unary main_cst main_v5 (broadcastInDim S16384x200x64 ![] bcast_S_S16384x200x64 : (⟨S_, .f32⟩ : BufTy).Contents (Elt F) → (⟨S16384x200x64, .f32⟩ : BufTy).Contents (Elt F))
abbrev op9 : HloOp τ sig (Elt F) := StableHlo.binary main_v4 main_v5 main_v6 (mulf : (⟨S16384x200x64, .f32⟩ : BufTy).Contents (Elt F) → (⟨S16384x200x64, .f32⟩ : BufTy).Contents (Elt F) → (⟨S16384x200x64, .f32⟩ : BufTy).Contents (Elt F))

/-- The TensorCore's arrays, all unscoped. -/
abbrev S12 : Finset (DevRef τ sig) := {a', b', v0', c', cv0', v1', v2', v3', v4', cst', v5', v6'}
/-- The three the call touches, and the three the claim speaks of. -/
abbrev T3 : Finset (DevRef τ sig) := {v0', v1', v2'}
abbrev TF : Finset (DevRef τ sig) := {a', b', v6'}

theorem hOp1 : (op1 (F := F)).bufs ⊆ S12 := show ({a', v0'} : Finset (DevRef τ sig)) ⊆ S12 by decide
theorem hOp2 : (op2 (F := F)).bufs ⊆ S12 := show ({c'} : Finset (DevRef τ sig)) ⊆ S12 by decide
theorem hOp3 : (op3 (F := F)).bufs ⊆ S12 := show ({c', cv0'} : Finset (DevRef τ sig)) ⊆ S12 by decide
theorem hOp4 : (op4 (F := F)).bufs ⊆ S12 := show ({b', cv0', v1'} : Finset (DevRef τ sig)) ⊆ S12 by decide
theorem hOp5 : (op5 (F := F)).bufs ⊆ S12 := show ({v2', v3'} : Finset (DevRef τ sig)) ⊆ S12 by decide
theorem hOp6 : (op6 (F := F)).bufs ⊆ S12 := show ({v3', v4'} : Finset (DevRef τ sig)) ⊆ S12 by decide
theorem hOp7 : (op7 (F := F)).bufs ⊆ S12 := show ({cst'} : Finset (DevRef τ sig)) ⊆ S12 by decide
theorem hOp8 : (op8 (F := F)).bufs ⊆ S12 := show ({cst', v5'} : Finset (DevRef τ sig)) ⊆ S12 by decide
theorem hOp9 : (op9 (F := F)).bufs ⊆ S12 := show ({v4', v5', v6'} : Finset (DevRef τ sig)) ⊆ S12 by decide
theorem hT3 : T3 ⊆ S12 := by decide
theorem hTF : TF ⊆ S12 := by decide

omit [FloatOps F] in
theorem held_T3 (d : Dev nD) (W : Valuation τ sig (Elt F)) :
    (held (T d) T3 W : sProp 𝕄) = iprop((xLoc d ↦{fullShare} W v0') ∗ (tLoc d ↦{fullShare} W v1') ∗ (oLoc d ↦{fullShare} W v2')) := by
  unfold held T3
  rw [SparseCore.bigSep_insert' (by decide), SparseCore.bigSep_insert' (by decide), bigSep_singleton]

omit [FloatOps F] in
theorem held_TF (d : Dev nD) (W : Valuation τ sig (Elt F)) :
    (held (T d) TF W : sProp 𝕄) = iprop((aLoc d ↦{fullShare} W a') ∗ (bLoc d ↦{fullShare} W b') ∗ (rLoc d ↦{fullShare} W v6')) := by
  unfold held TF
  rw [SparseCore.bigSep_insert' (by decide), SparseCore.bigSep_insert' (by decide), bigSep_singleton]

/-- The launch valuation. -/
def V0 (d : Dev nD) : Valuation τ sig (Elt F) := fun b => m (d, b)
/-- Before the call: the four operations' results. -/
def V4 (d : Dev nD) : Valuation τ sig (Elt F) :=
  (op4 (F := F)).result ((op3 (F := F)).result ((op2 (F := F)).result ((op1 (F := F)).result (V0 m d))))
/-- After the call: the staging array at the looked-up rows. -/
def V5 (d : Dev nD) : Valuation τ sig (Elt F) := Function.update (V4 m d) v2' (GKo m d)
/-- At the end: the five operations' results. -/
def V10 (d : Dev nD) : Valuation τ sig (Elt F) :=
  (op9 (F := F)).result ((op8 (F := F)).result ((op7 (F := F)).result ((op6 (F := F)).result ((op5 (F := F)).result (V5 m d)))))

omit [FloatOps F] in
theorem unscoped_held (d : Dev nD) : (unscopedBufs d (fun b => m ((SparseCore.T d).loc b)) : sProp 𝕄) = held (T d) S12 (V0 m d) := by
  unfold unscopedBufs held S12
  rw [show (Finset.univ.filter fun b : Ref sig .tc => ¬ b.isScoped)
      = {main_arg0, main_arg1, main_v0, main_c, main_call0_v0, main_v1, main_v2, main_v3, main_v4, main_cst, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The contents at the call and at the end -/

set_option maxRecDepth 8192 in
theorem V4_v0 (d : Dev nD) : V4 m d v0' = XT m d := rfl
set_option maxRecDepth 8192 in
theorem V4_v1 (d : Dev nD) : V4 m d v1' = TB m d := rfl
set_option maxRecDepth 8192 in
theorem V4_v2 (d : Dev nD) : V4 m d v2' = m (oLoc d) := rfl
set_option maxRecDepth 8192 in
theorem V10_a (d : Dev nD) : V10 m d a' = m (aLoc d) := rfl
set_option maxRecDepth 8192 in
theorem V10_b (d : Dev nD) : V10 m d b' = m (bLoc d) := rfl
set_option maxRecDepth 8192 in
theorem V10_v6 (d : Dev nD) : V10 m d v6' = RES m d := rfl

/-! ## The arrays at the call, after it, and at the end -/

theorem held_call (d : Dev nD) :
    (held (T d) S12 (V4 m d) : sProp 𝕄)
      = iprop(((xLoc d ↦{fullShare} XT m d) ∗ (tLoc d ↦{fullShare} TB m d) ∗ (oLoc d ↦{fullShare} m (oLoc d))) ∗ held (T d) (S12 \ T3) (V4 m d)) := by
  rw [held_sub_split (T d) hT3, held_T3, V4_v0, V4_v1, V4_v2]

theorem held_after (d : Dev nD) :
    (held (T d) S12 (V5 m d) : sProp 𝕄)
      = iprop(((xLoc d ↦{fullShare} XT m d) ∗ (tLoc d ↦{fullShare} TB m d) ∗ (oLoc d ↦{fullShare} GKo m d)) ∗ held (T d) (S12 \ T3) (V4 m d)) := by
  have e0 : V5 m d v0' = XT m d := (Function.update_of_ne (show v0' ≠ v2' by decide) _ _).trans (V4_v0 m d)
  have e1 : V5 m d v1' = TB m d := (Function.update_of_ne (show v1' ≠ v2' by decide) _ _).trans (V4_v1 m d)
  have e2 : V5 m d v2' = GKo m d := Function.update_self _ _ _
  have er : (held (T d) (S12 \ T3) (V5 m d) : sProp 𝕄) = held (T d) (S12 \ T3) (V4 m d) := bigSep_congr fun b hb => by
    have hne : b ≠ v2' := fun e => (Finset.mem_sdiff.mp hb).2 (by rw [e]; decide)
    rw [show V5 m d b = V4 m d b from Function.update_of_ne hne _ _]
  rw [held_sub_split (T d) hT3, held_T3, e0, e1, e2, er]

theorem held_end (d : Dev nD) :
    (held (T d) S12 (V10 m d) : sProp 𝕄)
      = iprop(((aLoc d ↦{fullShare} m (aLoc d)) ∗ (bLoc d ↦{fullShare} m (bLoc d)) ∗ (rLoc d ↦{fullShare} RES m d)) ∗ held (T d) (S12 \ TF) (V10 m d)) := by
  rw [held_sub_split (T d) hTF, held_TF, V10_a, V10_b, V10_v6]

end Cert.Proof.K

end
-- ==== Proof.LaunchK.lean ====
/-
  The launch of the kernel program over its threads. On each device the TensorCore runs the host operations and the one
  SparseCore call; the call hands each of the two SparseCores a read share of the transposed index array and of the
  padded table and its sixteen tiles' columns of the staging array, and each SparseCore hands each tile a read share of
  both and the tile's own columns; every tile fills its columns with the looked-up rows and hands everything back. So
  after the call the staging array holds the looked-up rows everywhere, and the host operations after it compute the
  result from it: the first 64 lanes, the leading axes swapped back, times the constant. The two arguments end unchanged.
-/
import proofs.«206412_g41506563948974_cont_8to1_b_738_25_alg».proof.Proof.BodyK
import proofs.«206412_g41506563948974_cont_8to1_b_738_25_alg».proof.Proof.LaunchHostK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

local notation "tV" => (Memref.whole Cert.Kernel.main_v1_scv : Memref Cert.Kernel.sig Kind.scVector Space.hbm Cert.Kernel.S1000000x128 EltTy.f32)
local notation "xV" => (Memref.whole Cert.Kernel.main_v0_scv : Memref Cert.Kernel.sig Kind.scVector Space.hbm Cert.Kernel.S200x16384 EltTy.i32)
local notation "oV" => (Memref.whole Cert.Kernel.main_v2_scv : Memref Cert.Kernel.sig Kind.scVector Space.hbm Cert.Kernel.S200x16384x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "i3V" => (Memref.whole Cert.Kernel.cc0_scratch3 : Memref Cert.Kernel.sig Kind.scVector Space.vmem Cert.Kernel.S128 EltTy.i32)
local notation "p0V" => (Memref.whole Cert.Kernel.cc0_scratch4 : Memref Cert.Kernel.sig Kind.scVector Space.vmem Cert.Kernel.S128x128 EltTy.f32)
local notation "p1V" => (Memref.whole Cert.Kernel.cc0_scratch5 : Memref Cert.Kernel.sig Kind.scVector Space.vmem Cert.Kernel.S128x128 EltTy.f32)
local notation "p2V" => (Memref.whole Cert.Kernel.cc0_scratch6 : Memref Cert.Kernel.sig Kind.scVector Space.vmem Cert.Kernel.S128x128 EltTy.f32)
local notation "p3V" => (Memref.whole Cert.Kernel.cc0_scratch7 : Memref Cert.Kernel.sig Kind.scVector Space.vmem Cert.Kernel.S128x128 EltTy.f32)

variable (m : (ℓ : Loc nD τ sig) → Buf (Elt F) ℓ) (ρ : Dev nD → PrngReg)

/-! ## The read shares -/

/-- SparseCore `c`'s read share of an array held whole, -/
abbrev qC (c : Fin 2) : PosShare TreeShare := Transfers.shareTok fullShare 2 c
/-- and tile `(c, s)`'s share of that. -/
abbrev qT (c : Fin 2) (s : Fin 16) : PosShare TreeShare := Transfers.shareTok (qC c) 16 s

variable [FloatOps F]

/-! ## What the handshakes carry -/

/-- Tile `(c, s)`'s holdings: its read shares of `xT` and `tb`, its columns of the staging array at `f`. -/
abbrev tilePts (d : Dev nD) (c : Fin 2) (s : Fin 16) (f : Buf (Elt F) (oLoc d)) : sProp 𝕄 :=
  iprop((xLoc d ↦{qT c s} XT m d) ∗ (tLoc d ↦{qT c s} TB m d)
    ∗ iprop(Rows d (coordsV c s) f (Finset.range 200) ∗ Rows3 d (coordsV c s) f (Finset.range 200)))
/-- SparseCore `c`'s holdings: its read shares, its sixteen tiles' columns at `f`. -/
abbrev corePts (d : Dev nD) (c : Fin 2) (f : Buf (Elt F) (oLoc d)) : sProp 𝕄 :=
  iprop((xLoc d ↦{qC c} XT m d) ∗ (tLoc d ↦{qC c} TB m d)
    ∗ bigSep Finset.univ fun s : Fin 16 => iprop(Rows d (coordsV c s) f (Finset.range 200) ∗ Rows3 d (coordsV c s) f (Finset.range 200)))

/-- The one call: the staging array goes out at its launch contents and comes back at the looked-up rows. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (GKo m d)
  go := fun q d c i => match q with | 0 => tilePts m d (Fin.cast nCore_zero c) (Fin.cast nSub_zero i) (m (oLoc d))
  td := fun q d c i => match q with | 0 => tilePts m d (Fin.cast nCore_zero c) (Fin.cast nSub_zero i) (GKo m d)
  x := fun _ _ => iprop(emp)

omit [FloatOps F] in
instance Win_storable (d : Dev nD) (L : grid0.Coords) (f : Buf (Elt F) (oLoc d)) (r b : ℕ) :
    BI.Storable (upEmb : UEmb _ 𝕄) (Win d L f r b) := by unfold Win; infer_instance
omit [FloatOps F] in
instance Rows_storable (d : Dev nD) (L : grid0.Coords) (f : Buf (Elt F) (oLoc d)) (s : Finset ℕ) :
    BI.Storable (upEmb : UEmb _ 𝕄) (Rows d L f s) := by unfold Rows; infer_instance
omit [FloatOps F] in
instance Rows3_storable (d : Dev nD) (L : grid0.Coords) (f : Buf (Elt F) (oLoc d)) (s : Finset ℕ) :
    BI.Storable (upEmb : UEmb _ 𝕄) (Rows3 d L f s) := by unfold Rows3; infer_instance

omit [FloatOps F] in
instance tileRows_storable (d : Dev nD) (c : Fin 2) (f : Buf (Elt F) (oLoc d)) :
    BI.Storable (upEmb : UEmb _ 𝕄) (bigSep Finset.univ fun s : Fin 16 =>
      iprop(Rows d (coordsV c s) f (Finset.range 200) ∗ Rows3 d (coordsV c s) f (Finset.range 200))) := by
  haveI h : ∀ i : Fin 16, BI.Storable (upEmb : UEmb _ 𝕄)
      iprop(Rows d (coordsV c i) f (Finset.range 200) ∗ Rows3 d (coordsV c i) f (Finset.range 200)) := fun i => inferInstance
  exact BI.Storable.bigSep _ _ _

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (GKo m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (GKo m d)))

/-! ## The tile's obligation -/

/-- Every word of the transposed index array names a table row when every word of the index array does. -/
theorem hXT (hpre : ∀ (d : Dev nD) j, (m (aLoc d) j).toNat < 1000000) (d : Dev nD) : ∀ j, (XT m d j).toNat < 1000000 := by
  intro j
  show (transpose S200x16384 [1, 0] (m (aLoc d)) transposes_S16384x200_S200x16384_1_0 j).toNat < 1000000
  unfold transpose
  exact hpre d _

theorem defs₀_vector (c : Fin τ.nSC) (s : Fin τ.nSub) :
    defs₀ (F := F) (.scVector c s) 0 ()
      = SparseCore.onTile hcore0 hsub0 (fun c s => cc0_k (coordsV c s)
          tV (Memref.isWhole_whole _) xV (Memref.isWhole_whole _) oV (Memref.isWhole_whole _)
          i0V (Memref.isWhole_whole _) i1V (Memref.isWhole_whole _) i2V (Memref.isWhole_whole _) i3V (Memref.isWhole_whole _)
          p0V (Memref.isWhole_whole _) p1V (Memref.isWhole_whole _) p2V (Memref.isWhole_whole _) p3V (Memref.isWhole_whole _)
          cc0_scratch8 cc0_scratch9 cc0_scratch10 cc0_scratch11 cc0_scratch12 cc0_scratch13 cc0_scratch14 cc0_scratch15
          cc0_scratch16 cc0_scratch17 cc0_scratch18 cc0_scratch19) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ (d : Dev nD) j, (m (aLoc d) j).toNat < 1000000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) O W (XT m d) (TB m d) (m (oLoc d)) _ _ hF (hXT m hpre d) hO).trans
    (wp_mono frame _ _ fun _ => obl_post)

/-! ## A SparseCore's holdings dealt to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_eq (d : Dev nD) (c : Fin 2) (f : Buf (Elt F) (oLoc d)) :
    (bigSep Finset.univ fun s : Fin 16 => tilePts m d c s f)
      = iprop((bigSep Finset.univ fun s : Fin 16 => (xLoc d ↦{qT c s} XT m d : sProp 𝕄))
          ∗ (bigSep Finset.univ fun s : Fin 16 => (tLoc d ↦{qT c s} TB m d : sProp 𝕄))
          ∗ bigSep Finset.univ fun s : Fin 16 => iprop(Rows d (coordsV c s) f (Finset.range 200) ∗ Rows3 d (coordsV c s) f (Finset.range 200))) := by
  rw [bigSep_sep', bigSep_sep']

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (GKo m d))
          -∗ corePts m d (Fin.cast nCore_zero c) (GKo m d)))
  rw [bigSep_tasks (F := F) (fun i => tilePts m d (Fin.cast nCore_zero c) i (m (oLoc d))),
    bigSep_tasks (F := F) (fun i => tilePts m d (Fin.cast nCore_zero c) i (GKo m d)), tiles_eq, tiles_eq]
  unfold corePts
  iintro ⟨Hx, Ht, Ho⟩
  ihave Hx' := (Transfers.pointsTo_toks_split (qC (Fin.cast nCore_zero c)) 16) $$ Hx
  icases Hx' with ⟨Hxr, Hxs⟩
  ihave Ht' := (Transfers.pointsTo_toks_split (qC (Fin.cast nCore_zero c)) 16) $$ Ht
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (qC (Fin.cast nCore_zero c)) 16)
    isplitl [Hxr]; · iexact Hxr
    iexact Hxs
  isplitl [Htr Hts]
  · iapply (Transfers.pointsTo_toks_join (qC (Fin.cast nCore_zero c)) 16)
    isplitl [Htr]; · iexact Htr
    iexact Hts
  iexact Ho

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The two SparseCores' holdings together: the read shares of both, and the whole staging array. -/
theorem cores_eq (d : Dev nD) (f : Buf (Elt F) (oLoc d)) :
    (bigSep Finset.univ fun c : Fin 2 => corePts m d c f)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} f)) := by
  rw [bigSep_sep', bigSep_sep', out_split_rows d f]

theorem st0_eq (d : Dev nD) :
    (bigSep Finset.univ fun c : Fin ((K (F := F)).nCore 0) => (P m).st 0 d c)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} m (oLoc d))) :=
  cores_eq m d (m (oLoc d))
theorem dn0_eq (d : Dev nD) :
    (bigSep Finset.univ fun c : Fin ((K (F := F)).nCore 0) => (P m).dn 0 d c)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} GKo m d)) :=
  cores_eq m d (GKo m d)

/-- The arrays before the call and at the end, with the valuations written out as the operations' results. -/
theorem held_call' (d : Dev nD) :
    (held (T d) S12 ((op4 (F := F)).result ((op3 (F := F)).result ((op2 (F := F)).result ((op1 (F := F)).result (V0 m d))))) : sProp 𝕄)
      = iprop(((xLoc d ↦{fullShare} XT m d) ∗ (tLoc d ↦{fullShare} TB m d) ∗ (oLoc d ↦{fullShare} m (oLoc d))) ∗ held (T d) (S12 \ T3) (V4 m d)) :=
  held_call m d
theorem held_end' (d : Dev nD) :
    (held (T d) S12 ((op9 (F := F)).result ((op8 (F := F)).result ((op7 (F := F)).result ((op6 (F := F)).result ((op5 (F := F)).result (V5 m d)))))) : sProp 𝕄)
      = iprop(((aLoc d ↦{fullShare} m (aLoc d)) ∗ (bLoc d ↦{fullShare} m (bLoc d)) ∗ (rLoc d ↦{fullShare} RES m d)) ∗ held (T d) (S12 \ TF) (V10 m d)) :=
  held_end m d

/-- What @main leaves the claim: the two arguments at their launch contents, the result array at the result. -/
abbrev FIN (d : Dev nD) : sProp 𝕄 :=
  iprop((aLoc d ↦{fullShare} m (aLoc d)) ∗ (bLoc d ↦{fullShare} m (bLoc d)) ∗ (rLoc d ↦{fullShare} RES m d))

set_option maxRecDepth 8192 in
/-- @main on device `d`'s TensorCore: the four host operations before the call over the twelve arrays held whole, the
    call (the index array's transpose and the padded table lent as read shares, the staging array dealt by columns),
    the five host operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := op1) (S := S12) hOp1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S12) hOp2 (V := (op1 (F := F)).result (V0 m d))) $$ [Hb Hheld]
  · isplitl [Hb] <;> iassumption
  iintro ⟨Hb, Hheld⟩
  rw [wp_ret]; imodintro
  rw [op3_tref]
  iapply (wp_hlo_within 𝒱 (SparseCore.T d) none Set.univ (op := op3) (S := S12) hOp3 (V := (op2 (F := F)).result ((op1 (F := F)).result (V0 m d)))) $$ [Hb Hheld]
  · isplitl [Hb] <;> iassumption
  iintro ⟨Hb, Hheld⟩
  rw [wp_ret]; imodintro
  rw [op4_tref]
  iapply (wp_hlo_within 𝒱 (SparseCore.T d) none Set.univ (op := op4) (S := S12) hOp4 (V := (op3 (F := F)).result ((op2 (F := F)).result ((op1 (F := F)).result (V0 m d))))) $$ [Hb Hheld]
  · isplitl [Hb] <;> iassumption
  iintro ⟨Hb, Hheld⟩
  rw [wp_ret]; imodintro
  -- the call
  ihave Hh := (Entails.of_eq (held_call' (F := F) m d)) $$ Hheld
  icases Hh with ⟨⟨Hx, Ht, Ho⟩, Hrest⟩
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  iapply ((K (F := F)).wp_run (D (F := F)) 𝒱 (EH := EH) (P := P m) κ d 0) $$ [Hst Hxs Hts Ho Hb Hxr Htr Hrest]
  isplitr; · iexact Hctx
  isplitl [Hst]; · iexact Hst
  isplitl [Hxs Hts Ho]
  · rw [st0_eq]
    isplitl [Hxs]; · iexact Hxs
    isplitl [Hts]; · iexact Hts
    iexact Ho
  iintro ⟨Hst, Hdn⟩
  ihave Hdn' := (Entails.of_eq (dn0_eq m d)) $$ Hdn
  icases Hdn' with ⟨Hxs, Hts, Ho⟩
  ihave Hx := (Transfers.pointsTo_toks_join fullShare 2) $$ [Hxr Hxs]
  · isplitl [Hxr]; · iexact Hxr
    iexact Hxs
  ihave Ht := (Transfers.pointsTo_toks_join fullShare 2) $$ [Htr Hts]
  · isplitl [Htr]; · iexact Htr
    iexact Hts
  -- the five operations after it
  iapply (wp_hlo_within 𝒱 (SparseCore.T d) none Set.univ (op := op5) (S := S12) hOp5 (V := V5 m d)) $$ [Hb Hx Ht Ho Hrest]
  · isplitl [Hb]; · iexact Hb
    rw [held_after]
    isplitl [Hx Ht Ho]
    · isplitl [Hx]; · iexact Hx
      isplitl [Ht]; · iexact Ht
      iexact Ho
    iexact Hrest
  iintro ⟨Hb, Hheld⟩
  rw [wp_ret]; imodintro
  iapply (wp_hlo_within 𝒱 (SparseCore.T d) none Set.univ (op := op6) (S := S12) hOp6 (V := (op5 (F := F)).result (V5 m d))) $$ [Hb Hheld]
  · isplitl [Hb] <;> iassumption
  iintro ⟨Hb, Hheld⟩
  rw [wp_ret]; imodintro
  iapply (wp_hlo_within 𝒱 (SparseCore.T d) none Set.univ (op := op7) (S := S12) hOp7 (V := (op6 (F := F)).result ((op5 (F := F)).result (V5 m d)))) $$ [Hb Hheld]
  · isplitl [Hb] <;> iassumption
  iintro ⟨Hb, Hheld⟩
  rw [wp_ret]; imodintro
  iapply (wp_hlo_within 𝒱 (SparseCore.T d) none Set.univ (op := op8) (S := S12) hOp8 (V := (op7 (F := F)).result ((op6 (F := F)).result ((op5 (F := F)).result (V5 m d))))) $$ [Hb Hheld]
  · isplitl [Hb] <;> iassumption
  iintro ⟨Hb, Hheld⟩
  rw [wp_ret]; imodintro
  iapply (wp_hlo_within 𝒱 (SparseCore.T d) none Set.univ (op := op9) (S := S12) hOp9 (V := (op8 (F := F)).result ((op7 (F := F)).result ((op6 (F := F)).result ((op5 (F := F)).result (V5 m d)))))) $$ [Hb Hheld]
  · isplitl [Hb] <;> iassumption
  iintro ⟨Hb, Hheld⟩
  ihave Hh := (Entails.of_eq (held_end' (F := F) m d)) $$ Hheld
  icases Hh with ⟨⟨Ha, Hbb, Hr⟩, -⟩
  rw [wp_ret]; imodintro; imodintro
  isplitl [Hst]; · iexact Hst
  isplitl [Ha]; · iexact Ha
  isplitl [Hbb]; · iexact Hbb
  iexact Hr

def fq (d : Dev nD) (s' : Phys nD τ sig (Elt F)) : Prop :=
  s'.mem.mem (rLoc d) = RES m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with its result array at the result and its two arguments unchanged. -/
def QC : PUnit × MemSt nD τ sig (Elt F) → Prop := fun r => ∀ c : Dev nD,
  r.2.mem ((SparseCore.T c).loc main_v6) = RES m c
    ∧ r.2.mem ((SparseCore.T c).loc main_arg0) = m ((SparseCore.T c).loc main_arg0)
    ∧ r.2.mem ((SparseCore.T c).loc main_arg1) = m ((SparseCore.T c).loc main_arg1)

/-- From any memory whose index words all name table rows, with every counter at zero, every weakly fair execution of the
    kernel program terminates, nothing faulting, with the result array at `RES` and the arguments unchanged. -/
theorem run_main [∀ e, Nonempty (Elt F e)] (hpre : ∀ (d : Dev nD) j, (m ((SparseCore.T d).loc main_arg0) j).toNat < 1000000) :
    θ_run (Cert.Kernel.defs (F := F)) (Cert.Kernel.threads (F := F)) ⟨m, fun _ => 0, ρ⟩
      (fun r => ∀ c : Dev nD, r.2.mem ((SparseCore.T c).loc main_v6) = RES m c
        ∧ r.2.mem ((SparseCore.T c).loc main_arg0) = m ((SparseCore.T c).loc main_arg0)
        ∧ r.2.mem ((SparseCore.T c).loc main_arg1) = m ((SparseCore.T c).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.K

end
-- ==== Proof.PreRange.lean ====
/-
  The precondition read back. The predicate is the conjunction of two whole-array tests, each a reduction by
  `and` to a single bit: every table entry has absolute value below +infinity, and every index word w
  satisfies 0 <= w and w <= 999999 as a signed 32-bit integer. From the second test being 1 we read, at each
  index, the two signed comparisons on the same word; a signed word that is non-negative is its own unsigned
  value, hence below 1000000.
-/
import proofs.«206412_g41506563948974_cont_8to1_b_738_25_alg».proof.Pre_input_domain
import Idealize.ShloMosaic.Lib.ReduceAll

namespace Cert.Lookup

open Idealize.ShloMosaic

/-- The scalar shape has exactly one index: a function out of the empty type. -/
instance subsingleton_scalar_idx : Subsingleton Cert.Pre_input_domain.S_.Idx :=
  ⟨fun a b => funext fun i => i.elim0⟩

/-- A 32-bit word that passes both signed tests `0 <= w` and `w <= 999999` is, read unsigned, below 1000000,
    and is non-negative read signed. -/
theorem word_range (w : BitVec 32)
    (h0 : IntOp.cmpi .sge w 0#32 = 1#1) (h1 : IntOp.cmpi .sle w 999999#32 = 1#1) :
    w.toNat < 1000000 ∧ 0 ≤ w.toInt := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  refine ⟨?_, h0⟩
  have hw := BitVec.toInt_eq_toNat_cond w
  have hlt := w.isLt
  split at hw <;> omega

/-- Under the precondition every index word lies in the table's row range: below 1000000 read unsigned, and
    non-negative read signed. -/
theorem range_of_pre {F : FTy → Type} [FloatOps F] [Cert.Pre_input_domain.Facts]
    (x : IVec Cert.Pre_input_domain.S16384x200 32)
    (tab : FVec F Cert.Pre_input_domain.S1000000x64 .f32)
    (h : Cert.Pre_input_domain.fn (F := F) x tab = fun _ => 1#1) :
    ∀ j, (x j).toNat < 1000000 ∧ 0 ≤ (x j).toInt := by
  intro j
  have e := congrFun h (fun i => i.elim0)
  dsimp only [Cert.Pre_input_domain.fn] at e
  have e2 := (IntOp.andi_eq_one.1 e).2
  have e3 := Host.reduce_andi_all _ _ _ _ _ e2 j
  have e4 := IntOp.andi_eq_one.1 e3
  exact word_range (x j) e4.1 e4.2

end Cert.Lookup
-- ==== Proof.FrameK.lean ====
/-
  The frame claim of the kernel program: under the precondition every weakly fair execution terminates,
  nothing faulting, with the two argument arrays unchanged. It is the launch theorem's run with the result's value
  dropped; the index range the run asks for is what the precondition says of the index array.
-/
import proofs.«206412_g41506563948974_cont_8to1_b_738_25_alg».proof.Defs
import proofs.«206412_g41506563948974_cont_8to1_b_738_25_alg».proof.Proof.LaunchK
import proofs.«206412_g41506563948974_cont_8to1_b_738_25_alg».proof.Proof.PreRange
import proofs.«206412_g41506563948974_cont_8to1_b_738_25_alg».proof.Proof.Gen.Kernel
import proofs.«206412_g41506563948974_cont_8to1_b_738_25_alg».proof.Proof.Gen.Pre_input_domain

noncomputable section

namespace Cert.Proof.K

open Idealize.ShloMosaic Idealize.SL.Sem

/-- `Cert.frame_Kernel` (Defs.lean). -/
theorem frame_K : Cert.frame_Kernel (hKernel := Cert.Kernel.Gen.facts) (hPre_input_domain := Cert.Pre_input_domain.Gen.facts) :=
  fun m g hpre =>
    (θ_run (Cert.Kernel.defs (F := Bits)) _ _).mono (fun _ h c => ⟨(h c).2.1, (h c).2.2⟩)
      (run_main (F := Bits) m g fun d j => (Cert.Lookup.range_of_pre (F := Bits) _ _ (hpre d) j).1)

end Cert.Proof.K

end
-- ==== Proof.CommonKI.lean ====
/-
  Names shared by the tile's task and the launch of the lookup kernel: the program as the launch theorem sees it,
  the resource algebra (the handshakes' rounds beside the transfers' counters), the three arrays the call touches —
  the transposed index array `xT`, the lane-padded table `tb`, the staging array `out` — and how they are dealt
  to the 32 tiles: tile `w = 2·s + c` (subcore `s` of SparseCore `c`) reads `xT` and `tb` through a read share
  of its own and owns the columns `[512·w, 512·w + 512)` of every row of `out`.
-/
import proofs.«206412_g41506563948974_cont_8to1_b_738_25_alg».proof.Defs
import proofs.«206412_g41506563948974_cont_8to1_b_738_25_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206412_g41506563948974_cont_8to1_b_738_25_alg».proof.Proof.Gen.KernelIdeal
import proofs.«206412_g41506563948974_cont_8to1_b_738_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The three arrays of the call -/

abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

/-- The tile number of subcore `s` of SparseCore `c`: `2·s + c`. -/
def wid (c : Fin 2) (s : Fin 16) : Fin 32 := ⟨2 * s.val + c.val, by omega⟩

/-! ## The rows a tile moves, and what they hold -/

local notation "tVm" => (Memref.whole Cert.KernelIdeal.main_v1_scv : Memref Cert.KernelIdeal.sig Kind.scVector Space.hbm Cert.KernelIdeal.S1000000x128 EltTy.f32)
local notation "xVm" => (Memref.whole Cert.KernelIdeal.main_v0_scv : Memref Cert.KernelIdeal.sig Kind.scVector Space.hbm Cert.KernelIdeal.S200x16384 EltTy.i32)
local notation "oVm" => (Memref.whole Cert.KernelIdeal.main_v2_scv : Memref Cert.KernelIdeal.sig Kind.scVector Space.hbm Cert.KernelIdeal.S200x16384x128 EltTy.f32)

/-- The first column of chunk `b` of the tile at grid point `L`: `512·(2·s + c) + 128·b`. -/
def cbase (L : grid0.Coords) (b : ℕ) : ℕ := 1024 * (L 1).val + 512 * (L 0).val + 128 * b

theorem cbase_le (L : grid0.Coords) (b : ℕ) (hb : b < 4) : cbase L b + 128 ≤ 16384 := by
  have h0 : (L 0).val < 2 := (L 0).isLt
  have h1 : (L 1).val < 16 := (L 1).isLt
  unfold cbase; omega

/-- 128 consecutive entries of one row of `xT`, as a tile's copy addresses them. -/
abbrev xRowM (off : Fin 2 → ℕ) (h : ∀ a, off a + S1x128.size a ≤ S200x16384.size a) : Memref sig .scVector .hbm S128 .i32 :=
  ((xVm).slice (Rect.unit (s := S200x16384) off S1x128.size h) (fun _ => rfl)).squeeze S128 Gen.squeezes_S1x128_S128
/-- 128 consecutive rows (all 128 lanes) of one plane of `out`, as a tile's copy addresses them. -/
abbrev oWinM (off : Fin 3 → ℕ) (h : ∀ a, off a + S1x128x128.size a ≤ S200x16384x128.size a) : Memref sig .scVector .hbm S128x128 .f32 :=
  ((oVm).slice (Rect.unit (s := S200x16384x128) off S1x128x128.size h) (fun _ => rfl)).squeeze S128x128 Gen.squeezes_S1x128x128_S128x128
/-- All of the padded table, as a tile's gather addresses it. -/
abbrev tAllM : Memref sig .scVector .hbm S1000000x128 .f32 :=
  (tVm).slice (Rect.unit (s := S1000000x128) ![0, 0] S1000000x128.size Gen.inb_S1000000x128_S1000000x128_0_0) (fun _ => rfl)

theorem xin (L : grid0.Coords) (r b : ℕ) (hr : r < 200) (hb : b < 4) : ∀ a, (![r, cbase L b] : Fin 2 → ℕ) a + S1x128.size a ≤ S200x16384.size a := by
  have := cbase_le L b hb
  intro a; match a with
  | ⟨0, _⟩ => show r + 1 ≤ 200; omega
  | ⟨1, _⟩ => show cbase L b + 128 ≤ 16384; omega
theorem oin (L : grid0.Coords) (r b : ℕ) (hr : r < 200) (hb : b < 4) : ∀ a, (![r, cbase L b, 0] : Fin 3 → ℕ) a + S1x128x128.size a ≤ S200x16384x128.size a := by
  have := cbase_le L b hb
  intro a; match a with
  | ⟨0, _⟩ => show r + 1 ≤ 200; omega
  | ⟨1, _⟩ => show cbase L b + 128 ≤ 16384; omega
  | ⟨2, _⟩ => show 0 + 128 ≤ 128; omega

/-- The 128 row numbers of chunk `b` of row `r` of `xT` (entry `y` is `xT[r, cbase L b + y]`; indices taken modulo the
    extents, which they never reach). -/
def idxC (fX : S200x16384.Idx → BitVec 32) (L : grid0.Coords) (r b : ℕ) : S128.Idx → BitVec 32 :=
  fun y => fX (ValueIdx.ix2 (⟨r % 200, Nat.mod_lt _ (by decide)⟩ : Fin 200) (⟨(cbase L b + (y 0).val) % 16384, Nat.mod_lt _ (by decide)⟩ : Fin 16384))

/-- The 128 table rows those numbers name: entry `(y, k)` is `tb[xT[r, cbase L b + y], k]`. -/
def pairC (fX : S200x16384.Idx → BitVec 32) (fT : S1000000x128.Idx → F .f32) (L : grid0.Coords) (r b : ℕ) : S128x128.Idx → F .f32 :=
  fun y => fT (ValueIdx.ix2 (Cert.Lookup.rowOf (idxC fX L r b (ValueIdx.ix1 (y 0 : Fin 128)))) (y 1 : Fin 128))

/-! ## The copies' offsets in closed form, and the loop's guards decided -/

theorem off1_0 (L : grid0.Coords) : k0_off1 L 0#32 = ![0, cbase L 0] := k0_off1_eq L ⟨0, by decide⟩
theorem off1_1 (L : grid0.Coords) : k0_off1 L 128#32 = ![0, cbase L 1] := k0_off1_eq L ⟨1, by decide⟩
theorem off1_2 (L : grid0.Coords) : k0_off1 L 256#32 = ![0, cbase L 2] := k0_off1_eq L ⟨2, by decide⟩
theorem off1_3 (L : grid0.Coords) : k0_off1 L 384#32 = ![0, cbase L 3] := k0_off1_eq L ⟨3, by decide⟩
theorem off2_c (L : grid0.Coords) (k : Fin k0_t1_loop.trips) : k0_off2 L k = ![k.val + 1, cbase L 0] := k0_off2_eq L k
theorem off6_c (L : grid0.Coords) (k : Fin k0_t1_loop.trips) : k0_off6 L k = ![k.val + 1, cbase L 1] := k0_off6_eq L k
theorem off8_c (L : grid0.Coords) (k : Fin k0_t1_loop.trips) : k0_off8 L k = ![k.val + 1, cbase L 2] := k0_off8_eq L k
theorem off10_c (L : grid0.Coords) (k : Fin k0_t1_loop.trips) : k0_off10 L k = ![k.val + 1, cbase L 3] := k0_off10_eq L k
theorem off5_0 (L : grid0.Coords) (k : Fin k0_t1_loop.trips) : k0_off5 L k 0#32 = ![k.val, cbase L 0, 0] := k0_off5_eq L k ⟨0, by decide⟩
theorem off5_1 (L : grid0.Coords) (k : Fin k0_t1_loop.trips) : k0_off5 L k 128#32 = ![k.val, cbase L 1, 0] := k0_off5_eq L k ⟨1, by decide⟩
theorem off5_2 (L : grid0.Coords) (k : Fin k0_t1_loop.trips) : k0_off5 L k 256#32 = ![k.val, cbase L 2, 0] := k0_off5_eq L k ⟨2, by decide⟩
theorem off5_3 (L : grid0.Coords) (k : Fin k0_t1_loop.trips) : k0_off5 L k 384#32 = ![k.val, cbase L 3, 0] := k0_off5_eq L k ⟨3, by decide⟩

theorem trips_eq : k0_t1_loop.trips = 200 := by decide +kernel
theorem cond1_pos : ∀ k : Fin k0_t1_loop.trips, k.val < 199 → k0_cond1 k = 1#1 := by decide +kernel
theorem cond1_neg : ∀ k : Fin k0_t1_loop.trips, ¬ k.val < 199 → ¬ k0_cond1 k = 1#1 := by decide +kernel
theorem cond3_pos : ∀ k : Fin k0_t1_loop.trips, k.val < 199 → k0_cond3 k = 1#1 := by decide +kernel
theorem cond3_neg : ∀ k : Fin k0_t1_loop.trips, ¬ k.val < 199 → ¬ k0_cond3 k = 1#1 := by decide +kernel
theorem cond4_pos : ∀ k : Fin k0_t1_loop.trips, k.val < 199 → k0_cond4 k = 1#1 := by decide +kernel
theorem cond4_neg : ∀ k : Fin k0_t1_loop.trips, ¬ k.val < 199 → ¬ k0_cond4 k = 1#1 := by decide +kernel
theorem cond5_pos : ∀ k : Fin k0_t1_loop.trips, k.val < 199 → k0_cond5 k = 1#1 := by decide +kernel
theorem cond5_neg : ∀ k : Fin k0_t1_loop.trips, ¬ k.val < 199 → ¬ k0_cond5 k = 1#1 := by decide +kernel
theorem cond6_pos : ∀ k : Fin k0_t1_loop.trips, k.val < 199 → k0_cond6 k = 1#1 := by decide +kernel
theorem cond6_neg : ∀ k : Fin k0_t1_loop.trips, ¬ k.val < 199 → ¬ k0_cond6 k = 1#1 := by decide +kernel
theorem cond7_pos : ∀ k : Fin k0_t1_loop.trips, k.val < 199 → k0_cond7 k = 1#1 := by decide +kernel
theorem cond7_neg : ∀ k : Fin k0_t1_loop.trips, ¬ k.val < 199 → ¬ k0_cond7 k = 1#1 := by decide +kernel
theorem cond8_pos : ∀ k : Fin k0_t1_loop.trips, k.val < 199 → k0_cond8 k = 1#1 := by decide +kernel
theorem cond8_neg : ∀ k : Fin k0_t1_loop.trips, ¬ k.val < 199 → ¬ k0_cond8 k = 1#1 := by decide +kernel
theorem cond2_pos : ∀ k : Fin k0_t1_loop.trips, 1 ≤ k.val → k0_cond2 k = 1#1 := by decide +kernel
theorem cond2_neg : ∀ k : Fin k0_t1_loop.trips, ¬ 1 ≤ k.val → ¬ k0_cond2 k = 1#1 := by decide +kernel

/-! ## A vector subcore's own semaphores and scratch buffers, one by one -/

local notation "𝕄" => MT nD τ sig (HIx 1) (Elt F) ℕ UU ℕ

/-- The twelve DMA semaphores of a vector subcore, by number. -/
def dsem (k : Fin 12) : DmaSem sig := k

def cellE (thr : Thread nD τ) : Fin 12 ↪ GSem nD τ sig :=
  ⟨fun k => (thr, SemLoc.dma (dsem k)), fun a b h => by
    have h2 : (SemLoc.dma (dsem a) : SemLoc sig) = SemLoc.dma (dsem b) := (Prod.ext_iff.mp h).2
    exact SemLoc.dma.inj h2⟩

theorem dsem_scoped : ∀ k : Fin 12, (SemLoc.dma (dsem k) : SemLoc sig).isScoped .scVector = true := by decide

theorem cells_sub (d : Dev nD) (c : Fin τ.nSC) (j : Fin τ.nSub) : Finset.univ.map (cellE (V d c j)) ⊆ ownCells (V d c j) := by
  intro g hg
  obtain ⟨k, -, rfl⟩ := Finset.mem_map.mp hg
  exact mem_ownCells.mpr ⟨rfl, dsem_scoped k⟩

theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A vector subcore's scoped semaphores at zero: its twelve DMA semaphores, one by one, and the rest. -/
theorem ownSems0_cells (d : Dev nD) (c : Fin τ.nSC) (j : Fin τ.nSub) :
    (ownSems0 (V d c j) : sProp 𝕄)
      = iprop((semVal (V d c j, SemLoc.dma (dsem 0)) 0 ∗ semVal (V d c j, SemLoc.dma (dsem 1)) 0 ∗ semVal (V d c j, SemLoc.dma (dsem 2)) 0
          ∗ semVal (V d c j, SemLoc.dma (dsem 3)) 0 ∗ semVal (V d c j, SemLoc.dma (dsem 4)) 0 ∗ semVal (V d c j, SemLoc.dma (dsem 5)) 0
          ∗ semVal (V d c j, SemLoc.dma (dsem 6)) 0 ∗ semVal (V d c j, SemLoc.dma (dsem 7)) 0 ∗ semVal (V d c j, SemLoc.dma (dsem 8)) 0
          ∗ semVal (V d c j, SemLoc.dma (dsem 9)) 0 ∗ semVal (V d c j, SemLoc.dma (dsem 10)) 0 ∗ semVal (V d c j, SemLoc.dma (dsem 11)) 0)
          ∗ bigSep (ownCells (V d c j) \ Finset.univ.map (cellE (V d c j))) fun g => semVal g 0) := by
  unfold SparseCore.Cfg.ownSems0
  rw [SparseCore.bigSep_sdiff_split' (cells_sub d c j), BI.bigSep_map, bigSep_fin12]
  rfl

/-- The eight scratch buffers of a vector subcore, by number. -/
def scr (k : Fin 8) : Ref sig .scVector := ⟨.vmem, ⟨k.val, by have := k.isLt; show k.val < 8; omega⟩, rfl⟩

def bufE (c : Fin τ.nSC) (j : Fin τ.nSub) : Fin 8 ↪ DevRef τ sig :=
  ⟨fun k => (Proc.scVector c j).devRef (scr k), fun a b h => by
    have h2 : scr a = scr b := Proc.devRef_injective _ h
    have h3 := congrArg (fun r : Ref sig .scVector => r.idx.val) h2
    exact Fin.ext h3⟩

theorem bufs_sub (c : Fin τ.nSC) (j : Fin τ.nSub) : Finset.univ.map (bufE c j) ⊆ ownRefs (τ := τ) (sig := sig) (Proc.scVector c j) := by
  intro b hb
  obtain ⟨k, -, rfl⟩ := Finset.mem_map.mp hb
  show (Proc.scVector c j).devRef (scr k) ∈ ownRefs (τ := τ) (sig := sig) (Proc.scVector c j)
  exact SparseCore.Cfg.mem_ownRefs_of_owner (p := Proc.scVector c j) (b := (Proc.scVector c j).devRef (scr k)) rfl

/-- A vector subcore's own buffers: its eight scratch buffers at some contents, one by one, and the rest. -/
theorem ownBufs_scr (d : Dev nD) (c : Fin τ.nSC) (j : Fin τ.nSub) :
    (ownBufs (V d c j) : sProp 𝕄)
      = iprop(((∃ f, (V d c j).loc (scr 0) ↦{fullShare} f) ∗ (∃ f, (V d c j).loc (scr 1) ↦{fullShare} f) ∗ (∃ f, (V d c j).loc (scr 2) ↦{fullShare} f)
          ∗ (∃ f, (V d c j).loc (scr 3) ↦{fullShare} f) ∗ (∃ f, (V d c j).loc (scr 4) ↦{fullShare} f) ∗ (∃ f, (V d c j).loc (scr 5) ↦{fullShare} f)
          ∗ (∃ f, (V d c j).loc (scr 6) ↦{fullShare} f) ∗ (∃ f, (V d c j).loc (scr 7) ↦{fullShare} f))
          ∗ bigSep (ownRefs (τ := τ) (Proc.scVector c j) \ Finset.univ.map (bufE c j))
              fun b => iprop(∃ f, ((d, b) : Loc nD τ sig) ↦{fullShare} f)) := by
  unfold SparseCore.Cfg.ownBufs
  rw [SparseCore.bigSep_sdiff_split' (bufs_sub c j), BI.bigSep_map, bigSep_fin8]
  simp only [bufE, Function.Embedding.coeFn_mk]
  rfl

end Cert.Proof.KI

end
-- ==== Proof.OutSplitKI.lean ====
/-
  The staging array dealt to the tiles, window by window. The array `out` has shape [200, 16384, 128]. The tile at
  grid point (c, s) owns, in every plane r, the rows [1024·s + 512·c, 1024·s + 512·c + 512), which it fills in four
  windows of 128 rows (all 128 lanes): window (c, s, r, b) is plane r, rows [1024·s + 512·c + 128·b, + 128).
  Two different windows differ in the plane or in the row range: the map (s, c, b) ↦ 8·s + 4·c + b is one to one into
  [0, 128), and the row range of a window is [128·n, 128·n + 128) for that number n; so the windows are pairwise
  disjoint. Every element (r, j, k) lies in the window with s = j / 1024, c = (j mod 1024) / 512, b = (j mod 512) / 128.
  Hence the points-to of the whole array is the separating conjunction of the 2·16·200·4 windows' points-to.
-/
import proofs.«206412_g41506563948974_cont_8to1_b_738_25_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of subcore `s` of SparseCore `c`. -/
def coordsV (c : Fin (grid0.bound 0)) (s : Fin (grid0.bound 1)) : grid0.Coords := fun | 0 => c | 1 => s | ⟨_ + 2, h⟩ => absurd h (Nat.not_lt.2 (Nat.le_add_left _ _))

theorem cbase_coordsV (c : Fin (grid0.bound 0)) (s : Fin (grid0.bound 1)) (b : ℕ) :
    cbase (coordsV c s) b = 1024 * s.val + 512 * c.val + 128 * b := rfl

/-- Window (L, r, b) as a rectangle of the staging array: plane `r`, 128 rows from `cbase L b`, all lanes. -/
abbrev winRect (L : grid0.Coords) (r b : ℕ) (hr : r < 200) (hb : b < 4) : Rect S200x16384x128 :=
  Rect.unit (s := S200x16384x128) ![r, cbase L b, 0] S1x128x128.size (oin L r b hr hb)

/-- The elements of the staging array in window (L, r, b); empty outside the 200 planes and 4 chunks. -/
def winSet (L : grid0.Coords) (r b : ℕ) : Finset S200x16384x128.Idx :=
  if h : r < 200 ∧ b < 4 then (oWinM ![r, cbase L b, 0] (oin L r b h.1 h.2)).view.set else ∅

theorem winSet_eq (L : grid0.Coords) (r b : ℕ) (hr : r < 200) (hb : b < 4) :
    winSet L r b = (oWinM ![r, cbase L b, 0] (oin L r b hr hb)).view.set := by
  unfold winSet; rw [dif_pos ⟨hr, hb⟩]

/-- The window's elements are its rectangle's. -/
theorem winSet_rect (L : grid0.Coords) (r b : ℕ) (hr : r < 200) (hb : b < 4) :
    winSet L r b = (winRect L r b hr hb).set := by
  rw [winSet_eq L r b hr hb]
  show (((View.whole (main_v2_scv : Ref sig .scVector)).slice (winRect L r b hr hb)).reshape S128x128
    Gen.squeezes_S1x128x128_S128x128.numel_eq).set = _
  rw [View.set_reshape, View.set_slice]; exact Finset.map_refl

/-- The index type of the windows: SparseCore, subcore, plane, chunk. -/
abbrev WIx : Type := Fin 2 × Fin 16 × Fin 200 × Fin 4

/-- The window of an index. -/
def winOf (t : WIx) : Finset S200x16384x128.Idx := winSet (coordsV t.1 t.2.1) t.2.2.1.val t.2.2.2.val

theorem winOf_rect (t : WIx) :
    winOf t = (winRect (coordsV t.1 t.2.1) t.2.2.1.val t.2.2.2.val t.2.2.1.isLt t.2.2.2.isLt).set :=
  winSet_rect _ _ _ _ _

/-- Different windows are disjoint: they differ in the plane or in the row range. -/
theorem win_disjoint : ∀ t ∈ (Finset.univ : Finset WIx), ∀ t' ∈ (Finset.univ : Finset WIx), t ≠ t' → Disjoint (winOf t) (winOf t') := by
  rintro ⟨c, s, r, b⟩ - ⟨c', s', r', b'⟩ - hne
  rw [winOf_rect, winOf_rect]
  have hc : c.val < 2 := c.isLt
  have hc' : c'.val < 2 := c'.isLt
  have hs : s.val < 16 := s.isLt
  have hs' : s'.val < 16 := s'.isLt
  have hb : b.val < 4 := b.isLt
  have hb' : b'.val < 4 := b'.isLt
  by_cases hrr : r.val = r'.val
  · -- the same plane: the row ranges are separated
    have hcsb : ¬(c.val = c'.val ∧ s.val = s'.val ∧ b.val = b'.val) := fun ⟨e1, e2, e3⟩ =>
      hne (by rw [Fin.ext e1, Fin.ext e2, Fin.ext hrr, Fin.ext e3])
    refine Rect.unit_disjoint (1 : Fin 3) ?_
    show 1024 * s.val + 512 * c.val + 128 * b.val + 128 ≤ 1024 * s'.val + 512 * c'.val + 128 * b'.val
      ∨ 1024 * s'.val + 512 * c'.val + 128 * b'.val + 128 ≤ 1024 * s.val + 512 * c.val + 128 * b.val
    omega
  · refine Rect.unit_disjoint (0 : Fin 3) ?_
    show r.val + 1 ≤ r'.val ∨ r'.val + 1 ≤ r.val
    omega

/-- Every element of the staging array lies in a window. -/
theorem win_cover : (Finset.univ : Finset WIx).biUnion winOf = Finset.univ := by
  ext i
  simp only [Finset.mem_biUnion, Finset.mem_univ, true_and, iff_true]
  have h0 : (i 0).val < 200 := (i 0).isLt
  have h1 : (i 1).val < 16384 := (i 1).isLt
  have h2 : (i 2).val < 128 := (i 2).isLt
  refine ⟨(⟨(i 1).val % 1024 / 512, by omega⟩, ⟨(i 1).val / 1024, by omega⟩, ⟨(i 0).val, h0⟩, ⟨(i 1).val % 512 / 128, by omega⟩), ?_⟩
  rw [winOf_rect]
  refine Rect.mem_set_unit.mpr fun a => ?_
  match a with
  | ⟨0, _⟩ => exact ⟨Nat.le_refl _, Nat.lt_succ_self _⟩
  | ⟨1, _⟩ =>
    show 1024 * ((i 1).val / 1024) + 512 * ((i 1).val % 1024 / 512) + 128 * ((i 1).val % 512 / 128) ≤ (i 1).val
      ∧ (i 1).val < 1024 * ((i 1).val / 1024) + 512 * ((i 1).val % 1024 / 512) + 128 * ((i 1).val % 512 / 128) + 128
    omega
  | ⟨2, _⟩ => exact ⟨Nat.zero_le _, by show (i 2).val < 0 + 128; omega⟩

/-- The whole staging array is its windows, over the one index type. -/
theorem out_split_flat (d : Dev nD) (f : Buf (Elt F) (oLoc d)) :
    (oLoc d ↦{fullShare} f : sProp 𝕄) = bigSep Finset.univ fun t : WIx => oLoc d ↦[winOf t]{fullShare} f := by
  rw [← pointsTo_biUnion Finset.univ (ℓ := oLoc d) winOf win_disjoint, win_cover]; try rfl

/-- The whole staging array is its 2·16·200·4 windows. -/
theorem out_split (d : Dev nD) (f : Buf (Elt F) (oLoc d)) :
    (oLoc d ↦{fullShare} f : sProp 𝕄)
      = bigSep Finset.univ fun c : Fin 2 => bigSep Finset.univ fun s : Fin 16 => bigSep Finset.univ fun r : Fin 200 =>
          bigSep Finset.univ fun b : Fin 4 => oLoc d ↦[winSet (coordsV c s) r.val b.val]{fullShare} f := by
  rw [out_split_flat, bigSep_univ_prod]
  refine bigSep_congr fun c _ => ?_
  rw [bigSep_univ_prod]
  refine bigSep_congr fun s _ => ?_
  rw [bigSep_univ_prod]
  rfl

/-- The windows, all at one contents, join to the whole staging array. -/
theorem out_join (d : Dev nD) (g : Buf (Elt F) (oLoc d)) :
    (bigSep Finset.univ fun c : Fin 2 => bigSep Finset.univ fun s : Fin 16 => bigSep Finset.univ fun r : Fin 200 =>
        bigSep Finset.univ fun b : Fin 4 => oLoc d ↦[winSet (coordsV c s) r.val b.val]{fullShare} g)
      ⊢ (oLoc d ↦{fullShare} g : sProp 𝕄) :=
  Entails.of_eq (out_split d g).symm

/-! ## The windows as resources, row by row -/

/-- Window (L, r, b) of the staging array at contents `f`. -/
def Win (d : Dev nD) (L : grid0.Coords) (f : Buf (Elt F) (oLoc d)) (r b : ℕ) : sProp 𝕄 := oLoc d ↦[winSet L r b]{fullShare} f

/-- The first three windows of each row in `s`. -/
def Rows (d : Dev nD) (L : grid0.Coords) (f : Buf (Elt F) (oLoc d)) (s : Finset ℕ) : sProp 𝕄 :=
  bigSep s fun r => iprop(Win d L f r 0 ∗ Win d L f r 1 ∗ Win d L f r 2)

/-- The fourth window of each row in `s`. -/
def Rows3 (d : Dev nD) (L : grid0.Coords) (f : Buf (Elt F) (oLoc d)) (s : Finset ℕ) : sProp 𝕄 :=
  bigSep s fun r => Win d L f r 3

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [SparseCore.bigSep_insert' (by decide), SparseCore.bigSep_insert' (by decide), SparseCore.bigSep_insert' (by decide),
    bigSep_singleton]

/-- Four conjuncts regrouped as three and one. -/
theorem sep_regroup4 (A B C D : sProp 𝕄) : iprop(A ∗ B ∗ C ∗ D) = iprop((A ∗ B ∗ C) ∗ D) :=
  show BI.sep A (BI.sep B (BI.sep C D)) = BI.sep (BI.sep A (BI.sep B C)) D from
    ((Std.Associative.assoc (op := (BI.sep : sProp 𝕄 → sProp 𝕄 → sProp 𝕄)) A (BI.sep B C) D).trans
      (congrArg (BI.sep A) (Std.Associative.assoc (op := (BI.sep : sProp 𝕄 → sProp 𝕄 → sProp 𝕄)) B C D))).symm

/-- A separating conjunction over `Fin n` of a function of the value is the one over `Finset.range n`. -/
theorem bigSep_fin_range (n : ℕ) (Φ : ℕ → sProp 𝕄) :
    (bigSep Finset.univ fun r : Fin n => Φ r.val) = bigSep (Finset.range n) Φ := by
  rw [← Nat.Iio_eq_range, ← Fin.map_valEmbedding_univ, BI.bigSep_map]
  rfl

/-- The whole staging array, tile by tile: each tile's rows as three windows and one. -/
theorem out_split_rows (d : Dev nD) (f : Buf (Elt F) (oLoc d)) :
    (oLoc d ↦{fullShare} f : sProp 𝕄)
      = bigSep Finset.univ fun c : Fin 2 => bigSep Finset.univ fun s : Fin 16 =>
          iprop(Rows d (coordsV c s) f (Finset.range 200) ∗ Rows3 d (coordsV c s) f (Finset.range 200)) := by
  rw [out_split]
  refine bigSep_congr fun c _ => bigSep_congr fun s _ => ?_
  have e1 : (bigSep Finset.univ fun r : Fin 200 => bigSep Finset.univ fun b : Fin 4 =>
        (oLoc d ↦[winSet (coordsV c s) r.val b.val]{fullShare} f : sProp 𝕄))
      = bigSep Finset.univ fun r : Fin 200 =>
          iprop((Win d (coordsV c s) f r.val 0 ∗ Win d (coordsV c s) f r.val 1 ∗ Win d (coordsV c s) f r.val 2) ∗ Win d (coordsV c s) f r.val 3) :=
    bigSep_congr fun r _ => (bigSep_fin4 (fun b : Fin 4 => (oLoc d ↦[winSet (coordsV c s) r.val b.val]{fullShare} f : sProp 𝕄))).trans (by
      exact sep_regroup4 (Win d (coordsV c s) f r.val 0) (Win d (coordsV c s) f r.val 1) (Win d (coordsV c s) f r.val 2) (Win d (coordsV c s) f r.val 3))
  have e2 := bigSep_fin_range (F := F) 200 (fun r => iprop((Win d (coordsV c s) f r 0 ∗ Win d (coordsV c s) f r 1 ∗ Win d (coordsV c s) f r 2)
    ∗ Win d (coordsV c s) f r 3))
  have e3 := bigSep_sep (Finset.range 200) (fun r => iprop(Win d (coordsV c s) f r 0 ∗ Win d (coordsV c s) f r 1 ∗ Win d (coordsV c s) f r 2))
    (fun r => Win d (coordsV c s) f r 3)
  exact e1.trans (e2.trans e3)

theorem Rows_empty (d : Dev nD) (L : grid0.Coords) (f : Buf (Elt F) (oLoc d)) : Rows d L f ∅ = (iprop(emp) : sProp 𝕄) := rfl
theorem Rows3_empty (d : Dev nD) (L : grid0.Coords) (f : Buf (Elt F) (oLoc d)) : Rows3 d L f ∅ = (iprop(emp) : sProp 𝕄) := rfl

theorem Rows_insert (d : Dev nD) (L : grid0.Coords) (f : Buf (Elt F) (oLoc d)) {s : Finset ℕ} {r : ℕ} (h : r ∉ s) :
    Rows d L f (insert r s) = iprop((Win d L f r 0 ∗ Win d L f r 1 ∗ Win d L f r 2) ∗ Rows d L f s) := by
  unfold Rows; rw [bigSep_insert h]; rfl

theorem Rows3_insert (d : Dev nD) (L : grid0.Coords) (f : Buf (Elt F) (oLoc d)) {s : Finset ℕ} {r : ℕ} (h : r ∉ s) :
    Rows3 d L f (insert r s) = iprop(Win d L f r 3 ∗ Rows3 d L f s) := by
  unfold Rows3; rw [bigSep_insert h]; rfl

/-- A window only depends on the contents at its own elements. -/
theorem Win_congr (d : Dev nD) (L : grid0.Coords) (f g : Buf (Elt F) (oLoc d)) (r b : ℕ) (h : ∀ y ∈ winSet L r b, f y = g y) :
    Win d L f r b = Win d L g r b := by
  unfold Win; exact pointsTo_congr h

/-- The window as a tile's copy addresses it. -/
theorem Win_eq (d : Dev nD) (L : grid0.Coords) (f : Buf (Elt F) (oLoc d)) (r b : ℕ) (hr : r < 200) (hb : b < 4)
    (c : Fin τ.nSC) (j : Fin τ.nSub) :
    ((oWinM ![r, cbase L b, 0] (oin L r b hr hb)).view.loc (V d c j) ↦[(oWinM ![r, cbase L b, 0] (oin L r b hr hb)).view.set]{fullShare} f : sProp 𝕄)
      = Win d L f r b := by
  unfold Win; rw [winSet_eq L r b hr hb]

/-- The same at any spelling of the offset. -/
theorem Win_eq_off (d : Dev nD) (L : grid0.Coords) (f : Buf (Elt F) (oLoc d)) (r b : ℕ) (hr : r < 200) (hb : b < 4)
    (c : Fin τ.nSC) (j : Fin τ.nSub) (off : Fin 3 → ℕ) (h : ∀ a, off a + S1x128x128.size a ≤ S200x16384x128.size a)
    (e : off = ![r, cbase L b, 0]) :
    ((oWinM off h).view.loc (V d c j) ↦[(oWinM off h).view.set]{fullShare} f : sProp 𝕄) = Win d L f r b := by
  subst e; exact Win_eq d L f r b hr hb c j

end Cert.Proof.KI

end
-- ==== Proof.LandKI.lean ====
/-
  What a copy leaves in a buffer. A tile's copy of chunk b of row r of the transposed index array moves the 128
  words xT[r, cbase + y], y < 128, into one of its four list buffers, which it fills: afterwards the buffer holds
  exactly those words. The source is addressed as a [1, 128] slice of the array at offset (r, cbase), squeezed to [128]:
  entry y of the squeezed slice is entry (0, y) of the slice, which is entry (r, cbase + y) of the array. Every word of
  the array names a table row (it is below 1000000), so every word the list buffer holds afterwards does.
-/
import proofs.«206412_g41506563948974_cont_8to1_b_738_25_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

/-! ## The copies' source and target windows only depend on their offsets -/

theorem xRowM_congr {off off' : Fin 2 → ℕ} (h : ∀ a, off a + S1x128.size a ≤ S200x16384.size a)
    (h' : ∀ a, off' a + S1x128.size a ≤ S200x16384.size a) (e : off = off') : xRowM off h = xRowM off' h' := by
  subst e; rfl

theorem oWinM_congr {off off' : Fin 3 → ℕ} (h : ∀ a, off a + S1x128x128.size a ≤ S200x16384x128.size a)
    (h' : ∀ a, off' a + S1x128x128.size a ≤ S200x16384x128.size a) (e : off = off') : oWinM off h = oWinM off' h' := by
  subst e; rfl

/-! ## A row chunk read through its squeezed slice -/

/-- Entry `y` of the squeezed [1, 128] slice at offset `off` is entry `(off 0, off 1 + y)` of the array. -/
theorem xRow_read (fX : S200x16384.Idx → BitVec 32) (off : Fin 2 → ℕ) (h : ∀ a, off a + S1x128.size a ≤ S200x16384.size a)
    (y : S128.Idx) (k : S200x16384.Idx) (hk0 : (k 0).val = off 0) (hk1 : (k 1).val = off 1 + (y 0).val) :
    View.read (Elt F) (xRowM off h).view fX y = fX k := by
  refine (View.read_apply _ _).trans ((cast_eq _ _).trans (congrArg fX ?_))
  show (Rect.unit (s := S200x16384) off S1x128.size h).emb (Shape.reshapeEquiv Gen.squeezes_S1x128_S128.numel_eq y) = k
  rw [Shape.reshapeEquiv_cons_one]
  funext a
  refine Fin.ext ?_
  match a with
  | ⟨0, _⟩ => show off 0 + 1 * 0 = (k 0).val; omega
  | ⟨1, _⟩ => show off 1 + 1 * (y 0).val = (k 1).val; omega

/-- The chunk of row `r` at column `cbase L b`, read through its squeezed slice, is `idxC`. -/
theorem xRow_read_idxC (fX : S200x16384.Idx → BitVec 32) (L : grid0.Coords) (off : Fin 2 → ℕ)
    (h : ∀ a, off a + S1x128.size a ≤ S200x16384.size a) (r b : ℕ) (hr : r < 200) (hb : b < 4) (hoff : off = ![r, cbase L b]) :
    View.read (Elt F) (xRowM off h).view fX = idxC fX L r b := by
  subst hoff
  funext y
  have hy : (y 0).val < 128 := (y 0).isLt
  have hc := cbase_le L b hb
  unfold idxC
  refine xRow_read fX _ h y _ ?_ ?_
  · show r % 200 = r
    exact Nat.mod_eq_of_lt hr
  · show (cbase L b + (y 0).val) % 16384 = cbase L b + (y 0).val
    exact Nat.mod_eq_of_lt (by omega)

/-! ### List buffer 0 -/

/-- After the copy, every word of list buffer 0 names a table row. -/
theorem hin_0 (fX : S200x16384.Idx → BitVec 32) (hX : ∀ j, (fX j).toNat < 1000000) :
    ∀ (f : S128.Idx → BitVec 32) (off : Fin 2 → ℕ) (h : ∀ a, off a + S1x128.size a ≤ S200x16384.size a) x,
      ((i0V).view.read (Elt F) (View.write (Elt F) (i0V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 0, names a table row. -/
theorem hinC_0 (fX : S200x16384.Idx → BitVec 32) (hX : ∀ j, (fX j).toNat < 1000000) (L : grid0.Coords) :
    ∀ (r b : ℕ) x, ((i0V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 0. -/
theorem land_idx_0 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i0V).view f (ReadAs.same.apply (View.read (Elt F) (xRowM off h).view fX)) Finset.univ = idxC fX L r b := by
  rw [View.write_whole_univ]
  exact xRow_read_idxC fX L off h r b hr hb hoff

/-! ### List buffer 1 -/

/-- After the copy, every word of list buffer 1 names a table row. -/
theorem hin_1 (fX : S200x16384.Idx → BitVec 32) (hX : ∀ j, (fX j).toNat < 1000000) :
    ∀ (f : S128.Idx → BitVec 32) (off : Fin 2 → ℕ) (h : ∀ a, off a + S1x128.size a ≤ S200x16384.size a) x,
      ((i1V).view.read (Elt F) (View.write (Elt F) (i1V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 1, names a table row. -/
theorem hinC_1 (fX : S200x16384.Idx → BitVec 32) (hX : ∀ j, (fX j).toNat < 1000000) (L : grid0.Coords) :
    ∀ (r b : ℕ) x, ((i1V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 1. -/
theorem land_idx_1 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i1V).view f (ReadAs.same.apply (View.read (Elt F) (xRowM off h).view fX)) Finset.univ = idxC fX L r b := by
  rw [View.write_whole_univ]
  exact xRow_read_idxC fX L off h r b hr hb hoff

/-! ### List buffer 2 -/

/-- After the copy, every word of list buffer 2 names a table row. -/
theorem hin_2 (fX : S200x16384.Idx → BitVec 32) (hX : ∀ j, (fX j).toNat < 1000000) :
    ∀ (f : S128.Idx → BitVec 32) (off : Fin 2 → ℕ) (h : ∀ a, off a + S1x128.size a ≤ S200x16384.size a) x,
      ((i2V).view.read (Elt F) (View.write (Elt F) (i2V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 2, names a table row. -/
theorem hinC_2 (fX : S200x16384.Idx → BitVec 32) (hX : ∀ j, (fX j).toNat < 1000000) (L : grid0.Coords) :
    ∀ (r b : ℕ) x, ((i2V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 2. -/
theorem land_idx_2 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i2V).view f (ReadAs.same.apply (View.read (Elt F) (xRowM off h).view fX)) Finset.univ = idxC fX L r b := by
  rw [View.write_whole_univ]
  exact xRow_read_idxC fX L off h r b hr hb hoff

/-! ### List buffer 3 -/

/-- After the copy, every word of list buffer 3 names a table row. -/
theorem hin_3 (fX : S200x16384.Idx → BitVec 32) (hX : ∀ j, (fX j).toNat < 1000000) :
    ∀ (f : S128.Idx → BitVec 32) (off : Fin 2 → ℕ) (h : ∀ a, off a + S1x128.size a ≤ S200x16384.size a) x,
      ((i3V).view.read (Elt F) (View.write (Elt F) (i3V).view f (ReadAs.same.apply (View.read (Elt F) (xRowM off h).view fX)) Finset.univ) x).toNat
        < S1000000x128.size gathers_S1000000x128_S128x128.axis := by
  intro f off h x
  rw [View.write_whole_univ]
  have e : View.read (Elt F) (xRowM off h).view fX x = fX ((xRowM off h).view.emb x) :=
    (View.read_apply _ _).trans (cast_eq _ _)
  show (View.read (Elt F) (xRowM off h).view fX x).toNat < _
  rw [e]
  exact hX _

/-- Every word of `idxC`, held in list buffer 3, names a table row. -/
theorem hinC_3 (fX : S200x16384.Idx → BitVec 32) (hX : ∀ j, (fX j).toNat < 1000000) (L : grid0.Coords) :
    ∀ (r b : ℕ) x, ((i3V).view.read (Elt F) (idxC fX L r b) x).toNat < S1000000x128.size gathers_S1000000x128_S128x128.axis := by
  intro r b x
  simp only [Memref.view_whole, View.read_whole]
  exact hX _

/-- The copy of chunk `b` of row `r` leaves exactly those 128 words in list buffer 3. -/
theorem land_idx_3 (fX : S200x16384.Idx → BitVec 32) (L : grid0.Coords) (f : S128.Idx → BitVec 32) (off : Fin 2 → ℕ)
    (h : ∀ a, off a + S1x128.size a ≤ S200x16384.size a) (r b : ℕ) (hr : r < 200) (hb : b < 4) (hoff : off = ![r, cbase L b]) :
    View.write (Elt F) (i3V).view f (ReadAs.same.apply (View.read (Elt F) (xRowM off h).view fX)) Finset.univ = idxC fX L r b := by
  rw [View.write_whole_univ]
  exact xRow_read_idxC fX L off h r b hr hb hoff

/-! ## The gather: what the stream leaves in a row buffer -/

/-- The whole padded table read through the tile's view of it is the table. -/
theorem tAll_read (fT : S1000000x128.Idx → F .f32) (z : S1000000x128.Idx) :
    View.read (Elt F) (tAllM).view fT z = fT z := by
  refine (View.read_apply _ _).trans ((cast_eq _ _).trans (congrArg fT ?_))
  funext a
  refine Fin.ext ?_
  match a with
  | ⟨0, _⟩ => show 0 + 1 * (z 0).val = (z 0).val; omega
  | ⟨1, _⟩ => show 0 + 1 * (z 1).val = (z 1).val; omega

/-- Entry `k` of a rank-one list in row-major order is entry `k`. -/
theorem rowMajor_symm_S128 (k : Fin S128.numel) (k' : Fin 128) (e : k.val = k'.val) :
    S128.rowMajor.symm k = ValueIdx.ix1 k' := by
  rw [Equiv.symm_apply_eq]
  refine Fin.ext ?_
  rw [Shape.rowMajor_val_one]
  exact e

/-- Under the list's range, the row the lookup clamps to is the word's own value. -/
theorem rowOf_val_of_lt' {w : BitVec 32} (h : w.toNat < 1000000) : (Cert.Lookup.rowOf w).val = w.toNat :=
  Cert.Lookup.rowOf_val_of_lt h

/-- The gather over list buffer 0 leaves in row buffer 0 the table rows the list names. -/
theorem land_gather_0 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i0V).view I x).toNat < S1000000x128.size gathers_S1000000x128_S128x128.axis)
    (r b : ℕ) (hIe : I = idxC fX L r b) :
    (p0V).view.writes (Elt F) g [⟨Rect.whole S128x128, SparseCore.gatherPayload gathers_S1000000x128_S128x128 (View.read (Elt F) (tAllM).view fT)
        (SparseCore.rows (View.read (Elt F) (i0V).view I) hn hI)⟩] = pairC fX fT L r b := by
  subst hIe
  refine (View.write_univ_eq_writes_whole (Val := Elt F) (p0V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 1 leaves in row buffer 1 the table rows the list names. -/
theorem land_gather_1 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i1V).view I x).toNat < S1000000x128.size gathers_S1000000x128_S128x128.axis)
    (r b : ℕ) (hIe : I = idxC fX L r b) :
    (p1V).view.writes (Elt F) g [⟨Rect.whole S128x128, SparseCore.gatherPayload gathers_S1000000x128_S128x128 (View.read (Elt F) (tAllM).view fT)
        (SparseCore.rows (View.read (Elt F) (i1V).view I) hn hI)⟩] = pairC fX fT L r b := by
  subst hIe
  refine (View.write_univ_eq_writes_whole (Val := Elt F) (p1V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 2 leaves in row buffer 2 the table rows the list names. -/
theorem land_gather_2 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i2V).view I x).toNat < S1000000x128.size gathers_S1000000x128_S128x128.axis)
    (r b : ℕ) (hIe : I = idxC fX L r b) :
    (p2V).view.writes (Elt F) g [⟨Rect.whole S128x128, SparseCore.gatherPayload gathers_S1000000x128_S128x128 (View.read (Elt F) (tAllM).view fT)
        (SparseCore.rows (View.read (Elt F) (i2V).view I) hn hI)⟩] = pairC fX fT L r b := by
  subst hIe
  refine (View.write_univ_eq_writes_whole (Val := Elt F) (p2V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

/-- The gather over list buffer 3 leaves in row buffer 3 the table rows the list names. -/
theorem land_gather_3 (fX : S200x16384.Idx → BitVec 32) (fT : S1000000x128.Idx → F .f32) (L : grid0.Coords)
    (g : S128x128.Idx → F .f32) (I : S128.Idx → BitVec 32)
    (hn : S128.numel = S128x128.size gathers_S1000000x128_S128x128.axis')
    (hI : ∀ x, (View.read (Elt F) (i3V).view I x).toNat < S1000000x128.size gathers_S1000000x128_S128x128.axis)
    (r b : ℕ) (hIe : I = idxC fX L r b) :
    (p3V).view.writes (Elt F) g [⟨Rect.whole S128x128, SparseCore.gatherPayload gathers_S1000000x128_S128x128 (View.read (Elt F) (tAllM).view fT)
        (SparseCore.rows (View.read (Elt F) (i3V).view I) hn hI)⟩] = pairC fX fT L r b := by
  subst hIe
  refine (View.write_univ_eq_writes_whole (Val := Elt F) (p3V).view g [] _).symm.trans ?_
  rw [View.writes_nil, View.write_whole_univ]
  funext y
  unfold pairC SparseCore.gatherPayload
  rw [tAll_read]
  refine congrArg fT ?_
  have hy0 : (y 0).val < 128 := (y 0).isLt
  have hw : (idxC fX L r b (ValueIdx.ix1 (⟨(y 0).val, hy0⟩ : Fin 128))).toNat < 1000000 := hI (ValueIdx.ix1 (⟨(y 0).val, hy0⟩ : Fin 128))
  funext a
  refine Fin.ext ?_
  match a with
  | ⟨0, _⟩ =>
    show (idxC fX L r b (S128.rowMajor.symm ((y gathers_S1000000x128_S128x128.axis').cast hn.symm))).toNat = (Cert.Lookup.rowOf (idxC fX L r b (ValueIdx.ix1 (y 0 : Fin 128)))).val
    have e1 : S128.rowMajor.symm ((y gathers_S1000000x128_S128x128.axis').cast hn.symm) = ValueIdx.ix1 (⟨(y 0).val, hy0⟩ : Fin 128) :=
      rowMajor_symm_S128 ((y gathers_S1000000x128_S128x128.axis').cast hn.symm) (⟨(y 0).val, hy0⟩ : Fin 128) rfl
    refine (congrArg (fun z => (idxC fX L r b z).toNat) e1).trans ?_
    exact (Cert.Lookup.rowOf_val_of_lt hw).symm
  | ⟨1, _⟩ => exact Shape.Gathers.idx_of_ne gathers_S1000000x128_S128x128 _ y ⟨1, by decide⟩ (by decide)

end Cert.Proof.KI

end
-- ==== Proof.WinLandKI.lean ====
/-
  What a tile's copy-out leaves in its window of the staging array. The window (L, r, b) is the [1, 128, 128] slice of
  the array at offset (r, cbase L b, 0), squeezed to [128, 128]: its entry (y0, y1) is the array's entry
  (r, cbase L b + y0, y1). The copy fills the window with the row buffer's contents, which are the 128 table rows
  named by chunk b of row r of the transposed index array: entry (y0, y1) is tb[xT[r, cbase L b + y0], y1]. That is
  the staging array's intended entry at (r, cbase L b + y0, y1); so after the copy the window holds its part of the
  intended array.
-/
import proofs.«206412_g41506563948974_cont_8to1_b_738_25_alg».proof.Proof.OutSplitKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

/-- Entry `(y0, y1)` of the squeezed [1, 128, 128] slice at offset `off` is the array's entry
    `(off 0, off 1 + y0, off 2 + y1)`. -/
theorem oWin_emb (off : Fin 3 → ℕ) (h : ∀ a, off a + S1x128x128.size a ≤ S200x16384x128.size a) (y : S128x128.Idx)
    (k : S200x16384x128.Idx) (hk0 : (k 0).val = off 0) (hk1 : (k 1).val = off 1 + (y 0).val) (hk2 : (k 2).val = off 2 + (y 1).val) :
    (oWinM off h).view.emb y = k := by
  show (Rect.unit (s := S200x16384x128) off S1x128x128.size h).emb (Shape.reshapeEquiv Gen.squeezes_S1x128x128_S128x128.numel_eq y) = k
  rw [Shape.reshapeEquiv_cons_one]
  funext a
  refine Fin.ext ?_
  match a with
  | ⟨0, _⟩ => show off 0 + 1 * 0 = (k 0).val; omega
  | ⟨1, _⟩ => show off 1 + 1 * (y 0).val = (k 1).val; omega
  | ⟨2, _⟩ => show off 2 + 1 * (y 1).val = (k 2).val; omega

/-- The 128 words of chunk `b` of row `r`, without the reductions modulo the extents. -/
theorem idxC_apply (fX : S200x16384.Idx → BitVec 32) (L : grid0.Coords) (r b : ℕ) (hr : r < 200) (hb : b < 4) (y0 : Fin 128)
    (hlt : cbase L b + y0.val < 16384) :
    idxC fX L r b (ValueIdx.ix1 y0) = fX (ValueIdx.ix2 (⟨r, hr⟩ : Fin 200) (⟨cbase L b + y0.val, hlt⟩ : Fin 16384)) := by
  unfold idxC
  refine congrArg fX ?_
  funext a
  refine Fin.ext ?_
  match a with
  | ⟨0, _⟩ => exact Nat.mod_eq_of_lt hr
  | ⟨1, _⟩ => exact Nat.mod_eq_of_lt hlt

/-! ### Row buffer 0 -/

/-- After the copy-out from row buffer 0, the window's entry `y` is the intended array's. -/
theorem land_store_emb_0 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p0V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p0V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_0 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p0V).view P)⟩]) y
        = Cert.Lookup.GK (F := F) fX fT y := by
  intro y hy
  obtain ⟨y', -, rfl⟩ := Finset.mem_map.mp hy
  exact land_store_emb_0 fX fT L fO off h P r b hr hb hoff hP y'

/-- After the copy-out from row buffer 0, the window as the tile's copy addresses it is the window of the intended array. -/
theorem Win_land_0 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p0V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_0 fX fT L fO _ h P r b hr hb rfl hP y hy

/-! ### Row buffer 1 -/

/-- After the copy-out from row buffer 1, the window's entry `y` is the intended array's. -/
theorem land_store_emb_1 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p1V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p1V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_1 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p1V).view P)⟩]) y
        = Cert.Lookup.GK (F := F) fX fT y := by
  intro y hy
  obtain ⟨y', -, rfl⟩ := Finset.mem_map.mp hy
  exact land_store_emb_1 fX fT L fO off h P r b hr hb hoff hP y'

/-- After the copy-out from row buffer 1, the window as the tile's copy addresses it is the window of the intended array. -/
theorem Win_land_1 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p1V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_1 fX fT L fO _ h P r b hr hb rfl hP y hy

/-! ### Row buffer 2 -/

/-- After the copy-out from row buffer 2, the window's entry `y` is the intended array's. -/
theorem land_store_emb_2 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p2V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p2V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_2 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p2V).view P)⟩]) y
        = Cert.Lookup.GK (F := F) fX fT y := by
  intro y hy
  obtain ⟨y', -, rfl⟩ := Finset.mem_map.mp hy
  exact land_store_emb_2 fX fT L fO off h P r b hr hb hoff hP y'

/-- After the copy-out from row buffer 2, the window as the tile's copy addresses it is the window of the intended array. -/
theorem Win_land_2 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p2V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_2 fX fT L fO _ h P r b hr hb rfl hP y hy

/-! ### Row buffer 3 -/

/-- After the copy-out from row buffer 3, the window's entry `y` is the intended array's. -/
theorem land_store_emb_3 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b)
    (y : S128x128.Idx) :
    ((oWinM off h).view.writes (Elt F) fO [⟨Rect.whole S128x128, ReadAs.same.apply (View.read (Elt F) (p3V).view P)⟩]) ((oWinM off h).view.emb y)
      = Cert.Lookup.GK (F := F) fX fT ((oWinM off h).view.emb y) := by
  subst hoff hP
  have hy0 : (y 0).val < 128 := (y 0).isLt
  have hy1 : (y 1).val < 128 := (y 1).isLt
  have hc := cbase_le L b hb
  have hlt : cbase L b + (y 0).val < 16384 := by omega
  have ek : (oWinM ![r, cbase L b, 0] h).view.emb y
      = ValueIdx.ix3 (⟨r, hr⟩ : Fin 200) (⟨cbase L b + (y 0).val, hlt⟩ : Fin 16384) (⟨(y 1).val, hy1⟩ : Fin 128) :=
    oWin_emb _ h y _ rfl rfl (by show (y 1).val = 0 + (y 1).val; omega)
  have e1 := congrFun (View.read_writes_whole (Val := Elt F) (oWinM ![r, cbase L b, 0] h).view fO
    (ReadAs.same.apply (View.read (Elt F) (p3V).view (pairC fX fT L r b)))) y
  refine ((cast_eq _ _).symm.trans ((View.read_apply _ _).symm.trans e1)).trans ?_
  rw [ek]
  show pairC fX fT L r b y
    = fT (ValueIdx.ix2 (Cert.Lookup.rowOf (fX (ValueIdx.ix2 (⟨r, hr⟩ : Fin 200) (⟨cbase L b + (y 0).val, hlt⟩ : Fin 16384)))) (⟨(y 1).val, hy1⟩ : Fin 128))
  unfold pairC
  rw [idxC_apply fX L r b hr hb (y 0 : Fin 128) hlt]
  rfl

/-- The same at every element of the window. -/
theorem land_store_3 (fX : S200x16384.Idx → BitVec 32) (fT : S1000000x128.Idx → F .f32) (L : grid0.Coords)
    (fO : S200x16384x128.Idx → F .f32) (off : Fin 3 → ℕ) (h : ∀ a, off a + S1x128x128.size a ≤ S200x16384x128.size a)
    (P : S128x128.Idx → F .f32) (r b : ℕ) (hr : r < 200) (hb : b < 4) (hoff : off = ![r, cbase L b, 0]) (hP : P = pairC fX fT L r b) :
    ∀ y ∈ (oWinM off h).view.set,
      ((oWinM off h).view.writes (Elt F) fO [⟨Rect.whole S128x128, ReadAs.same.apply (View.read (Elt F) (p3V).view P)⟩]) y
        = Cert.Lookup.GK (F := F) fX fT y := by
  intro y hy
  obtain ⟨y', -, rfl⟩ := Finset.mem_map.mp hy
  exact land_store_emb_3 fX fT L fO off h P r b hr hb hoff hP y'

/-- After the copy-out from row buffer 3, the window as the tile's copy addresses it is the window of the intended array. -/
theorem Win_land_3 (d : Dev nD) (L : grid0.Coords) (fX : Buf (Elt F) (xLoc d)) (fT : Buf (Elt F) (tLoc d)) (fO : Buf (Elt F) (oLoc d))
    (off : Fin 3 → ℕ) (h : ∀ a, off a + S1x128x128.size a ≤ S200x16384x128.size a) (P : S128x128.Idx → F .f32)
    (r b : ℕ) (hr : r < 200) (hb : b < 4) (hoff : off = ![r, cbase L b, 0]) (hP : P = pairC fX fT L r b)
    (c : Fin τ.nSC) (j : Fin τ.nSub) :
    ((oWinM off h).view.loc (V d c j) ↦[(oWinM off h).view.set]{fullShare}
        ((oWinM off h).view.writes (Elt F) fO [⟨Rect.whole S128x128, ReadAs.same.apply (View.read (Elt F) (p3V).view P)⟩]) : sProp 𝕄)
      = Win d L (Cert.Lookup.GK (F := F) fX fT) r b := by
  refine (Win_eq_off d L _ r b hr hb c j off h hoff).trans (Win_congr d L _ _ r b fun y hy => ?_)
  subst hoff
  rw [winSet_eq L r b hr hb] at hy
  exact land_store_3 fX fT L fO _ h P r b hr hb rfl hP y hy

end Cert.Proof.KI

end
-- ==== Proof.InvKI.lean ====
/-
  What one tile holds between two trips of its loop over the 200 rows of `xT`.
  The tile runs a ring of four slots. Before trip `n` (row `n`): the gathers of row `n`'s chunks 0, 1, 2 are in
  flight into the row buffers 0, 1, 2, the copy of chunk 3's row numbers is in flight into list buffer 3, the
  copy-out of chunk 3 of row `n - 1` is in flight from row buffer 3 (none before trip 0); rows below `n` of the
  tile's columns of `out` hold the looked-up rows (chunk 3 of row `n - 1` excepted), rows from `n` on hold what
  they held at the start. After the last trip only the copy-out of chunk 3 of row 199 is in flight.
  Every buffer's contents is named as a function of `xT` and the padded table (`idxC`, `pairC`, `GK`).
-/
import proofs.«206412_g41506563948974_cont_8to1_b_738_25_alg».proof.Proof.CommonKI
import proofs.«206412_g41506563948974_cont_8to1_b_738_25_alg».proof.Proof.OutSplitKI
import proofs.«206412_g41506563948974_cont_8to1_b_738_25_alg».proof.Proof.LandKI
import proofs.«206412_g41506563948974_cont_8to1_b_738_25_alg».proof.Proof.WinLandKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem pts_x (q : PosShare TreeShare) (f : Buf (Elt F) (xLoc d)) : ((xV).view.loc (thr d L) ↦{q} f : sProp 𝕄) = xLoc d ↦{q} f := rfl
theorem pts_t (q : PosShare TreeShare) (f : Buf (Elt F) (tLoc d)) : ((tV).view.loc (thr d L) ↦{q} f : sProp 𝕄) = tLoc d ↦{q} f := rfl
theorem pts_s0 (f : Buf (Elt F) ((thr d L).loc (scr 0))) : ((i0V).view.loc (thr d L) ↦{fullShare} f : sProp 𝕄) = (thr d L).loc (scr 0) ↦{fullShare} f := rfl
theorem pts_s1 (f : Buf (Elt F) ((thr d L).loc (scr 1))) : ((i1V).view.loc (thr d L) ↦{fullShare} f : sProp 𝕄) = (thr d L).loc (scr 1) ↦{fullShare} f := rfl
theorem pts_s2 (f : Buf (Elt F) ((thr d L).loc (scr 2))) : ((i2V).view.loc (thr d L) ↦{fullShare} f : sProp 𝕄) = (thr d L).loc (scr 2) ↦{fullShare} f := rfl
theorem pts_s3 (f : Buf (Elt F) ((thr d L).loc (scr 3))) : ((i3V).view.loc (thr d L) ↦{fullShare} f : sProp 𝕄) = (thr d L).loc (scr 3) ↦{fullShare} f := rfl
theorem pts_s4 (f : Buf (Elt F) ((thr d L).loc (scr 4))) : ((p0V).view.loc (thr d L) ↦{fullShare} f : sProp 𝕄) = (thr d L).loc (scr 4) ↦{fullShare} f := rfl
theorem pts_s5 (f : Buf (Elt F) ((thr d L).loc (scr 5))) : ((p1V).view.loc (thr d L) ↦{fullShare} f : sProp 𝕄) = (thr d L).loc (scr 5) ↦{fullShare} f := rfl
theorem pts_s6 (f : Buf (Elt F) ((thr d L).loc (scr 6))) : ((p2V).view.loc (thr d L) ↦{fullShare} f : sProp 𝕄) = (thr d L).loc (scr 6) ↦{fullShare} f := rfl
theorem pts_s7 (f : Buf (Elt F) ((thr d L).loc (scr 7))) : ((p3V).view.loc (thr d L) ↦{fullShare} f : sProp 𝕄) = (thr d L).loc (scr 7) ↦{fullShare} f := rfl
theorem cell_0 (n : ℕ) : (semVal (thr d L, SemLoc.dma (SemArray.sem cc0_scratch8)) n : sProp 𝕄) = semVal (thr d L, SemLoc.dma (dsem 0)) n := rfl
theorem cell_1 (n : ℕ) : (semVal (thr d L, SemLoc.dma (SemArray.sem cc0_scratch9)) n : sProp 𝕄) = semVal (thr d L, SemLoc.dma (dsem 1)) n := rfl
theorem cell_2 (n : ℕ) : (semVal (thr d L, SemLoc.dma (SemArray.sem cc0_scratch10)) n : sProp 𝕄) = semVal (thr d L, SemLoc.dma (dsem 2)) n := rfl
theorem cell_3 (n : ℕ) : (semVal (thr d L, SemLoc.dma (SemArray.sem cc0_scratch11)) n : sProp 𝕄) = semVal (thr d L, SemLoc.dma (dsem 3)) n := rfl
theorem cell_4 (n : ℕ) : (semVal (thr d L, SemLoc.dma (SemArray.sem cc0_scratch12)) n : sProp 𝕄) = semVal (thr d L, SemLoc.dma (dsem 4)) n := rfl
theorem cell_5 (n : ℕ) : (semVal (thr d L, SemLoc.dma (SemArray.sem cc0_scratch13)) n : sProp 𝕄) = semVal (thr d L, SemLoc.dma (dsem 5)) n := rfl
theorem cell_6 (n : ℕ) : (semVal (thr d L, SemLoc.dma (SemArray.sem cc0_scratch14)) n : sProp 𝕄) = semVal (thr d L, SemLoc.dma (dsem 6)) n := rfl
theorem cell_7 (n : ℕ) : (semVal (thr d L, SemLoc.dma (SemArray.sem cc0_scratch15)) n : sProp 𝕄) = semVal (thr d L, SemLoc.dma (dsem 7)) n := rfl
theorem cell_8 (n : ℕ) : (semVal (thr d L, SemLoc.dma (SemArray.sem cc0_scratch16)) n : sProp 𝕄) = semVal (thr d L, SemLoc.dma (dsem 8)) n := rfl
theorem cell_9 (n : ℕ) : (semVal (thr d L, SemLoc.dma (SemArray.sem cc0_scratch17)) n : sProp 𝕄) = semVal (thr d L, SemLoc.dma (dsem 9)) n := rfl
theorem cell_10 (n : ℕ) : (semVal (thr d L, SemLoc.dma (SemArray.sem cc0_scratch18)) n : sProp 𝕄) = semVal (thr d L, SemLoc.dma (dsem 10)) n := rfl
theorem cell_11 (n : ℕ) : (semVal (thr d L, SemLoc.dma (SemArray.sem cc0_scratch19)) n : sProp 𝕄) = semVal (thr d L, SemLoc.dma (dsem 11)) n := rfl

theorem lt4_0 : 0 < 4 := by decide
theorem lt4_1 : 1 < 4 := by decide
theorem lt4_2 : 2 < 4 := by decide
theorem lt4_3 : 3 < 4 := by decide

/-- The read share of `xT` (of the table) that the copies completing on list cell `b` (gather cell `b`) borrow. -/
abbrev tokx (q : PosShare TreeShare) (b : ℕ) : PosShare TreeShare := Transfers.shareTokN q b
abbrev tokt (q : PosShare TreeShare) (b : ℕ) : PosShare TreeShare := Transfers.shareTokN q (4 + b)

variable (O : CellTallies nD τ sig (HIx 1)) (W : Waits sig (HIx 1))
variable (fX : Buf (Elt F) (xLoc d)) (fT : Buf (Elt F) (tLoc d)) (fO : Buf (Elt F) (oLoc d)) (qx qt : PosShare TreeShare)

/-- What the tile leaves in `out`: the looked-up rows. -/
abbrev GKf : Buf (Elt F) (oLoc d) := Cert.Lookup.GK (F := F) fX fT

/-- DMA semaphore 0 of the tile at zero. -/
def CZ0 : sProp 𝕄 := semVal (thr d L, SemLoc.dma (SemArray.sem cc0_scratch8)) 0
/-- DMA semaphore 1 of the tile at zero. -/
def CZ1 : sProp 𝕄 := semVal (thr d L, SemLoc.dma (SemArray.sem cc0_scratch9)) 0
/-- DMA semaphore 2 of the tile at zero. -/
def CZ2 : sProp 𝕄 := semVal (thr d L, SemLoc.dma (SemArray.sem cc0_scratch10)) 0
/-- DMA semaphore 3 of the tile at zero. -/
def CZ3 : sProp 𝕄 := semVal (thr d L, SemLoc.dma (SemArray.sem cc0_scratch11)) 0
/-- DMA semaphore 4 of the tile at zero. -/
def CZ4 : sProp 𝕄 := semVal (thr d L, SemLoc.dma (SemArray.sem cc0_scratch12)) 0
/-- DMA semaphore 5 of the tile at zero. -/
def CZ5 : sProp 𝕄 := semVal (thr d L, SemLoc.dma (SemArray.sem cc0_scratch13)) 0
/-- DMA semaphore 6 of the tile at zero. -/
def CZ6 : sProp 𝕄 := semVal (thr d L, SemLoc.dma (SemArray.sem cc0_scratch14)) 0
/-- DMA semaphore 7 of the tile at zero. -/
def CZ7 : sProp 𝕄 := semVal (thr d L, SemLoc.dma (SemArray.sem cc0_scratch15)) 0
/-- DMA semaphore 8 of the tile at zero. -/
def CZ8 : sProp 𝕄 := semVal (thr d L, SemLoc.dma (SemArray.sem cc0_scratch16)) 0
/-- DMA semaphore 9 of the tile at zero. -/
def CZ9 : sProp 𝕄 := semVal (thr d L, SemLoc.dma (SemArray.sem cc0_scratch17)) 0
/-- DMA semaphore 10 of the tile at zero. -/
def CZ10 : sProp 𝕄 := semVal (thr d L, SemLoc.dma (SemArray.sem cc0_scratch18)) 0
/-- DMA semaphore 11 of the tile at zero. -/
def CZ11 : sProp 𝕄 := semVal (thr d L, SemLoc.dma (SemArray.sem cc0_scratch19)) 0
/-- The tile's read share number 0 of `xT`, whole. -/
def TX0 : sProp 𝕄 := (xV).view.loc (thr d L) ↦{tokx qx 0} fX
/-- The tile's read share number 0 of the padded table, whole. -/
def TT0 : sProp 𝕄 := (tV).view.loc (thr d L) ↦{tokt qt 0} fT
/-- List buffer 0 (row buffer 0) at some contents. -/
def IB0 : sProp 𝕄 := iprop(∃ f, (i0V).view.loc (thr d L) ↦{fullShare} f)
def PB0 : sProp 𝕄 := iprop(∃ g, (p0V).view.loc (thr d L) ↦{fullShare} g)
/-- The tile's read share number 1 of `xT`, whole. -/
def TX1 : sProp 𝕄 := (xV).view.loc (thr d L) ↦{tokx qx 1} fX
/-- The tile's read share number 1 of the padded table, whole. -/
def TT1 : sProp 𝕄 := (tV).view.loc (thr d L) ↦{tokt qt 1} fT
/-- List buffer 1 (row buffer 1) at some contents. -/
def IB1 : sProp 𝕄 := iprop(∃ f, (i1V).view.loc (thr d L) ↦{fullShare} f)
def PB1 : sProp 𝕄 := iprop(∃ g, (p1V).view.loc (thr d L) ↦{fullShare} g)
/-- The tile's read share number 2 of `xT`, whole. -/
def TX2 : sProp 𝕄 := (xV).view.loc (thr d L) ↦{tokx qx 2} fX
/-- The tile's read share number 2 of the padded table, whole. -/
def TT2 : sProp 𝕄 := (tV).view.loc (thr d L) ↦{tokt qt 2} fT
/-- List buffer 2 (row buffer 2) at some contents. -/
def IB2 : sProp 𝕄 := iprop(∃ f, (i2V).view.loc (thr d L) ↦{fullShare} f)
def PB2 : sProp 𝕄 := iprop(∃ g, (p2V).view.loc (thr d L) ↦{fullShare} g)
/-- The tile's read share number 3 of `xT`, whole. -/
def TX3 : sProp 𝕄 := (xV).view.loc (thr d L) ↦{tokx qx 3} fX
/-- The tile's read share number 3 of the padded table, whole. -/
def TT3 : sProp 𝕄 := (tV).view.loc (thr d L) ↦{tokt qt 3} fT
/-- List buffer 3 (row buffer 3) at some contents. -/
def IB3 : sProp 𝕄 := iprop(∃ f, (i3V).view.loc (thr d L) ↦{fullShare} f)
def PB3 : sProp 𝕄 := iprop(∃ g, (p3V).view.loc (thr d L) ↦{fullShare} g)

/-- The copy of row `r`'s chunk 3 of `xT` into list buffer 3, in flight, and what is left of the read share it borrows from. -/
def FI3 (r : ℕ) (hr : r < 200) : sProp 𝕄 :=
  iprop(Transfers.Flight countersEmb (thr d L) (SemLoc.dma (SemArray.sem cc0_scratch11)) (default : HIx 1) 4096
      iprop(((i3V).view.loc (thr d L) ↦{fullShare} idxC fX L r 3)
        ∗ ((xV).view.loc (thr d L) ↦[(xRowM ![r, cbase L 3] (xin L r 3 hr lt4_3)).view.set]{tokx qx 3} fX))
    ∗ ((xV).view.loc (thr d L) ↦[Finset.univ \ (xRowM ![r, cbase L 3] (xin L r 3 hr lt4_3)).view.set]{tokx qx 3} fX))

/-- The gather of row `r`'s chunk 0 into row buffer 0, in flight, and what is left of the read share it borrows from. -/
def FG0 (r : ℕ) : sProp 𝕄 :=
  iprop(Transfers.Flight countersEmb (thr d L) (SemLoc.dma (SemArray.sem cc0_scratch12)) (default : HIx 1) 524288
      iprop((((p0V).view.loc (thr d L) ↦{fullShare} pairC fX fT L r 0) ∗ ((i0V).view.loc (thr d L) ↦{fullShare} idxC fX L r 0))
        ∗ ((tV).view.loc (thr d L) ↦[(tAllM).view.set]{tokt qt 0} fT))
    ∗ ((tV).view.loc (thr d L) ↦[Finset.univ \ (tAllM).view.set]{tokt qt 0} fT))

/-- The gather of row `r`'s chunk 1 into row buffer 1, in flight, and what is left of the read share it borrows from. -/
def FG1 (r : ℕ) : sProp 𝕄 :=
  iprop(Transfers.Flight countersEmb (thr d L) (SemLoc.dma (SemArray.sem cc0_scratch13)) (default : HIx 1) 524288
      iprop((((p1V).view.loc (thr d L) ↦{fullShare} pairC fX fT L r 1) ∗ ((i1V).view.loc (thr d L) ↦{fullShare} idxC fX L r 1))
        ∗ ((tV).view.loc (thr d L) ↦[(tAllM).view.set]{tokt qt 1} fT))
    ∗ ((tV).view.loc (thr d L) ↦[Finset.univ \ (tAllM).view.set]{tokt qt 1} fT))

/-- The gather of row `r`'s chunk 2 into row buffer 2, in flight, and what is left of the read share it borrows from. -/
def FG2 (r : ℕ) : sProp 𝕄 :=
  iprop(Transfers.Flight countersEmb (thr d L) (SemLoc.dma (SemArray.sem cc0_scratch14)) (default : HIx 1) 524288
      iprop((((p2V).view.loc (thr d L) ↦{fullShare} pairC fX fT L r 2) ∗ ((i2V).view.loc (thr d L) ↦{fullShare} idxC fX L r 2))
        ∗ ((tV).view.loc (thr d L) ↦[(tAllM).view.set]{tokt qt 2} fT))
    ∗ ((tV).view.loc (thr d L) ↦[Finset.univ \ (tAllM).view.set]{tokt qt 2} fT))

/-- The copy-out of row buffer 3 into chunk 3 of row `r` of `out`, in flight. -/
def FS3 (r : ℕ) (hr : r < 200) : sProp 𝕄 :=
  iprop(∃ g, Transfers.Flight countersEmb (thr d L) (SemLoc.dma (SemArray.sem cc0_scratch19)) (default : HIx 1) 524288
      iprop(((oWinM ![r, cbase L 3, 0] (oin L r 3 hr lt4_3)).view.loc (thr d L) ↦[(oWinM ![r, cbase L 3, 0] (oin L r 3 hr lt4_3)).view.set]{fullShare} GKf d fX fT)
        ∗ ((p3V).view.loc (thr d L) ↦{fullShare} g)))

/-- The ring's three gathers and one list copy before trip `n < 200`; after the last trip everything at rest. -/
def Live (n : ℕ) : sProp 𝕄 :=
  if h : n < 200 then
    iprop(FI3 d L fX qx n h ∗ TX0 d L fX qx ∗ TX1 d L fX qx ∗ TX2 d L fX qx
      ∗ FG0 d L fX fT qt n ∗ FG1 d L fX fT qt n ∗ FG2 d L fX fT qt n ∗ TT3 d L fT qt
      ∗ CZ0 (F := F) d L ∗ CZ1 (F := F) d L ∗ CZ2 (F := F) d L ∗ CZ7 (F := F) d L)
  else
    iprop(IB0 (F := F) d L ∗ IB1 (F := F) d L ∗ IB2 (F := F) d L ∗ IB3 (F := F) d L ∗ PB0 (F := F) d L ∗ PB1 (F := F) d L ∗ PB2 (F := F) d L
      ∗ TX0 d L fX qx ∗ TX1 d L fX qx ∗ TX2 d L fX qx ∗ TX3 d L fX qx ∗ TT0 d L fT qt ∗ TT1 d L fT qt ∗ TT2 d L fT qt ∗ TT3 d L fT qt
      ∗ CZ0 (F := F) d L ∗ CZ1 (F := F) d L ∗ CZ2 (F := F) d L ∗ CZ3 (F := F) d L ∗ CZ4 (F := F) d L ∗ CZ5 (F := F) d L ∗ CZ6 (F := F) d L ∗ CZ7 (F := F) d L)

/-- The copy-out of chunk 3 of the row before `n`, in flight; before trip 0 row buffer 3 and its semaphore at rest. -/
def St3 (n : ℕ) : sProp 𝕄 :=
  if h : 0 < n ∧ n ≤ 200 then FS3 d L fX fT (n - 1) (by omega)
  else iprop(PB3 (F := F) d L ∗ CZ11 (F := F) d L)

/-- The loop's invariant before trip `n`. -/
def Inv (n : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ Live d L fX fT qx qt n ∗ St3 d L fX fT n
    ∗ CZ8 (F := F) d L ∗ CZ9 (F := F) d L ∗ CZ10 (F := F) d L
    ∗ Rows d L (GKf d fX fT) (Finset.range n) ∗ Rows3 d L (GKf d fX fT) (Finset.range (n - 1))
    ∗ Rows d L fO (Finset.Ico n 200) ∗ Rows3 d L fO (Finset.Ico n 200))

/-! ## What lands, as entailments between the transfers' deliveries -/

/-- The list copy's delivery, named: list buffer 0 holds the row numbers of chunk `b'` of row `r`. -/
theorem ent_idx0 (q : PosShare TreeShare) (f : Buf (Elt F) ((i0V).view.loc (thr d L))) (off : Fin 2 → ℕ) (h : ∀ a, off a + S1x128.size a ≤ S200x16384.size a)
    (r b' : ℕ) (hr : r < 200) (hb : b' < 4) (hoff : off = ![r, cbase L b']) :
    iprop((((i0V).view.loc (thr d L) ↦{fullShare} View.write (Elt F) (i0V).view f (ReadAs.same.apply (View.read (Elt F) (xRowM off h).view fX)) Finset.univ : sProp 𝕄))
        ∗ ((xV).view.loc (thr d L) ↦[(xRowM off h).view.set]{q} fX))
      ⊢ iprop(((i0V).view.loc (thr d L) ↦{fullShare} idxC fX L r b')
        ∗ ((xV).view.loc (thr d L) ↦[(xRowM ![r, cbase L b'] (xin L r b' hr hb)).view.set]{q} fX)) := by
  subst hoff
  rw [land_idx_0 (F := F) fX L f _ h r b' hr hb rfl]
/-- The list copy's delivery, named: list buffer 1 holds the row numbers of chunk `b'` of row `r`. -/
theorem ent_idx1 (q : PosShare TreeShare) (f : Buf (Elt F) ((i1V).view.loc (thr d L))) (off : Fin 2 → ℕ) (h : ∀ a, off a + S1x128.size a ≤ S200x16384.size a)
    (r b' : ℕ) (hr : r < 200) (hb : b' < 4) (hoff : off = ![r, cbase L b']) :
    iprop((((i1V).view.loc (thr d L) ↦{fullShare} View.write (Elt F) (i1V).view f (ReadAs.same.apply (View.read (Elt F) (xRowM off h).view fX)) Finset.univ : sProp 𝕄))
        ∗ ((xV).view.loc (thr d L) ↦[(xRowM off h).view.set]{q} fX))
      ⊢ iprop(((i1V).view.loc (thr d L) ↦{fullShare} idxC fX L r b')
        ∗ ((xV).view.loc (thr d L) ↦[(xRowM ![r, cbase L b'] (xin L r b' hr hb)).view.set]{q} fX)) := by
  subst hoff
  rw [land_idx_1 (F := F) fX L f _ h r b' hr hb rfl]
/-- The list copy's delivery, named: list buffer 2 holds the row numbers of chunk `b'` of row `r`. -/
theorem ent_idx2 (q : PosShare TreeShare) (f : Buf (Elt F) ((i2V).view.loc (thr d L))) (off : Fin 2 → ℕ) (h : ∀ a, off a + S1x128.size a ≤ S200x16384.size a)
    (r b' : ℕ) (hr : r < 200) (hb : b' < 4) (hoff : off = ![r, cbase L b']) :
    iprop((((i2V).view.loc (thr d L) ↦{fullShare} View.write (Elt F) (i2V).view f (ReadAs.same.apply (View.read (Elt F) (xRowM off h).view fX)) Finset.univ : sProp 𝕄))
        ∗ ((xV).view.loc (thr d L) ↦[(xRowM off h).view.set]{q} fX))
      ⊢ iprop(((i2V).view.loc (thr d L) ↦{fullShare} idxC fX L r b')
        ∗ ((xV).view.loc (thr d L) ↦[(xRowM ![r, cbase L b'] (xin L r b' hr hb)).view.set]{q} fX)) := by
  subst hoff
  rw [land_idx_2 (F := F) fX L f _ h r b' hr hb rfl]
/-- The list copy's delivery, named: list buffer 3 holds the row numbers of chunk `b'` of row `r`. -/
theorem ent_idx3 (q : PosShare TreeShare) (f : Buf (Elt F) ((i3V).view.loc (thr d L))) (off : Fin 2 → ℕ) (h : ∀ a, off a + S1x128.size a ≤ S200x16384.size a)
    (r b' : ℕ) (hr : r < 200) (hb : b' < 4) (hoff : off = ![r, cbase L b']) :
    iprop((((i3V).view.loc (thr d L) ↦{fullShare} View.write (Elt F) (i3V).view f (ReadAs.same.apply (View.read (Elt F) (xRowM off h).view fX)) Finset.univ : sProp 𝕄))
        ∗ ((xV).view.loc (thr d L) ↦[(xRowM off h).view.set]{q} fX))
      ⊢ iprop(((i3V).view.loc (thr d L) ↦{fullShare} idxC fX L r b')
        ∗ ((xV).view.loc (thr d L) ↦[(xRowM ![r, cbase L b'] (xin L r b' hr hb)).view.set]{q} fX)) := by
  subst hoff
  rw [land_idx_3 (F := F) fX L f _ h r b' hr hb rfl]
/-- The gather's delivery, named: row buffer 0 holds the table rows that list buffer 0's numbers name. -/
theorem ent_gather0 (q : PosShare TreeShare) (g : Buf (Elt F) ((p0V).view.loc (thr d L))) (I : Buf (Elt F) ((i0V).view.loc (thr d L)))
    (hn : S128.numel = S128x128.size gathers_S1000000x128_S128x128.axis') (hI : ∀ x, (View.read (Elt F) (i0V).view I x).toNat < S1000000x128.size gathers_S1000000x128_S128x128.axis)
    (r b' : ℕ) (hIe : I = idxC fX L r b') :
    iprop(((((p0V).view.loc (thr d L) ↦{fullShare} (p0V).view.writes (Elt F) g [⟨Rect.whole (cc0_scratch4 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i0V).view I) hn hI)⟩] : sProp 𝕄))
          ∗ ((i0V).view.loc (thr d L) ↦{fullShare} I))
        ∗ ((tV).view.loc (thr d L) ↦[(tAllM).view.set]{q} fT))
      ⊢ iprop((((p0V).view.loc (thr d L) ↦{fullShare} pairC fX fT L r b') ∗ ((i0V).view.loc (thr d L) ↦{fullShare} idxC fX L r b'))
        ∗ ((tV).view.loc (thr d L) ↦[(tAllM).view.set]{q} fT)) := by
  have e := land_gather_0 (F := F) fX fT L g I hn hI r b' hIe
  subst hIe
  exact Entails.of_eq (congrArg (fun c => iprop((((p0V).view.loc (thr d L) ↦{fullShare} c : sProp 𝕄) ∗ ((i0V).view.loc (thr d L) ↦{fullShare} idxC fX L r b'))
        ∗ ((tV).view.loc (thr d L) ↦[(tAllM).view.set]{q} fT))) e)
/-- The gather's delivery, named: row buffer 1 holds the table rows that list buffer 1's numbers name. -/
theorem ent_gather1 (q : PosShare TreeShare) (g : Buf (Elt F) ((p1V).view.loc (thr d L))) (I : Buf (Elt F) ((i1V).view.loc (thr d L)))
    (hn : S128.numel = S128x128.size gathers_S1000000x128_S128x128.axis') (hI : ∀ x, (View.read (Elt F) (i1V).view I x).toNat < S1000000x128.size gathers_S1000000x128_S128x128.axis)
    (r b' : ℕ) (hIe : I = idxC fX L r b') :
    iprop(((((p1V).view.loc (thr d L) ↦{fullShare} (p1V).view.writes (Elt F) g [⟨Rect.whole (cc0_scratch5 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i1V).view I) hn hI)⟩] : sProp 𝕄))
          ∗ ((i1V).view.loc (thr d L) ↦{fullShare} I))
        ∗ ((tV).view.loc (thr d L) ↦[(tAllM).view.set]{q} fT))
      ⊢ iprop((((p1V).view.loc (thr d L) ↦{fullShare} pairC fX fT L r b') ∗ ((i1V).view.loc (thr d L) ↦{fullShare} idxC fX L r b'))
        ∗ ((tV).view.loc (thr d L) ↦[(tAllM).view.set]{q} fT)) := by
  have e := land_gather_1 (F := F) fX fT L g I hn hI r b' hIe
  subst hIe
  exact Entails.of_eq (congrArg (fun c => iprop((((p1V).view.loc (thr d L) ↦{fullShare} c : sProp 𝕄) ∗ ((i1V).view.loc (thr d L) ↦{fullShare} idxC fX L r b'))
        ∗ ((tV).view.loc (thr d L) ↦[(tAllM).view.set]{q} fT))) e)
/-- The gather's delivery, named: row buffer 2 holds the table rows that list buffer 2's numbers name. -/
theorem ent_gather2 (q : PosShare TreeShare) (g : Buf (Elt F) ((p2V).view.loc (thr d L))) (I : Buf (Elt F) ((i2V).view.loc (thr d L)))
    (hn : S128.numel = S128x128.size gathers_S1000000x128_S128x128.axis') (hI : ∀ x, (View.read (Elt F) (i2V).view I x).toNat < S1000000x128.size gathers_S1000000x128_S128x128.axis)
    (r b' : ℕ) (hIe : I = idxC fX L r b') :
    iprop(((((p2V).view.loc (thr d L) ↦{fullShare} (p2V).view.writes (Elt F) g [⟨Rect.whole (cc0_scratch6 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i2V).view I) hn hI)⟩] : sProp 𝕄))
          ∗ ((i2V).view.loc (thr d L) ↦{fullShare} I))
        ∗ ((tV).view.loc (thr d L) ↦[(tAllM).view.set]{q} fT))
      ⊢ iprop((((p2V).view.loc (thr d L) ↦{fullShare} pairC fX fT L r b') ∗ ((i2V).view.loc (thr d L) ↦{fullShare} idxC fX L r b'))
        ∗ ((tV).view.loc (thr d L) ↦[(tAllM).view.set]{q} fT)) := by
  have e := land_gather_2 (F := F) fX fT L g I hn hI r b' hIe
  subst hIe
  exact Entails.of_eq (congrArg (fun c => iprop((((p2V).view.loc (thr d L) ↦{fullShare} c : sProp 𝕄) ∗ ((i2V).view.loc (thr d L) ↦{fullShare} idxC fX L r b'))
        ∗ ((tV).view.loc (thr d L) ↦[(tAllM).view.set]{q} fT))) e)
/-- The gather's delivery, named: row buffer 3 holds the table rows that list buffer 3's numbers name. -/
theorem ent_gather3 (q : PosShare TreeShare) (g : Buf (Elt F) ((p3V).view.loc (thr d L))) (I : Buf (Elt F) ((i3V).view.loc (thr d L)))
    (hn : S128.numel = S128x128.size gathers_S1000000x128_S128x128.axis') (hI : ∀ x, (View.read (Elt F) (i3V).view I x).toNat < S1000000x128.size gathers_S1000000x128_S128x128.axis)
    (r b' : ℕ) (hIe : I = idxC fX L r b') :
    iprop(((((p3V).view.loc (thr d L) ↦{fullShare} (p3V).view.writes (Elt F) g [⟨Rect.whole (cc0_scratch7 : Ref sig .scVector).ty.shape, SparseCore.gatherPayload (s₀ := S1000000x128) (s := S128x128) gathers_S1000000x128_S128x128 (View.read (Elt F) (tAllM).view fT) (SparseCore.rows (si := S128) (o := S128x128.size gathers_S1000000x128_S128x128.axis') (z := S1000000x128.size gathers_S1000000x128_S128x128.axis) (View.read (Elt F) (i3V).view I) hn hI)⟩] : sProp 𝕄))
          ∗ ((i3V).view.loc (thr d L) ↦{fullShare} I))
        ∗ ((tV).view.loc (thr d L) ↦[(tAllM).view.set]{q} fT))
      ⊢ iprop((((p3V).view.loc (thr d L) ↦{fullShare} pairC fX fT L r b') ∗ ((i3V).view.loc (thr d L) ↦{fullShare} idxC fX L r b'))
        ∗ ((tV).view.loc (thr d L) ↦[(tAllM).view.set]{q} fT)) := by
  have e := land_gather_3 (F := F) fX fT L g I hn hI r b' hIe
  subst hIe
  exact Entails.of_eq (congrArg (fun c => iprop((((p3V).view.loc (thr d L) ↦{fullShare} c : sProp 𝕄) ∗ ((i3V).view.loc (thr d L) ↦{fullShare} idxC fX L r b'))
        ∗ ((tV).view.loc (thr d L) ↦[(tAllM).view.set]{q} fT))) e)

/-- The copy-out's delivery, named: chunk 3 of row `r` of `out` holds the looked-up rows; row buffer 3 comes back whole. -/
theorem ent_store3 (fO : Buf (Elt F) (oLoc d)) (off : Fin 3 → ℕ) (h : ∀ a, off a + S1x128x128.size a ≤ S200x16384x128.size a)
    (P : Buf (Elt F) ((p3V).view.loc (thr d L))) (r : ℕ) (hr : r < 200) (hoff : off = ![r, cbase L 3, 0]) (hP : P = pairC fX fT L r 3) :
    iprop((((oWinM off h).view.loc (thr d L) ↦[(oWinM off h).view.set]{fullShare}
            (oWinM off h).view.writes (Elt F) fO [⟨Rect.whole S128x128, ReadAs.same.apply (View.read (Elt F) (p3V).view P)⟩] : sProp 𝕄))
        ∗ ((p3V).view.loc (thr d L) ↦[(p3V).view.set]{fullShare} P))
      ⊢ iprop(((oWinM ![r, cbase L 3, 0] (oin L r 3 hr lt4_3)).view.loc (thr d L) ↦[(oWinM ![r, cbase L 3, 0] (oin L r 3 hr lt4_3)).view.set]{fullShare} GKf d fX fT)
        ∗ ((p3V).view.loc (thr d L) ↦{fullShare} P)) := by
  have hps : (p3V).view.set = Finset.univ := View.set_whole _
  rw [Win_land_3 d L fX fT fO off h P r 3 hr lt4_3 hoff hP (cV L) (jV L), Win_eq d L (GKf d fX fT) r 3 hr lt4_3 (cV L) (jV L), hps]

/-- What is left of a read share of `xT` beside a row chunk, with the chunk named by its row and number. -/
theorem ent_xrest (q : PosShare TreeShare) (off : Fin 2 → ℕ) (h : ∀ a, off a + S1x128.size a ≤ S200x16384.size a)
    (r b' : ℕ) (hr : r < 200) (hb : b' < 4) (hoff : off = ![r, cbase L b']) :
    ((xV).view.loc (thr d L) ↦[Finset.univ \ (xRowM off h).view.set]{q} fX : sProp 𝕄)
      ⊢ ((xV).view.loc (thr d L) ↦[Finset.univ \ (xRowM ![r, cbase L b'] (xin L r b' hr hb)).view.set]{q} fX) := by
  subst hoff
  exact Entails.rfl

end Tile

end Cert.Proof.KI

end
-- ==== Proof.TripFirstKI.lean ====
/-
  The first trip of the tile's loop (row 0): no copy-out is in flight yet; every other guard of the region holds.
-/
import proofs.«206412_g41506563948974_cont_8to1_b_738_25_alg».proof.Proof.InvKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_first (hX : ∀ j, (fX j).toNat < 1000000) (v2 : BitVec 32) (k : Fin k0_t1_loop.trips) (hk0 : k.val = 0) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have hk2 : k.val < 199 := by omega
  have k0_h1 := cond1_pos k hk2
  have k0_h3 := cond3_pos k hk2
  have k0_h4 := cond4_pos k hk2
  have k0_h5 := cond5_pos k hk2
  have k0_h6 := cond6_pos k hk2
  have k0_h7 := cond7_pos k hk2
  have k0_h8 := cond8_pos k hk2
  have k0_h2 := cond2_neg k (show ¬ 1 ≤ k.val by omega)
  have hk200' : k.val + 1 < 200 := by omega
  have hk200 : k.val < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_neg (show ¬ (0 < k.val ∧ k.val ≤ 200) by omega), dif_pos hk200', dif_pos (show 0 < k.val + 1 ∧ k.val + 1 ≤ 200 by omega),
    hIco, Rows_insert d L fO hnIco, Rows3_insert d L fO hnIco]
  unfold FI3 FG0 FG1 FG2 FS3 TX0 TX1 TX2 TT3 CZ0 CZ1 CZ2 CZ7 CZ8 CZ9 CZ10 CZ11 PB3
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨⟨%gp3, Hp3⟩, Hc11⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFi3 Hx3r Hx0 Hx1 Hx2 HFg0 Ht0r HFg1 Ht1r HFg2 Ht2r Ht3 Hc0 Hc1 Hc2 Hc7]
  · isplitl [HFi3 Hx3r]
    · isplitl [HFi3]
      · istop
        exact sep_elim_right.trans (Transfers.Flight_mono countersEmb (thr d L) (ent_idx3 d L fX (tokx qx 3) _ (k0_off10 L k) _ (k.val + 1) 3 hk200' lt4_3 (off10_c L k)))
      · iapply (ent_xrest d L fX (tokx qx 3) (k0_off10 L k) _ (k.val + 1) 3 hk200' lt4_3 (off10_c L k)) $$ Hx3r
    isplitl [Hx0]; · iexact Hx0
    isplitl [Hx1]; · iexact Hx1
    isplitl [Hx2]; · iexact Hx2
    isplitl [HFg0 Ht0r]
    · isplitl [HFg0]
      · istop
        exact sep_elim_right.trans (Transfers.Flight_mono countersEmb (thr d L) (ent_gather0 d L fX fT (tokt qt 0) _ _ (by decide) (hin0 _ _ _) (k.val + 1) 0
          (land_idx_0 (F := F) fX L _ (k0_off2 L k) _ (k.val + 1) 0 hk200' lt4_0 (off2_c L k))))
      · iexact Ht0r
    isplitl [HFg1 Ht1r]
    · isplitl [HFg1]
      · istop
        exact sep_elim_right.trans (Transfers.Flight_mono countersEmb (thr d L) (ent_gather1 d L fX fT (tokt qt 1) _ _ (by decide) (hin1 _ _ _) (k.val + 1) 1
          (land_idx_1 (F := F) fX L _ (k0_off6 L k) _ (k.val + 1) 1 hk200' lt4_1 (off6_c L k))))
      · iexact Ht1r
    isplitl [HFg2 Ht2r]
    · isplitl [HFg2]
      · istop
        exact sep_elim_right.trans (Transfers.Flight_mono countersEmb (thr d L) (ent_gather2 d L fX fT (tokt qt 2) _ _ (by decide) (hin2 _ _ _) (k.val + 1) 2
          (land_idx_2 (F := F) fX L _ (k0_off8 L k) _ (k.val + 1) 2 hk200' lt4_2 (off8_c L k))))
      · iexact Ht2r
    isplitl [Ht3]; · iexact Ht3
    isplitl [Hc0]; · iexact Hc0
    isplitl [Hc1]; · iexact Hc1
    isplitl [Hc2]; · iexact Hc2
    iexact Hc7
  icases Hp3 with -
  isplitl [Hc11]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3]
  · rw [show Finset.range (k.val + 1 - 1) = Finset.range (k.val - 1) from by rw [hk0]]
    iexact HD3
  isplitl [HU]; · iexact HU
  iexact HU3

end Tile

end Cert.Proof.KI

end
-- ==== Proof.TripMidKI.lean ====
/-
  A middle trip of the tile's loop (row k, 1 ≤ k < 199): every guard of the region holds.
-/
import proofs.«206412_g41506563948974_cont_8to1_b_738_25_alg».proof.Proof.InvKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_mid (hX : ∀ j, (fX j).toNat < 1000000) (v2 : BitVec 32) (k : Fin k0_t1_loop.trips) (hk1 : 1 ≤ k.val) (hk2 : k.val < 199) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have k0_h1 := cond1_pos k hk2
  have k0_h3 := cond3_pos k hk2
  have k0_h4 := cond4_pos k hk2
  have k0_h5 := cond5_pos k hk2
  have k0_h6 := cond6_pos k hk2
  have k0_h7 := cond7_pos k hk2
  have k0_h8 := cond8_pos k hk2
  have k0_h2 := cond2_pos k hk1
  have hk200 : k.val < 200 := by omega
  have hk200' : k.val + 1 < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_pos (show 0 < k.val ∧ k.val ≤ 200 by omega), dif_pos hk200', dif_pos (show 0 < k.val + 1 ∧ k.val + 1 ≤ 200 by omega),
    hIco, Rows_insert d L fO hnIco, Rows3_insert d L fO hnIco]
  unfold FI3 FG0 FG1 FG2 FS3 TX0 TX1 TX2 TT3 CZ0 CZ1 CZ2 CZ7 CZ8 CZ9 CZ10
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨%gp3, HFs3⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFi3 Hx3r Hx0 Hx1 Hx2 HFg0 Ht0r HFg1 Ht1r HFg2 Ht2r Ht3 Hc0 Hc1 Hc2 Hc7]
  · isplitl [HFi3 Hx3r]
    · isplitl [HFi3]
      · istop
        exact sep_elim_right.trans (Transfers.Flight_mono countersEmb (thr d L) (ent_idx3 d L fX (tokx qx 3) _ (k0_off10 L k) _ (k.val + 1) 3 hk200' lt4_3 (off10_c L k)))
      · iapply (ent_xrest d L fX (tokx qx 3) (k0_off10 L k) _ (k.val + 1) 3 hk200' lt4_3 (off10_c L k)) $$ Hx3r
    isplitl [Hx0]; · iexact Hx0
    isplitl [Hx1]; · iexact Hx1
    isplitl [Hx2]; · iexact Hx2
    isplitl [HFg0 Ht0r]
    · isplitl [HFg0]
      · istop
        exact sep_elim_right.trans (Transfers.Flight_mono countersEmb (thr d L) (ent_gather0 d L fX fT (tokt qt 0) _ _ (by decide) (hin0 _ _ _) (k.val + 1) 0
          (land_idx_0 (F := F) fX L _ (k0_off2 L k) _ (k.val + 1) 0 hk200' lt4_0 (off2_c L k))))
      · iexact Ht0r
    isplitl [HFg1 Ht1r]
    · isplitl [HFg1]
      · istop
        exact sep_elim_right.trans (Transfers.Flight_mono countersEmb (thr d L) (ent_gather1 d L fX fT (tokt qt 1) _ _ (by decide) (hin1 _ _ _) (k.val + 1) 1
          (land_idx_1 (F := F) fX L _ (k0_off6 L k) _ (k.val + 1) 1 hk200' lt4_1 (off6_c L k))))
      · iexact Ht1r
    isplitl [HFg2 Ht2r]
    · isplitl [HFg2]
      · istop
        exact sep_elim_right.trans (Transfers.Flight_mono countersEmb (thr d L) (ent_gather2 d L fX fT (tokt qt 2) _ _ (by decide) (hin2 _ _ _) (k.val + 1) 2
          (land_idx_2 (F := F) fX L _ (k0_off8 L k) _ (k.val + 1) 2 hk200' lt4_2 (off8_c L k))))
      · iexact Ht2r
    isplitl [Ht3]; · iexact Ht3
    isplitl [Hc0]; · iexact Hc0
    isplitl [Hc1]; · iexact Hc1
    isplitl [Hc2]; · iexact Hc2
    iexact Hc7
  icases HFs3_src with -
  isplitl [HFs3]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3 HFs3_dst]
  · rw [show Finset.range (k.val + 1 - 1) = insert (k.val - 1) (Finset.range (k.val - 1)) from by
        rw [Nat.add_sub_cancel]; conv_lhs => rw [show k.val = k.val - 1 + 1 by omega, Finset.range_add_one],
      Rows3_insert d L _ Finset.notMem_range_self]
    isplitl [HFs3_dst]
    · iapply (Entails.of_eq (Win_eq d L (GKf d fX fT) (k.val - 1) 3 (by omega) lt4_3 (cV L) (jV L))) $$ HFs3_dst
    · iexact HD3
  isplitl [HU]; · iexact HU
  iexact HU3

end Tile

end Cert.Proof.KI

end
-- ==== Proof.TripLastKI.lean ====
/-
  The last trip of the tile's loop (row 199): nothing is fetched for a next row; the ring drains but for the last copy-out.
-/
import proofs.«206412_g41506563948974_cont_8to1_b_738_25_alg».proof.Proof.InvKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

set_option maxHeartbeats 16000000 in
theorem trip_last (hX : ∀ j, (fX j).toNat < 1000000) (v2 : BitVec 32) (k : Fin k0_t1_loop.trips) (hk9 : k.val = 199) :
    Inv d L O W fX fT fO qx qt k.val ()
      ⊢ wp frame (wpE (defs₀ (F := F)) 𝒱₀ (thr d L) none) Set.univ
          (k0_t1_body L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 v2 k ())
          fun acc => Inv d L O W fX fT fO qx qt (k.val + 1) acc := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  have k0_h1 := cond1_neg k (show ¬ k.val < 199 by omega)
  have k0_h3 := cond3_neg k (show ¬ k.val < 199 by omega)
  have k0_h4 := cond4_neg k (show ¬ k.val < 199 by omega)
  have k0_h5 := cond5_neg k (show ¬ k.val < 199 by omega)
  have k0_h6 := cond6_neg k (show ¬ k.val < 199 by omega)
  have k0_h7 := cond7_neg k (show ¬ k.val < 199 by omega)
  have k0_h8 := cond8_neg k (show ¬ k.val < 199 by omega)
  have k0_h2 := cond2_pos k (show 1 ≤ k.val by omega)
  have hk200 : k.val < 200 := by omega
  have hIco : Finset.Ico k.val 200 = insert k.val (Finset.Ico (k.val + 1) 200) := by
    ext x; simp only [Finset.mem_Ico, Finset.mem_insert]; omega
  have hnIco : k.val ∉ Finset.Ico (k.val + 1) 200 := by simp
  unfold k0_t1_body
  rw [k0_part1_eq_skeleton, k0_part2_eq_skeleton]; unfold k0_part1_skel k0_part2_skel
  unfold Inv Live St3
  rw [dif_pos hk200, dif_pos (show 0 < k.val ∧ k.val ≤ 200 by omega), dif_neg (show ¬ k.val + 1 < 200 by omega), dif_pos (show 0 < k.val + 1 ∧ k.val + 1 ≤ 200 by omega),
    hIco, Rows_insert d L fO hnIco, Rows3_insert d L fO hnIco]
  unfold FI3 FG0 FG1 FG2 FS3 TX0 TX1 TX2 TX3 TT0 TT1 TT2 TT3 CZ0 CZ1 CZ2 CZ3 CZ4 CZ5 CZ6 CZ7 CZ8 CZ9 CZ10 IB0 IB1 IB2 IB3 PB0 PB1 PB2
  iintro ⟨#Hmw, ⟨%W', %hW', HO⟩, ⟨⟨HFi3, Hx3r⟩, Hx0, Hx1, Hx2, ⟨HFg0, Ht0r⟩, ⟨HFg1, Ht1r⟩, ⟨HFg2, Ht2r⟩, Ht3, Hc0, Hc1, Hc2, Hc7⟩, ⟨%gp3, HFs3⟩, Hc8, Hc9, Hc10, HD, HD3, ⟨⟨Ho0, Ho1, Ho2⟩, HU⟩, ⟨Ho3, HU3⟩⟩
  ihave Ho0' := (Entails.of_eq (Win_eq_off d L fO k.val 0 hk200 lt4_0 (cV L) (jV L) (k0_off5 L k 0#32) (Gen.k0_off5_inb L k 0) (off5_0 L k)).symm) $$ Ho0
  ihave Ho1' := (Entails.of_eq (Win_eq_off d L fO k.val 1 hk200 lt4_1 (cV L) (jV L) (k0_off5 L k 128#32) (Gen.k0_off5_inb L k 1) (off5_1 L k)).symm) $$ Ho1
  ihave Ho2' := (Entails.of_eq (Win_eq_off d L fO k.val 2 hk200 lt4_2 (cV L) (jV L) (k0_off5 L k 256#32) (Gen.k0_off5_inb L k 2) (off5_2 L k)).symm) $$ Ho2
  ihave Ho3' := (Entails.of_eq (Win_eq_off d L fO k.val 3 hk200 lt4_3 (cV L) (jV L) (k0_off5 L k 384#32) (Gen.k0_off5_inb L k 3) (off5_3 L k)).symm) $$ Ho3
  sl_exec
  sl_unfold_run_names
  sl_step
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [HFg0_dst_and HFg1_dst_and HFg2_dst_and HFi3_dst HFg0_dst HFg1_dst HFg2_dst Hx0 Hx1 Hx2 Hx3r Ht0r Ht1r Ht2r Ht3 Hc0 Hc1 Hc2 HFi3 HFg0 HFg1 HFg2 Hc7]
  · isplitl [HFg0_dst_and]; · iexists _; iexact HFg0_dst_and
    isplitl [HFg1_dst_and]; · iexists _; iexact HFg1_dst_and
    isplitl [HFg2_dst_and]; · iexists _; iexact HFg2_dst_and
    isplitl [HFi3_dst]; · iexists _; iexact HFi3_dst
    isplitl [HFg0_dst]; · iexists _; iexact HFg0_dst
    isplitl [HFg1_dst]; · iexists _; iexact HFg1_dst
    isplitl [HFg2_dst]; · iexists _; iexact HFg2_dst
    isplitl [Hx0]; · iexact Hx0
    isplitl [Hx1]; · iexact Hx1
    isplitl [Hx2]; · iexact Hx2
    isplitl [Hx3r]; · iexact Hx3r
    isplitl [Ht0r]; · iexact Ht0r
    isplitl [Ht1r]; · iexact Ht1r
    isplitl [Ht2r]; · iexact Ht2r
    isplitl [Ht3]; · iexact Ht3
    isplitl [Hc0]; · iexact Hc0
    isplitl [Hc1]; · iexact Hc1
    isplitl [Hc2]; · iexact Hc2
    isplitl [HFi3]; · iexact HFi3
    isplitl [HFg0]; · iexact HFg0
    isplitl [HFg1]; · iexact HFg1
    isplitl [HFg2]; · iexact HFg2
    iexact Hc7
  icases HFs3_src with -
  isplitl [HFs3]
  · iexists _
    istop
    exact sep_elim_right.trans (Transfers.Flight_mono countersEmb (thr d L) (ent_store3 d L fX fT fO (k0_off5 L k 384#32) _ _ (k.val + 1 - 1) (by omega)
      (by rw [Nat.add_sub_cancel]; exact off5_3 L k)
      (land_gather_3 (F := F) fX fT L _ _ (by decide) (hinC3 _ _) (k.val + 1 - 1) 3 (by rw [Nat.add_sub_cancel]))))
  isplitl [Hc8]; · iexact Hc8
  isplitl [Hc9]; · iexact Hc9
  isplitl [Hc10]; · iexact Hc10
  isplitl [HD Ho0' Ho1' Ho2']
  · rw [Finset.range_add_one, Rows_insert d L _ Finset.notMem_range_self]
    isplitr [HD]
    · isplitl [Ho0']; · iapply (Entails.of_eq (Win_land_0 d L fX fT fO (k0_off5 L k 0#32) _ _ k.val 0 hk200 lt4_0 (off5_0 L k) rfl (cV L) (jV L))) $$ Ho0'
      isplitl [Ho1']; · iapply (Entails.of_eq (Win_land_1 d L fX fT fO (k0_off5 L k 128#32) _ _ k.val 1 hk200 lt4_1 (off5_1 L k) rfl (cV L) (jV L))) $$ Ho1'
      iapply (Entails.of_eq (Win_land_2 d L fX fT fO (k0_off5 L k 256#32) _ _ k.val 2 hk200 lt4_2 (off5_2 L k) rfl (cV L) (jV L))) $$ Ho2'
    · iexact HD
  isplitl [HD3 HFs3_dst]
  · rw [show Finset.range (k.val + 1 - 1) = insert (k.val - 1) (Finset.range (k.val - 1)) from by
        rw [Nat.add_sub_cancel]; conv_lhs => rw [show k.val = k.val - 1 + 1 by omega, Finset.range_add_one],
      Rows3_insert d L _ Finset.notMem_range_self]
    isplitl [HFs3_dst]
    · iapply (Entails.of_eq (Win_eq d L (GKf d fX fT) (k.val - 1) 3 (by omega) lt4_3 (cV L) (jV L))) $$ HFs3_dst
    · iexact HD3
  isplitl [HU]; · iexact HU
  iexact HU3

end Tile

end Cert.Proof.KI

end
-- ==== Proof.BodyKI.lean ====
/-
  One tile's task of the lookup kernel, whole: the ring's start-up (four list copies, three gathers), the loop over the 200 rows by its invariant, the last copy-out's wait.
-/
import proofs.«206412_g41506563948974_cont_8to1_b_738_25_alg».proof.Proof.InvKI
import proofs.«206412_g41506563948974_cont_8to1_b_738_25_alg».proof.Proof.TripFirstKI
import proofs.«206412_g41506563948974_cont_8to1_b_738_25_alg».proof.Proof.TripMidKI
import proofs.«206412_g41506563948974_cont_8to1_b_738_25_alg».proof.Proof.TripLastKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

section Tile

variable (d : Dev nD) (L : grid0.Coords)
variable [FloatOps F]
variable (O : CellTallies nD τ sig (HIx 1)) (W : Waits sig (HIx 1))
variable (fX : Buf (Elt F) (xLoc d)) (fT : Buf (Elt F) (tLoc d)) (fO : Buf (Elt F) (oLoc d)) (qx qt : PosShare TreeShare)

omit [FloatOps F] in
theorem bigSep_range4 (Φ : ℕ → sProp 𝕄) : bigSep (Finset.range 4) Φ = iprop(Φ 0 ∗ Φ 1 ∗ Φ 2 ∗ Φ 3) := by
  rw [show Finset.range 4 = {0, 1, 2, 3} by decide, SparseCore.bigSep_insert' (by decide), SparseCore.bigSep_insert' (by decide),
    SparseCore.bigSep_insert' (by decide), bigSep_singleton]
omit [FloatOps F] in
theorem bigSep_range8 (Φ : ℕ → sProp 𝕄) : bigSep (Finset.range 8) Φ = iprop(Φ 0 ∗ Φ 1 ∗ Φ 2 ∗ Φ 3 ∗ Φ 4 ∗ Φ 5 ∗ Φ 6 ∗ Φ 7) := by
  rw [show Finset.range 8 = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- A read share of `xT` is what remains after four read tokens, and the four tokens. -/
theorem x_toks : (xLoc d ↦{qx} fX : sProp 𝕄) ⊣⊢ iprop((xLoc d ↦{Transfers.shareDrop qx 4} fX)
    ∗ (xLoc d ↦{Transfers.shareTokN qx 0} fX) ∗ (xLoc d ↦{Transfers.shareTokN qx 1} fX) ∗ (xLoc d ↦{Transfers.shareTokN qx 2} fX) ∗ (xLoc d ↦{Transfers.shareTokN qx 3} fX)) := by
  rw [← bigSep_range4 (F := F) (fun i => (xLoc d ↦{Transfers.shareTokN qx i} fX : sProp 𝕄))]
  exact Transfers.pointsTo_toks_range qx 4
omit [FloatOps F] in
/-- A read share of the padded table is what remains after eight read tokens, and the eight tokens. -/
theorem t_toks : (tLoc d ↦{qt} fT : sProp 𝕄) ⊣⊢ iprop((tLoc d ↦{Transfers.shareDrop qt 8} fT)
    ∗ (tLoc d ↦{Transfers.shareTokN qt 0} fT) ∗ (tLoc d ↦{Transfers.shareTokN qt 1} fT) ∗ (tLoc d ↦{Transfers.shareTokN qt 2} fT) ∗ (tLoc d ↦{Transfers.shareTokN qt 3} fT)
    ∗ (tLoc d ↦{Transfers.shareTokN qt 4} fT) ∗ (tLoc d ↦{Transfers.shareTokN qt 5} fT) ∗ (tLoc d ↦{Transfers.shareTokN qt 6} fT) ∗ (tLoc d ↦{Transfers.shareTokN qt 7} fT)) := by
  rw [← bigSep_range8 (F := F) (fun i => (tLoc d ↦{Transfers.shareTokN qt i} fT : sProp 𝕄))]
  exact Transfers.pointsTo_toks_range qt 8

set_option maxHeartbeats 16000000 in
/-- The tile's task on vector subcore `(L 0, L 1)` of device `d`: from read shares of `xT` and of the padded table and the
    tile's columns of `out` at their earlier contents, to the same shares and the tile's columns of `out` at the looked-up
    rows `GK xT tb`; the scratch buffers and semaphores handed back. -/
theorem tile_body (hF : (K (F := F)).Facts) (hX : ∀ j, (fX j).toNat < 1000000) (hO : ∀ g, O g none = 0) :
    iprop(levAts (K (F := F)).L (K (F := F)).lev ∗ emp
        ∗ (((xLoc d ↦{qx} fX : sProp 𝕄)) ∗ (tLoc d ↦{qt} fT) ∗ Rows d L fO (Finset.range 200) ∗ Rows3 d L fO (Finset.range 200))
        ∗ scopedBufs (thr d L) ∗ scopedSems0 (thr d L) ∗ owes (thr d L) O W)
      ⊢ wp frame (wpE (defs₀ (F := F)) 𝒱₀ (thr d L) none) Set.univ
          (cc0_k L tV (Memref.isWhole_whole _) xV (Memref.isWhole_whole _) oV (Memref.isWhole_whole _)
            i0V (Memref.isWhole_whole _) i1V (Memref.isWhole_whole _) i2V (Memref.isWhole_whole _) i3V (Memref.isWhole_whole _)
            p0V (Memref.isWhole_whole _) p1V (Memref.isWhole_whole _) p2V (Memref.isWhole_whole _) p3V (Memref.isWhole_whole _)
            cc0_scratch8 cc0_scratch9 cc0_scratch10 cc0_scratch11 cc0_scratch12 cc0_scratch13 cc0_scratch14 cc0_scratch15
            cc0_scratch16 cc0_scratch17 cc0_scratch18 cc0_scratch19)
          fun _ => iprop(((xLoc d ↦{qx} fX) ∗ (tLoc d ↦{qt} fT) ∗ Rows d L (GKf d fX fT) (Finset.range 200) ∗ Rows3 d L (GKf d fX fT) (Finset.range 200))
            ∗ scopedBufs (thr d L) ∗ scopedSems0 (thr d L)
            ∗ ∃ W', ⌜∀ p ∈ W', p ∈ W ∨ p.2 = none⌝ ∗ owes (thr d L) O W') := by
  have hin0 := hin_0 (F := F) fX hX
  have hin1 := hin_1 (F := F) fX hX
  have hin2 := hin_2 (F := F) fX hX
  have hin3 := hin_3 (F := F) fX hX
  have hinC0 := hinC_0 (F := F) fX hX L
  have hinC1 := hinC_1 (F := F) fX hX L
  have hinC2 := hinC_2 (F := F) fX hX L
  have hinC3 := hinC_3 (F := F) fX hX L
  simp only [cc0_k_eq_skeleton]; unfold cc0_k_skel
  rw [(K (F := F)).scopedBufs_V hF d (cV L) (jV L), SparseCore.Cfg.scopedSems0_V (Val := Elt F) d (cV L) (jV L), ownSems0_cells, ownBufs_scr]
  iintro ⟨#Hlv, -, ⟨Hx, Ht, HR, HR3⟩, ⟨⟨⟨%f0, Hi0⟩, ⟨%f1, Hi1⟩, ⟨%f2, Hi2⟩, ⟨%f3, Hi3⟩, ⟨%g0, Hp0⟩, ⟨%g1, Hp1⟩, ⟨%g2, Hp2⟩, ⟨%g3, Hp3⟩⟩, Hbufs⟩, ⟨⟨Hs0, Hs1, Hs2, Hs3, Hs4, Hs5, Hs6, Hs7, Hs8, Hs9, Hs10, Hs11⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hxs := (x_toks (F := F) d fX qx).1 $$ Hx
  icases Hxs with ⟨Hxrem, Hx0, Hx1, Hx2, Hx3⟩
  ihave Hts := (t_toks (F := F) d fT qt).1 $$ Ht
  icases Hts with ⟨Htrem, Htu0, Htu1, Htu2, Htu3, Ht4, Ht5, Ht6, Ht7⟩
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Ht4' := (Entails.of_eq (pts_t (F := F) d L _ _).symm) $$ Ht4
  ihave Ht5' := (Entails.of_eq (pts_t (F := F) d L _ _).symm) $$ Ht5
  ihave Ht6' := (Entails.of_eq (pts_t (F := F) d L _ _).symm) $$ Ht6
  ihave Ht7' := (Entails.of_eq (pts_t (F := F) d L _ _).symm) $$ Ht7
  ihave Hi0' := (Entails.of_eq (pts_s0 (F := F) d L _).symm) $$ Hi0
  ihave Hi1' := (Entails.of_eq (pts_s1 (F := F) d L _).symm) $$ Hi1
  ihave Hi2' := (Entails.of_eq (pts_s2 (F := F) d L _).symm) $$ Hi2
  ihave Hi3' := (Entails.of_eq (pts_s3 (F := F) d L _).symm) $$ Hi3
  ihave Hp0' := (Entails.of_eq (pts_s4 (F := F) d L _).symm) $$ Hp0
  ihave Hp1' := (Entails.of_eq (pts_s5 (F := F) d L _).symm) $$ Hp1
  ihave Hp2' := (Entails.of_eq (pts_s6 (F := F) d L _).symm) $$ Hp2
  ihave Hp3' := (Entails.of_eq (pts_s7 (F := F) d L _).symm) $$ Hp3
  ihave Hc0 := (Entails.of_eq (cell_0 (F := F) d L 0).symm) $$ Hs0
  ihave Hc1 := (Entails.of_eq (cell_1 (F := F) d L 0).symm) $$ Hs1
  ihave Hc2 := (Entails.of_eq (cell_2 (F := F) d L 0).symm) $$ Hs2
  ihave Hc3 := (Entails.of_eq (cell_3 (F := F) d L 0).symm) $$ Hs3
  ihave Hc4 := (Entails.of_eq (cell_4 (F := F) d L 0).symm) $$ Hs4
  ihave Hc5 := (Entails.of_eq (cell_5 (F := F) d L 0).symm) $$ Hs5
  ihave Hc6 := (Entails.of_eq (cell_6 (F := F) d L 0).symm) $$ Hs6
  ihave Hc7 := (Entails.of_eq (cell_7 (F := F) d L 0).symm) $$ Hs7
  ihave Hc8 := (Entails.of_eq (cell_8 (F := F) d L 0).symm) $$ Hs8
  ihave Hc9 := (Entails.of_eq (cell_9 (F := F) d L 0).symm) $$ Hs9
  ihave Hc10 := (Entails.of_eq (cell_10 (F := F) d L 0).symm) $$ Hs10
  ihave Hc11 := (Entails.of_eq (cell_11 (F := F) d L 0).symm) $$ Hs11
  sl_exec
  sl_for (Inv d L O W fX fT fO qx qt) $$ [Hmw HO Hc3 Hx3' Hx0' Hx1' Hx2' Hc4 Ht4' Hc5 Ht5' Hc6 Ht6' Ht7' Hc0 Hc1 Hc2 Hc7 Hp3' Hc11 Hc8 Hc9 Hc10 HR HR3]
  case region =>
    intro k acc
    cases acc
    rcases Nat.eq_zero_or_pos k.val with hk0 | hkpos
    · exact trip_first d L O W fX fT fO qx qt hX _ k hk0
    · by_cases hk2 : k.val < 199
      · exact trip_mid d L O W fX fT fO qx qt hX _ k hkpos hk2
      · exact trip_last d L O W fX fT fO qx qt hX _ k (by
        have hlt := k.isLt
        have ht : Scf.trips k0_t1_loop.lb k0_t1_loop.ub k0_t1_loop.st = 200 := trips_eq
        omega)
  · sl_unfold_run_names
    unfold Inv Live St3
    rw [dif_pos (show (0 : ℕ) < 200 by decide), dif_neg (show ¬ ((0 : ℕ) < 0 ∧ 0 ≤ 200) by omega)]
    unfold FI3 FG0 FG1 FG2 TX0 TX1 TX2 TT3 CZ0 CZ1 CZ2 CZ7 CZ8 CZ9 CZ10 CZ11 PB3
    isplitr; · iexact Hmw
    isplitl [HO]
    · iexists _; isplitr
      swap; · iexact HO
      ipureintro; intro p hp
      repeat (rcases Finset.mem_insert.mp hp with hp | hp; · exact .inr (hp ▸ rfl))
      exact .inl hp
    isplitl [Hc3 Hx3' Hx0' Hx1' Hx2' Hc4 Ht4' Hc5 Ht5' Hc6 Ht6' Ht7' Hc0 Hc1 Hc2 Hc7]
    · isplitl [Hc3 Hx3']
      · isplitl [Hc3]
        · istop
          exact sep_elim_right.trans (Transfers.Flight_mono countersEmb (thr d L) (ent_idx3 d L fX (tokx qx 3) _ (k0_off1 L 384#32) _ 0 3 (by decide) lt4_3 (off1_3 L)))
        · iapply (ent_xrest d L fX (tokx qx 3) (k0_off1 L 384#32) _ 0 3 (by decide) lt4_3 (off1_3 L)) $$ Hx3'
      isplitl [Hx0']; · iexact Hx0'
      isplitl [Hx1']; · iexact Hx1'
      isplitl [Hx2']; · iexact Hx2'
      isplitl [Hc4 Ht4']
      · isplitl [Hc4]
        · istop
          exact sep_elim_right.trans (Transfers.Flight_mono countersEmb (thr d L) (ent_gather0 d L fX fT (tokt qt 0) _ _ (by decide) (hin0 _ _ _) 0 0
            (land_idx_0 (F := F) fX L _ (k0_off1 L 0#32) _ 0 0 (by decide) lt4_0 (off1_0 L))))
        · iexact Ht4'
      isplitl [Hc5 Ht5']
      · isplitl [Hc5]
        · istop
          exact sep_elim_right.trans (Transfers.Flight_mono countersEmb (thr d L) (ent_gather1 d L fX fT (tokt qt 1) _ _ (by decide) (hin1 _ _ _) 0 1
            (land_idx_1 (F := F) fX L _ (k0_off1 L 128#32) _ 0 1 (by decide) lt4_1 (off1_1 L))))
        · iexact Ht5'
      isplitl [Hc6 Ht6']
      · isplitl [Hc6]
        · istop
          exact sep_elim_right.trans (Transfers.Flight_mono countersEmb (thr d L) (ent_gather2 d L fX fT (tokt qt 2) _ _ (by decide) (hin2 _ _ _) 0 2
            (land_idx_2 (F := F) fX L _ (k0_off1 L 256#32) _ 0 2 (by decide) lt4_2 (off1_2 L))))
        · iexact Ht6'
      isplitl [Ht7']; · iexact Ht7'
      isplitl [Hc0]; · iexact Hc0
      isplitl [Hc1]; · iexact Hc1
      isplitl [Hc2]; · iexact Hc2
      iexact Hc7
    isplitl [Hp3' Hc11]
    · isplitl [Hp3']; · iexists _; iexact Hp3'
      iexact Hc11
    isplitl [Hc8]; · iexact Hc8
    isplitl [Hc9]; · iexact Hc9
    isplitl [Hc10]; · iexact Hc10
    rw [Finset.range_zero, Rows_empty, Rows3_empty, ← Finset.range_eq_Ico]
    isplitr [HR HR3]; · iempintro
    isplitr [HR HR3]; · iempintro
    isplitl [HR]; · iexact HR
    iexact HR3
  iintro %acc HI
  rw [show Scf.trips k0_t1_loop.lb k0_t1_loop.ub k0_t1_loop.st = 200 from trips_eq]
  unfold Inv Live St3
  rw [dif_neg (show ¬ (200 : ℕ) < 200 by decide), dif_pos (show 0 < (200 : ℕ) ∧ (200 : ℕ) ≤ 200 by decide)]
  unfold FS3 TX0 TX1 TX2 TX3 TT0 TT1 TT2 TT3 CZ0 CZ1 CZ2 CZ3 CZ4 CZ5 CZ6 CZ7 CZ8 CZ9 CZ10 IB0 IB1 IB2 IB3 PB0 PB1 PB2
  icases HI with ⟨-, ⟨%W', %hW', HO⟩, ⟨⟨%a0, Hi0⟩, ⟨%a1, Hi1⟩, ⟨%a2, Hi2⟩, ⟨%a3, Hi3⟩, ⟨%b0, Hp0⟩, ⟨%b1, Hp1⟩, ⟨%b2, Hp2⟩, Hx0, Hx1, Hx2, Hx3, Ht0, Ht1, Ht2, Ht3, Hc0, Hc1, Hc2, Hc3, Hc4, Hc5, Hc6, Hc7⟩, ⟨%gp3, HFs3⟩, Hc8, Hc9, Hc10, HD, HD3, HU, HU3⟩
  sl_exec
  sl_step
  isplitl [Hxrem Hx0 Hx1 Hx2 Hx3 Htrem Htu0 Htu1 Htu2 Htu3 Ht0 Ht1 Ht2 Ht3 HD HD3 HFs3_dst]
  · isplitl [Hxrem Hx0 Hx1 Hx2 Hx3]
    · iapply (x_toks (F := F) d fX qx).2
      isplitl [Hxrem]; · iexact Hxrem
      isplitl [Hx0]; · iexact Hx0
      isplitl [Hx1]; · iexact Hx1
      isplitl [Hx2]; · iexact Hx2
      iexact Hx3
    isplitl [Htrem Htu0 Htu1 Htu2 Htu3 Ht0 Ht1 Ht2 Ht3]
    · iapply (t_toks (F := F) d fT qt).2
      isplitl [Htrem]; · iexact Htrem
      isplitl [Htu0]; · iexact Htu0
      isplitl [Htu1]; · iexact Htu1
      isplitl [Htu2]; · iexact Htu2
      isplitl [Htu3]; · iexact Htu3
      isplitl [Ht0]; · iexact Ht0
      isplitl [Ht1]; · iexact Ht1
      isplitl [Ht2]; · iexact Ht2
      iexact Ht3
    isplitl [HD]; · iexact HD
    rw [show Finset.range 200 = insert 199 (Finset.range 199) from Finset.range_add_one, Rows3_insert d L _ Finset.notMem_range_self]
    isplitl [HFs3_dst]
    · iapply (Entails.of_eq (Win_eq d L (GKf d fX fT) (200 - 1) 3 (by decide) lt4_3 (cV L) (jV L))) $$ HFs3_dst
    · iexact HD3
  isplitl [Hi0 Hi1 Hi2 Hi3 Hp0 Hp1 Hp2 HFs3_src Hbufs]
  · isplitl [Hi0 Hi1 Hi2 Hi3 Hp0 Hp1 Hp2 HFs3_src]
    · isplitl [Hi0]; · iexists _; iexact Hi0
      isplitl [Hi1]; · iexists _; iexact Hi1
      isplitl [Hi2]; · iexists _; iexact Hi2
      isplitl [Hi3]; · iexists _; iexact Hi3
      isplitl [Hp0]; · iexists _; iexact Hp0
      isplitl [Hp1]; · iexists _; iexact Hp1
      isplitl [Hp2]; · iexists _; iexact Hp2
      iexists _; iexact HFs3_src
    · iexact Hbufs
  isplitl [Hc0 Hc1 Hc2 Hc3 Hc4 Hc5 Hc6 Hc7 Hc8 Hc9 Hc10 HFs3 Hsems]
  · isplitl [Hc0 Hc1 Hc2 Hc3 Hc4 Hc5 Hc6 Hc7 Hc8 Hc9 Hc10 HFs3]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact HFs3
    · iexact Hsems
  icases HU with -
  icases HU3 with -
  iexists _; isplitr
  swap; · iexact HO
  ipureintro; intro p hp
  repeat (rcases Finset.mem_insert.mp hp with hp | hp; · exact .inr (hp ▸ rfl))
  exact hW' p hp

end Tile

end Cert.Proof.KI

end
-- ==== Proof.LaunchHostKI.lean ====
/-
  The host operations of the kernel program around its SparseCore call, as valuations of the TensorCore's twelve
  arrays. Before the call: the index array is transposed, the constant 0 is made and converted to a float, the table is
  padded with it to 128 lanes; the staging array is untouched. After the call the staging array holds the looked-up rows;
  then its first 64 lanes are cut out, its two leading axes swapped back, and every entry multiplied by the broadcast
  constant. Each array's contents at each stage is the corresponding pure term of the launch contents of the two
  arguments: `XT` (the transposed indices), `TB` (the padded table), `GKo` (the looked-up rows), `RES` (the result).
-/
import proofs.«206412_g41506563948974_cont_8to1_b_738_25_alg».proof.Proof.OutSplitKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-- The two arguments' and the result's buffers on device `d`. -/
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v6

variable [FloatOps F]

/-- The transposed index array: what the call reads as `xT`. -/
abbrev XT (d : Dev nD) : Buf (Elt F) (xLoc d) :=
  transpose S200x16384 [1, 0] (m (aLoc d)) transposes_S16384x200_S200x16384_1_0
/-- The table padded to 128 lanes with the converted constant 0: what the call reads as `tb`. -/
abbrev TB (d : Dev nD) : Buf (Elt F) (tLoc d) :=
  pad S1000000x128 ![0, 0] ![0, 64] ![0, 0] (m (bLoc d)) (sitofp .f32 (constantI S_ 32 0#32)) pads_S1000000x64_S1000000x128_000_0640 h_S_
/-- The looked-up rows: what the call leaves in the staging array. -/
abbrev GKo (d : Dev nD) : Buf (Elt F) (oLoc d) := Cert.Lookup.GK (F := F) (XT m d) (TB m d)
/-- The program's result: the first 64 lanes of the looked-up rows, the leading axes swapped back, times the constant. -/
abbrev RES (d : Dev nD) : Buf (Elt F) (rLoc d) :=
  mulf (transpose S16384x200x64 [1, 0, 2] (extractStridedSlice S200x16384x64 ![0, 0, 0] (Cert.Lookup.GK (F := F) (XT m d) (TB m d))
      slices_S200x16384x128_S200x16384x64_0_0_0) transposes_S200x16384x64_S16384x200x64_1_0_2)
    (broadcastInDim S16384x200x64 ![] bcast_S_S16384x200x64 (constant S_ .f32 0x41000000#32))

/-! ## The twelve arrays and the nine operations -/

abbrev a' : DevRef τ sig := Proc.devRef .tc (main_arg0 : Ref sig .tc)
abbrev b' : DevRef τ sig := Proc.devRef .tc (main_arg1 : Ref sig .tc)
abbrev v0' : DevRef τ sig := Proc.devRef .tc (main_v0 : Ref sig .tc)
abbrev c' : DevRef τ sig := Proc.devRef .tc (main_c : Ref sig .tc)
abbrev cv0' : DevRef τ sig := Proc.devRef .tc (main_call0_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)
abbrev v6' : DevRef τ sig := Proc.devRef .tc (main_v6 : Ref sig .tc)

abbrev op1 : HloOp τ sig (Elt F) := StableHlo.unary main_arg0 main_v0 ((transpose S200x16384 [1, 0] · transposes_S16384x200_S200x16384_1_0) : (⟨S16384x200, .i32⟩ : BufTy).Contents (Elt F) → (⟨S200x16384, .i32⟩ : BufTy).Contents (Elt F))
abbrev op2 : HloOp τ sig (Elt F) := StableHlo.nullary main_c (constantI S_ 32 0#32)
abbrev op3 : HloOp τ sig (Elt F) := StableHlo.unary main_c main_call0_v0 (sitofp .f32 : (⟨S_, .i32⟩ : BufTy).Contents (Elt F) → (⟨S_, .f32⟩ : BufTy).Contents (Elt F))
abbrev op4 : HloOp τ sig (Elt F) := StableHlo.binary main_arg1 main_call0_v0 main_v1 ((fun x v => pad S1000000x128 ![0, 0] ![0, 64] ![0, 0] x v pads_S1000000x64_S1000000x128_000_0640 h_S_) : (⟨S1000000x64, .f32⟩ : BufTy).Contents (Elt F) → (⟨S_, .f32⟩ : BufTy).Contents (Elt F) → (⟨S1000000x128, .f32⟩ : BufTy).Contents (Elt F))
/-- The padding function's two operations as the program spells them, over typed references to the call's buffers, are these. -/
theorem op3_tref : (StableHlo.TRef.unary (.of main_c : StableHlo.TRef sig ⟨S_, .i32⟩) main_call0.v0 (sitofp .f32) : HloOp τ sig (Elt F)) = op3 := rfl
theorem op4_tref : (StableHlo.TRef.binary (.of main_arg1 : StableHlo.TRef sig ⟨S1000000x64, .f32⟩) main_call0.v0 main_call0.v1
    (fun x v => pad S1000000x128 ![0, 0] ![0, 64] ![0, 0] x v pads_S1000000x64_S1000000x128_000_0640 h_S_) : HloOp τ sig (Elt F)) = op4 := rfl
abbrev op5 : HloOp τ sig (Elt F) := StableHlo.unary main_v2 main_v3 ((extractStridedSlice S200x16384x64 ![0, 0, 0] · slices_S200x16384x128_S200x16384x64_0_0_0) : (⟨S200x16384x128, .f32⟩ : BufTy).Contents (Elt F) → (⟨S200x16384x64, .f32⟩ : BufTy).Contents (Elt F))
abbrev op6 : HloOp τ sig (Elt F) := StableHlo.unary main_v3 main_v4 ((transpose S16384x200x64 [1, 0, 2] · transposes_S200x16384x64_S16384x200x64_1_0_2) : (⟨S200x16384x64, .f32⟩ : BufTy).Contents (Elt F) → (⟨S16384x200x64, .f32⟩ : BufTy).Contents (Elt F))
abbrev op7 : HloOp τ sig (Elt F) := StableHlo.nullary main_cst (constant S_ .f32 0x41000000#32)
abbrev op8 : HloOp τ sig (Elt F) := StableHlo.unary main_cst main_v5 (broadcastInDim S16384x200x64 ![] bcast_S_S16384x200x64 : (⟨S_, .f32⟩ : BufTy).Contents (Elt F) → (⟨S16384x200x64, .f32⟩ : BufTy).Contents (Elt F))
abbrev op9 : HloOp τ sig (Elt F) := StableHlo.binary main_v4 main_v5 main_v6 (mulf : (⟨S16384x200x64, .f32⟩ : BufTy).Contents (Elt F) → (⟨S16384x200x64, .f32⟩ : BufTy).Contents (Elt F) → (⟨S16384x200x64, .f32⟩ : BufTy).Contents (Elt F))

/-- The TensorCore's arrays, all unscoped. -/
abbrev S12 : Finset (DevRef τ sig) := {a', b', v0', c', cv0', v1', v2', v3', v4', cst', v5', v6'}
/-- The three the call touches, and the three the claim speaks of. -/
abbrev T3 : Finset (DevRef τ sig) := {v0', v1', v2'}
abbrev TF : Finset (DevRef τ sig) := {a', b', v6'}

theorem hOp1 : (op1 (F := F)).bufs ⊆ S12 := show ({a', v0'} : Finset (DevRef τ sig)) ⊆ S12 by decide
theorem hOp2 : (op2 (F := F)).bufs ⊆ S12 := show ({c'} : Finset (DevRef τ sig)) ⊆ S12 by decide
theorem hOp3 : (op3 (F := F)).bufs ⊆ S12 := show ({c', cv0'} : Finset (DevRef τ sig)) ⊆ S12 by decide
theorem hOp4 : (op4 (F := F)).bufs ⊆ S12 := show ({b', cv0', v1'} : Finset (DevRef τ sig)) ⊆ S12 by decide
theorem hOp5 : (op5 (F := F)).bufs ⊆ S12 := show ({v2', v3'} : Finset (DevRef τ sig)) ⊆ S12 by decide
theorem hOp6 : (op6 (F := F)).bufs ⊆ S12 := show ({v3', v4'} : Finset (DevRef τ sig)) ⊆ S12 by decide
theorem hOp7 : (op7 (F := F)).bufs ⊆ S12 := show ({cst'} : Finset (DevRef τ sig)) ⊆ S12 by decide
theorem hOp8 : (op8 (F := F)).bufs ⊆ S12 := show ({cst', v5'} : Finset (DevRef τ sig)) ⊆ S12 by decide
theorem hOp9 : (op9 (F := F)).bufs ⊆ S12 := show ({v4', v5', v6'} : Finset (DevRef τ sig)) ⊆ S12 by decide
theorem hT3 : T3 ⊆ S12 := by decide
theorem hTF : TF ⊆ S12 := by decide

omit [FloatOps F] in
theorem held_T3 (d : Dev nD) (W : Valuation τ sig (Elt F)) :
    (held (T d) T3 W : sProp 𝕄) = iprop((xLoc d ↦{fullShare} W v0') ∗ (tLoc d ↦{fullShare} W v1') ∗ (oLoc d ↦{fullShare} W v2')) := by
  unfold held T3
  rw [SparseCore.bigSep_insert' (by decide), SparseCore.bigSep_insert' (by decide), bigSep_singleton]

omit [FloatOps F] in
theorem held_TF (d : Dev nD) (W : Valuation τ sig (Elt F)) :
    (held (T d) TF W : sProp 𝕄) = iprop((aLoc d ↦{fullShare} W a') ∗ (bLoc d ↦{fullShare} W b') ∗ (rLoc d ↦{fullShare} W v6')) := by
  unfold held TF
  rw [SparseCore.bigSep_insert' (by decide), SparseCore.bigSep_insert' (by decide), bigSep_singleton]

/-- The launch valuation. -/
def V0 (d : Dev nD) : Valuation τ sig (Elt F) := fun b => m (d, b)
/-- Before the call: the four operations' results. -/
def V4 (d : Dev nD) : Valuation τ sig (Elt F) :=
  (op4 (F := F)).result ((op3 (F := F)).result ((op2 (F := F)).result ((op1 (F := F)).result (V0 m d))))
/-- After the call: the staging array at the looked-up rows. -/
def V5 (d : Dev nD) : Valuation τ sig (Elt F) := Function.update (V4 m d) v2' (GKo m d)
/-- At the end: the five operations' results. -/
def V10 (d : Dev nD) : Valuation τ sig (Elt F) :=
  (op9 (F := F)).result ((op8 (F := F)).result ((op7 (F := F)).result ((op6 (F := F)).result ((op5 (F := F)).result (V5 m d)))))

omit [FloatOps F] in
theorem unscoped_held (d : Dev nD) : (unscopedBufs d (fun b => m ((SparseCore.T d).loc b)) : sProp 𝕄) = held (T d) S12 (V0 m d) := by
  unfold unscopedBufs held S12
  rw [show (Finset.univ.filter fun b : Ref sig .tc => ¬ b.isScoped)
      = {main_arg0, main_arg1, main_v0, main_c, main_call0_v0, main_v1, main_v2, main_v3, main_v4, main_cst, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The contents at the call and at the end -/

set_option maxRecDepth 8192 in
theorem V4_v0 (d : Dev nD) : V4 m d v0' = XT m d := rfl
set_option maxRecDepth 8192 in
theorem V4_v1 (d : Dev nD) : V4 m d v1' = TB m d := rfl
set_option maxRecDepth 8192 in
theorem V4_v2 (d : Dev nD) : V4 m d v2' = m (oLoc d) := rfl
set_option maxRecDepth 8192 in
theorem V10_a (d : Dev nD) : V10 m d a' = m (aLoc d) := rfl
set_option maxRecDepth 8192 in
theorem V10_b (d : Dev nD) : V10 m d b' = m (bLoc d) := rfl
set_option maxRecDepth 8192 in
theorem V10_v6 (d : Dev nD) : V10 m d v6' = RES m d := rfl

/-! ## The arrays at the call, after it, and at the end -/

theorem held_call (d : Dev nD) :
    (held (T d) S12 (V4 m d) : sProp 𝕄)
      = iprop(((xLoc d ↦{fullShare} XT m d) ∗ (tLoc d ↦{fullShare} TB m d) ∗ (oLoc d ↦{fullShare} m (oLoc d))) ∗ held (T d) (S12 \ T3) (V4 m d)) := by
  rw [held_sub_split (T d) hT3, held_T3, V4_v0, V4_v1, V4_v2]

theorem held_after (d : Dev nD) :
    (held (T d) S12 (V5 m d) : sProp 𝕄)
      = iprop(((xLoc d ↦{fullShare} XT m d) ∗ (tLoc d ↦{fullShare} TB m d) ∗ (oLoc d ↦{fullShare} GKo m d)) ∗ held (T d) (S12 \ T3) (V4 m d)) := by
  have e0 : V5 m d v0' = XT m d := (Function.update_of_ne (show v0' ≠ v2' by decide) _ _).trans (V4_v0 m d)
  have e1 : V5 m d v1' = TB m d := (Function.update_of_ne (show v1' ≠ v2' by decide) _ _).trans (V4_v1 m d)
  have e2 : V5 m d v2' = GKo m d := Function.update_self _ _ _
  have er : (held (T d) (S12 \ T3) (V5 m d) : sProp 𝕄) = held (T d) (S12 \ T3) (V4 m d) := bigSep_congr fun b hb => by
    have hne : b ≠ v2' := fun e => (Finset.mem_sdiff.mp hb).2 (by rw [e]; decide)
    rw [show V5 m d b = V4 m d b from Function.update_of_ne hne _ _]
  rw [held_sub_split (T d) hT3, held_T3, e0, e1, e2, er]

theorem held_end (d : Dev nD) :
    (held (T d) S12 (V10 m d) : sProp 𝕄)
      = iprop(((aLoc d ↦{fullShare} m (aLoc d)) ∗ (bLoc d ↦{fullShare} m (bLoc d)) ∗ (rLoc d ↦{fullShare} RES m d)) ∗ held (T d) (S12 \ TF) (V10 m d)) := by
  rw [held_sub_split (T d) hTF, held_TF, V10_a, V10_b, V10_v6]

end Cert.Proof.KI

end
-- ==== Proof.LaunchKI.lean ====
/-
  The launch of the kernel program over its threads. On each device the TensorCore runs the host operations and the one
  SparseCore call; the call hands each of the two SparseCores a read share of the transposed index array and of the
  padded table and its sixteen tiles' columns of the staging array, and each SparseCore hands each tile a read share of
  both and the tile's own columns; every tile fills its columns with the looked-up rows and hands everything back. So
  after the call the staging array holds the looked-up rows everywhere, and the host operations after it compute the
  result from it: the first 64 lanes, the leading axes swapped back, times the constant. The two arguments end unchanged.
-/
import proofs.«206412_g41506563948974_cont_8to1_b_738_25_alg».proof.Proof.BodyKI
import proofs.«206412_g41506563948974_cont_8to1_b_738_25_alg».proof.Proof.LaunchHostKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1000000x128 EltTy.f32)
local notation "xV" => (Memref.whole Cert.KernelIdeal.main_v0_scv : Memref Cert.KernelIdeal.sig Kind.scVector Space.hbm Cert.KernelIdeal.S200x16384 EltTy.i32)
local notation "oV" => (Memref.whole Cert.KernelIdeal.main_v2_scv : Memref Cert.KernelIdeal.sig Kind.scVector Space.hbm Cert.KernelIdeal.S200x16384x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "i3V" => (Memref.whole Cert.KernelIdeal.cc0_scratch3 : Memref Cert.KernelIdeal.sig Kind.scVector Space.vmem Cert.KernelIdeal.S128 EltTy.i32)
local notation "p0V" => (Memref.whole Cert.KernelIdeal.cc0_scratch4 : Memref Cert.KernelIdeal.sig Kind.scVector Space.vmem Cert.KernelIdeal.S128x128 EltTy.f32)
local notation "p1V" => (Memref.whole Cert.KernelIdeal.cc0_scratch5 : Memref Cert.KernelIdeal.sig Kind.scVector Space.vmem Cert.KernelIdeal.S128x128 EltTy.f32)
local notation "p2V" => (Memref.whole Cert.KernelIdeal.cc0_scratch6 : Memref Cert.KernelIdeal.sig Kind.scVector Space.vmem Cert.KernelIdeal.S128x128 EltTy.f32)
local notation "p3V" => (Memref.whole Cert.KernelIdeal.cc0_scratch7 : Memref Cert.KernelIdeal.sig Kind.scVector Space.vmem Cert.KernelIdeal.S128x128 EltTy.f32)

variable (m : (ℓ : Loc nD τ sig) → Buf (Elt F) ℓ) (ρ : Dev nD → PrngReg)

/-! ## The read shares -/

/-- SparseCore `c`'s read share of an array held whole, -/
abbrev qC (c : Fin 2) : PosShare TreeShare := Transfers.shareTok fullShare 2 c
/-- and tile `(c, s)`'s share of that. -/
abbrev qT (c : Fin 2) (s : Fin 16) : PosShare TreeShare := Transfers.shareTok (qC c) 16 s

variable [FloatOps F]

/-! ## What the handshakes carry -/

/-- Tile `(c, s)`'s holdings: its read shares of `xT` and `tb`, its columns of the staging array at `f`. -/
abbrev tilePts (d : Dev nD) (c : Fin 2) (s : Fin 16) (f : Buf (Elt F) (oLoc d)) : sProp 𝕄 :=
  iprop((xLoc d ↦{qT c s} XT m d) ∗ (tLoc d ↦{qT c s} TB m d)
    ∗ iprop(Rows d (coordsV c s) f (Finset.range 200) ∗ Rows3 d (coordsV c s) f (Finset.range 200)))
/-- SparseCore `c`'s holdings: its read shares, its sixteen tiles' columns at `f`. -/
abbrev corePts (d : Dev nD) (c : Fin 2) (f : Buf (Elt F) (oLoc d)) : sProp 𝕄 :=
  iprop((xLoc d ↦{qC c} XT m d) ∗ (tLoc d ↦{qC c} TB m d)
    ∗ bigSep Finset.univ fun s : Fin 16 => iprop(Rows d (coordsV c s) f (Finset.range 200) ∗ Rows3 d (coordsV c s) f (Finset.range 200)))

/-- The one call: the staging array goes out at its launch contents and comes back at the looked-up rows. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (GKo m d)
  go := fun q d c i => match q with | 0 => tilePts m d (Fin.cast nCore_zero c) (Fin.cast nSub_zero i) (m (oLoc d))
  td := fun q d c i => match q with | 0 => tilePts m d (Fin.cast nCore_zero c) (Fin.cast nSub_zero i) (GKo m d)
  x := fun _ _ => iprop(emp)

omit [FloatOps F] in
instance Win_storable (d : Dev nD) (L : grid0.Coords) (f : Buf (Elt F) (oLoc d)) (r b : ℕ) :
    BI.Storable (upEmb : UEmb _ 𝕄) (Win d L f r b) := by unfold Win; infer_instance
omit [FloatOps F] in
instance Rows_storable (d : Dev nD) (L : grid0.Coords) (f : Buf (Elt F) (oLoc d)) (s : Finset ℕ) :
    BI.Storable (upEmb : UEmb _ 𝕄) (Rows d L f s) := by unfold Rows; infer_instance
omit [FloatOps F] in
instance Rows3_storable (d : Dev nD) (L : grid0.Coords) (f : Buf (Elt F) (oLoc d)) (s : Finset ℕ) :
    BI.Storable (upEmb : UEmb _ 𝕄) (Rows3 d L f s) := by unfold Rows3; infer_instance

omit [FloatOps F] in
instance tileRows_storable (d : Dev nD) (c : Fin 2) (f : Buf (Elt F) (oLoc d)) :
    BI.Storable (upEmb : UEmb _ 𝕄) (bigSep Finset.univ fun s : Fin 16 =>
      iprop(Rows d (coordsV c s) f (Finset.range 200) ∗ Rows3 d (coordsV c s) f (Finset.range 200))) := by
  haveI h : ∀ i : Fin 16, BI.Storable (upEmb : UEmb _ 𝕄)
      iprop(Rows d (coordsV c i) f (Finset.range 200) ∗ Rows3 d (coordsV c i) f (Finset.range 200)) := fun i => inferInstance
  exact BI.Storable.bigSep _ _ _

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (GKo m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (GKo m d)))

/-! ## The tile's obligation -/

/-- Every word of the transposed index array names a table row when every word of the index array does. -/
theorem hXT (hpre : ∀ (d : Dev nD) j, (m (aLoc d) j).toNat < 1000000) (d : Dev nD) : ∀ j, (XT m d j).toNat < 1000000 := by
  intro j
  show (transpose S200x16384 [1, 0] (m (aLoc d)) transposes_S16384x200_S200x16384_1_0 j).toNat < 1000000
  unfold transpose
  exact hpre d _

theorem defs₀_vector (c : Fin τ.nSC) (s : Fin τ.nSub) :
    defs₀ (F := F) (.scVector c s) 0 ()
      = SparseCore.onTile hcore0 hsub0 (fun c s => cc0_k (coordsV c s)
          tV (Memref.isWhole_whole _) xV (Memref.isWhole_whole _) oV (Memref.isWhole_whole _)
          i0V (Memref.isWhole_whole _) i1V (Memref.isWhole_whole _) i2V (Memref.isWhole_whole _) i3V (Memref.isWhole_whole _)
          p0V (Memref.isWhole_whole _) p1V (Memref.isWhole_whole _) p2V (Memref.isWhole_whole _) p3V (Memref.isWhole_whole _)
          cc0_scratch8 cc0_scratch9 cc0_scratch10 cc0_scratch11 cc0_scratch12 cc0_scratch13 cc0_scratch14 cc0_scratch15
          cc0_scratch16 cc0_scratch17 cc0_scratch18 cc0_scratch19) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ (d : Dev nD) j, (m (aLoc d) j).toNat < 1000000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) O W (XT m d) (TB m d) (m (oLoc d)) _ _ hF (hXT m hpre d) hO).trans
    (wp_mono frame _ _ fun _ => obl_post)

/-! ## A SparseCore's holdings dealt to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_eq (d : Dev nD) (c : Fin 2) (f : Buf (Elt F) (oLoc d)) :
    (bigSep Finset.univ fun s : Fin 16 => tilePts m d c s f)
      = iprop((bigSep Finset.univ fun s : Fin 16 => (xLoc d ↦{qT c s} XT m d : sProp 𝕄))
          ∗ (bigSep Finset.univ fun s : Fin 16 => (tLoc d ↦{qT c s} TB m d : sProp 𝕄))
          ∗ bigSep Finset.univ fun s : Fin 16 => iprop(Rows d (coordsV c s) f (Finset.range 200) ∗ Rows3 d (coordsV c s) f (Finset.range 200))) := by
  rw [bigSep_sep', bigSep_sep']

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (GKo m d))
          -∗ corePts m d (Fin.cast nCore_zero c) (GKo m d)))
  rw [bigSep_tasks (F := F) (fun i => tilePts m d (Fin.cast nCore_zero c) i (m (oLoc d))),
    bigSep_tasks (F := F) (fun i => tilePts m d (Fin.cast nCore_zero c) i (GKo m d)), tiles_eq, tiles_eq]
  unfold corePts
  iintro ⟨Hx, Ht, Ho⟩
  ihave Hx' := (Transfers.pointsTo_toks_split (qC (Fin.cast nCore_zero c)) 16) $$ Hx
  icases Hx' with ⟨Hxr, Hxs⟩
  ihave Ht' := (Transfers.pointsTo_toks_split (qC (Fin.cast nCore_zero c)) 16) $$ Ht
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (qC (Fin.cast nCore_zero c)) 16)
    isplitl [Hxr]; · iexact Hxr
    iexact Hxs
  isplitl [Htr Hts]
  · iapply (Transfers.pointsTo_toks_join (qC (Fin.cast nCore_zero c)) 16)
    isplitl [Htr]; · iexact Htr
    iexact Hts
  iexact Ho

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The two SparseCores' holdings together: the read shares of both, and the whole staging array. -/
theorem cores_eq (d : Dev nD) (f : Buf (Elt F) (oLoc d)) :
    (bigSep Finset.univ fun c : Fin 2 => corePts m d c f)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} f)) := by
  rw [bigSep_sep', bigSep_sep', out_split_rows d f]

theorem st0_eq (d : Dev nD) :
    (bigSep Finset.univ fun c : Fin ((K (F := F)).nCore 0) => (P m).st 0 d c)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} m (oLoc d))) :=
  cores_eq m d (m (oLoc d))
theorem dn0_eq (d : Dev nD) :
    (bigSep Finset.univ fun c : Fin ((K (F := F)).nCore 0) => (P m).dn 0 d c)
      = iprop((bigSep Finset.univ fun c : Fin 2 => (xLoc d ↦{qC c} XT m d : sProp 𝕄))
          ∗ (bigSep Finset.univ fun c : Fin 2 => (tLoc d ↦{qC c} TB m d : sProp 𝕄))
          ∗ (oLoc d ↦{fullShare} GKo m d)) :=
  cores_eq m d (GKo m d)

/-- The arrays before the call and at the end, with the valuations written out as the operations' results. -/
theorem held_call' (d : Dev nD) :
    (held (T d) S12 ((op4 (F := F)).result ((op3 (F := F)).result ((op2 (F := F)).result ((op1 (F := F)).result (V0 m d))))) : sProp 𝕄)
      = iprop(((xLoc d ↦{fullShare} XT m d) ∗ (tLoc d ↦{fullShare} TB m d) ∗ (oLoc d ↦{fullShare} m (oLoc d))) ∗ held (T d) (S12 \ T3) (V4 m d)) :=
  held_call m d
theorem held_end' (d : Dev nD) :
    (held (T d) S12 ((op9 (F := F)).result ((op8 (F := F)).result ((op7 (F := F)).result ((op6 (F := F)).result ((op5 (F := F)).result (V5 m d)))))) : sProp 𝕄)
      = iprop(((aLoc d ↦{fullShare} m (aLoc d)) ∗ (bLoc d ↦{fullShare} m (bLoc d)) ∗ (rLoc d ↦{fullShare} RES m d)) ∗ held (T d) (S12 \ TF) (V10 m d)) :=
  held_end m d

/-- What @main leaves the claim: the two arguments at their launch contents, the result array at the result. -/
abbrev FIN (d : Dev nD) : sProp 𝕄 :=
  iprop((aLoc d ↦{fullShare} m (aLoc d)) ∗ (bLoc d ↦{fullShare} m (bLoc d)) ∗ (rLoc d ↦{fullShare} RES m d))

set_option maxRecDepth 8192 in
/-- @main on device `d`'s TensorCore: the four host operations before the call over the twelve arrays held whole, the
    call (the index array's transpose and the padded table lent as read shares, the staging array dealt by columns),
    the five host operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := op1) (S := S12) hOp1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S12) hOp2 (V := (op1 (F := F)).result (V0 m d))) $$ [Hb Hheld]
  · isplitl [Hb] <;> iassumption
  iintro ⟨Hb, Hheld⟩
  rw [wp_ret]; imodintro
  rw [op3_tref]
  iapply (wp_hlo_within 𝒱 (SparseCore.T d) none Set.univ (op := op3) (S := S12) hOp3 (V := (op2 (F := F)).result ((op1 (F := F)).result (V0 m d)))) $$ [Hb Hheld]
  · isplitl [Hb] <;> iassumption
  iintro ⟨Hb, Hheld⟩
  rw [wp_ret]; imodintro
  rw [op4_tref]
  iapply (wp_hlo_within 𝒱 (SparseCore.T d) none Set.univ (op := op4) (S := S12) hOp4 (V := (op3 (F := F)).result ((op2 (F := F)).result ((op1 (F := F)).result (V0 m d))))) $$ [Hb Hheld]
  · isplitl [Hb] <;> iassumption
  iintro ⟨Hb, Hheld⟩
  rw [wp_ret]; imodintro
  -- the call
  ihave Hh := (Entails.of_eq (held_call' (F := F) m d)) $$ Hheld
  icases Hh with ⟨⟨Hx, Ht, Ho⟩, Hrest⟩
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  iapply ((K (F := F)).wp_run (D (F := F)) 𝒱 (EH := EH) (P := P m) κ d 0) $$ [Hst Hxs Hts Ho Hb Hxr Htr Hrest]
  isplitr; · iexact Hctx
  isplitl [Hst]; · iexact Hst
  isplitl [Hxs Hts Ho]
  · rw [st0_eq]
    isplitl [Hxs]; · iexact Hxs
    isplitl [Hts]; · iexact Hts
    iexact Ho
  iintro ⟨Hst, Hdn⟩
  ihave Hdn' := (Entails.of_eq (dn0_eq m d)) $$ Hdn
  icases Hdn' with ⟨Hxs, Hts, Ho⟩
  ihave Hx := (Transfers.pointsTo_toks_join fullShare 2) $$ [Hxr Hxs]
  · isplitl [Hxr]; · iexact Hxr
    iexact Hxs
  ihave Ht := (Transfers.pointsTo_toks_join fullShare 2) $$ [Htr Hts]
  · isplitl [Htr]; · iexact Htr
    iexact Hts
  -- the five operations after it
  iapply (wp_hlo_within 𝒱 (SparseCore.T d) none Set.univ (op := op5) (S := S12) hOp5 (V := V5 m d)) $$ [Hb Hx Ht Ho Hrest]
  · isplitl [Hb]; · iexact Hb
    rw [held_after]
    isplitl [Hx Ht Ho]
    · isplitl [Hx]; · iexact Hx
      isplitl [Ht]; · iexact Ht
      iexact Ho
    iexact Hrest
  iintro ⟨Hb, Hheld⟩
  rw [wp_ret]; imodintro
  iapply (wp_hlo_within 𝒱 (SparseCore.T d) none Set.univ (op := op6) (S := S12) hOp6 (V := (op5 (F := F)).result (V5 m d))) $$ [Hb Hheld]
  · isplitl [Hb] <;> iassumption
  iintro ⟨Hb, Hheld⟩
  rw [wp_ret]; imodintro
  iapply (wp_hlo_within 𝒱 (SparseCore.T d) none Set.univ (op := op7) (S := S12) hOp7 (V := (op6 (F := F)).result ((op5 (F := F)).result (V5 m d)))) $$ [Hb Hheld]
  · isplitl [Hb] <;> iassumption
  iintro ⟨Hb, Hheld⟩
  rw [wp_ret]; imodintro
  iapply (wp_hlo_within 𝒱 (SparseCore.T d) none Set.univ (op := op8) (S := S12) hOp8 (V := (op7 (F := F)).result ((op6 (F := F)).result ((op5 (F := F)).result (V5 m d))))) $$ [Hb Hheld]
  · isplitl [Hb] <;> iassumption
  iintro ⟨Hb, Hheld⟩
  rw [wp_ret]; imodintro
  iapply (wp_hlo_within 𝒱 (SparseCore.T d) none Set.univ (op := op9) (S := S12) hOp9 (V := (op8 (F := F)).result ((op7 (F := F)).result ((op6 (F := F)).result ((op5 (F := F)).result (V5 m d)))))) $$ [Hb Hheld]
  · isplitl [Hb] <;> iassumption
  iintro ⟨Hb, Hheld⟩
  ihave Hh := (Entails.of_eq (held_end' (F := F) m d)) $$ Hheld
  icases Hh with ⟨⟨Ha, Hbb, Hr⟩, -⟩
  rw [wp_ret]; imodintro; imodintro
  isplitl [Hst]; · iexact Hst
  isplitl [Ha]; · iexact Ha
  isplitl [Hbb]; · iexact Hbb
  iexact Hr

def fq (d : Dev nD) (s' : Phys nD τ sig (Elt F)) : Prop :=
  s'.mem.mem (rLoc d) = RES m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with its result array at the result and its two arguments unchanged. -/
def QC : PUnit × MemSt nD τ sig (Elt F) → Prop := fun r => ∀ c : Dev nD,
  r.2.mem ((SparseCore.T c).loc main_v6) = RES m c
    ∧ r.2.mem ((SparseCore.T c).loc main_arg0) = m ((SparseCore.T c).loc main_arg0)
    ∧ r.2.mem ((SparseCore.T c).loc main_arg1) = m ((SparseCore.T c).loc main_arg1)

/-- From any memory whose index words all name table rows, with every counter at zero, every weakly fair execution of the
    kernel program terminates, nothing faulting, with the result array at `RES` and the arguments unchanged. -/
theorem run_main [∀ e, Nonempty (Elt F e)] (hpre : ∀ (d : Dev nD) j, (m ((SparseCore.T d).loc main_arg0) j).toNat < 1000000) :
    θ_run (Cert.KernelIdeal.defs (F := F)) (Cert.KernelIdeal.threads (F := F)) ⟨m, fun _ => 0, ρ⟩
      (fun r => ∀ c : Dev nD, r.2.mem ((SparseCore.T c).loc main_v6) = RES m c
        ∧ r.2.mem ((SparseCore.T c).loc main_arg0) = m ((SparseCore.T c).loc main_arg0)
        ∧ r.2.mem ((SparseCore.T c).loc main_arg1) = m ((SparseCore.T c).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.FrameKI.lean ====
/-
  The frame claim of the idealized kernel program: under the precondition every weakly fair execution terminates,
  nothing faulting, with the two argument arrays unchanged. It is the launch theorem's run with the result's value
  dropped; the index range the run asks for is what the precondition says of the index array.
-/
import proofs.«206412_g41506563948974_cont_8to1_b_738_25_alg».proof.Defs
import proofs.«206412_g41506563948974_cont_8to1_b_738_25_alg».proof.Proof.LaunchKI
import proofs.«206412_g41506563948974_cont_8to1_b_738_25_alg».proof.Proof.PreRange
import proofs.«206412_g41506563948974_cont_8to1_b_738_25_alg».proof.Proof.Gen.KernelIdeal
import proofs.«206412_g41506563948974_cont_8to1_b_738_25_alg».proof.Proof.Gen.Pre_input_domain

noncomputable section

namespace Cert.Proof.KI

open Idealize.ShloMosaic Idealize.SL.Sem

/-- `Cert.frame_KernelIdeal` (Defs.lean). -/
theorem frame_KI : Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => ⟨(h c).2.1, (h c).2.2⟩)
      (run_main (F := Ideal) m g fun d j => (Cert.Lookup.range_of_pre (F := Ideal) _ _ (hpre d) j).1)

end Cert.Proof.KI

end
-- ==== Proof.RefRun.lean ====
/-
  The reference program's run, read back. Its @main calls the function that implements an indexed read of the
  table's rows (which itself calls a three-way select), then multiplies by a broadcast constant. With the callees'
  operations written at their call sites over the calls' own buffers, @main is one straight line of 26 host operations,
  so every weakly fair execution terminates with each buffer at the fold of the operations' results over the launch
  contents. Read at the result buffer, that fold is the composed term `res x tab` of the two arguments: the index
  word wrapped by +1000000 when negative, the row gathered at the wrapped index, replaced by the quiet-NaN constant
  where the wrapped index is outside [0, 999999], times the broadcast constant. The arguments end unchanged.
-/
import proofs.«206412_g41506563948974_cont_8to1_b_738_25_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 26 operations in order: the 23 of the row-read function (the three-way select of its inner call among
    them, seventh) over that call's buffers, then @main's own three. -/
abbrev ops : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 1000000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 999999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S1000000x64_S16384x200x1_S16384x200x64_2_0_n_n_0_2_164 x i),
    TRef.unary main_call0.v12 main_call0.v14 (broadcastInDim S16384x200x64 ![0, 1] bcast_S16384x200_S16384x200x64_0_1),
    TRef.nullary main_call0.cst (constant S_ .f32 0x7FC00000#32),
    TRef.unary main_call0.cst main_call0.v15 (broadcastInDim S16384x200x64 ![] bcast_S_S16384x200x64),
    TRef.ternary main_call0.v14 main_call0.v13 main_call0.v15 main_call0.v16 select,
    nullary main_cst (constant S_ .f32 0x41000000#32),
    unary main_cst main_v1 (broadcastInDim S16384x200x64 ![] bcast_S_S16384x200x64 : (⟨S_, .f32⟩ : BufTy).Contents (Elt F) → (⟨S16384x200x64, .f32⟩ : BufTy).Contents (Elt F)),
    binary main_v0 main_v1 main_v2 (mulf : (⟨S16384x200x64, .f32⟩ : BufTy).Contents (Elt F) → (⟨S16384x200x64, .f32⟩ : BufTy).Contents (Elt F) → (⟨S16384x200x64, .f32⟩ : BufTy).Contents (Elt F)) ]

set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-- The index words after the wrap: a negative word (read signed) has 1000000 added, any other is kept. -/
def wrapped (x : IVec S16384x200 32) : IVec S16384x200 32 :=
  select (cmpi .slt x (broadcastInDim S16384x200 ![] bcast_S_S16384x200 (constantI S_ 32 0#32)))
    (addi x (broadcastInDim S16384x200 ![] bcast_S_S16384x200 (constantI S_ 32 1000000#32))) x

/-- The wrapped index words as the one-column start-index table of the gather. -/
def starts (x : IVec S16384x200 32) : IVec S16384x200x1 32 :=
  broadcastInDim S16384x200x1 ![0, 1] bcast_S16384x200_S16384x200x1_0_1 (wrapped x)

/-- Where the start index is inside the table: 0 <= start and start <= 999999 (signed), reduced by `and` over the
    unit axis. -/
def inRange (x : IVec S16384x200 32) : IVec S16384x200 1 :=
  Host.reduce IntOp.andi
    (andi (cmpi .sge (starts x) (broadcastInDim S16384x200x1 ![] bcast_S_S16384x200x1 (constantI S_ 32 0#32)))
      (cmpi .sle (starts x) (broadcastInDim S16384x200x1 ![0, 1, 2] bcast_S1x1x1_S16384x200x1_0_1_2
        (broadcastInDim S1x1x1 ![2] bcast_S1_S1x1x1_2 (constantI S1 32 999999#32)))))
    (constantI S_ 1 1#1) reducesTo_S16384x200x1_S16384x200_d2 h_S_

/-- The reference's result as a pure term of its two arguments: the gathered rows, the quiet-NaN constant outside the
    table's range, times the broadcast constant. -/
def res (x : IVec S16384x200 32) (tab : FVec F S1000000x64 .f32) : FVec F S16384x200x64 .f32 :=
  mulf
    (select (broadcastInDim S16384x200x64 ![0, 1] bcast_S16384x200_S16384x200x64_0_1 (inRange x))
      (Host.gather gather_S1000000x64_S16384x200x1_S16384x200x64_2_0_n_n_0_2_164 tab (starts x))
      (broadcastInDim S16384x200x64 ![] bcast_S_S16384x200x64 (constant S_ .f32 0x7FC00000#32)))
    (broadcastInDim S16384x200x64 ![] bcast_S_S16384x200x64 (constant S_ .f32 0x41000000#32))

/-- The same 26 operations written at the buffers themselves: a typed reference to a literal buffer carries the buffer's
    own type, so moving a function along it is the identity. -/
abbrev opsU : List (HloOp τ sig (Elt F)) :=
  [ nullary main_call0_c (constantI S_ 32 0#32),
    unary main_call0_c main_call0_v0 (broadcastInDim S16384x200 ![] bcast_S_S16384x200),
    binary main_arg0 main_call0_v0 main_call0_v1 (cmpi .slt),
    nullary main_call0_c_0 (constantI S_ 32 1000000#32),
    unary main_call0_c_0 main_call0_v2 (broadcastInDim S16384x200 ![] bcast_S_S16384x200),
    binary main_arg0 main_call0_v2 main_call0_v3 addi,
    ternary main_call0_v1 main_call0_v3 main_arg0 main_call0_v4 select,
    unary main_call0_v4 main_call0_v5 (broadcastInDim S16384x200x1 ![0, 1] bcast_S16384x200_S16384x200x1_0_1),
    nullary main_call0_c_1 (constantI S1 32 999999#32),
    nullary main_call0_c_2 (constantI S_ 32 0#32),
    unary main_call0_c_2 main_call0_v6 (broadcastInDim S16384x200x1 ![] bcast_S_S16384x200x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S16384x200x1 ![0, 1, 2] bcast_S1x1x1_S16384x200x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S16384x200x1_S16384x200_d2 h_S_),
    binary main_arg1 main_call0_v5 main_call0_v13 (fun x i => Host.gather gather_S1000000x64_S16384x200x1_S16384x200x64_2_0_n_n_0_2_164 x i),
    unary main_call0_v12 main_call0_v14 (broadcastInDim S16384x200x64 ![0, 1] bcast_S16384x200_S16384x200x64_0_1),
    nullary main_call0_cst (constant S_ .f32 0x7FC00000#32),
    unary main_call0_cst main_call0_v15 (broadcastInDim S16384x200x64 ![] bcast_S_S16384x200x64),
    ternary main_call0_v14 main_call0_v13 main_call0_v15 main_v0 select,
    nullary main_cst (constant S_ .f32 0x41000000#32),
    unary main_cst main_v1 (broadcastInDim S16384x200x64 ![] bcast_S_S16384x200x64 : (⟨S_, .f32⟩ : BufTy).Contents (Elt F) → (⟨S16384x200x64, .f32⟩ : BufTy).Contents (Elt F)),
    binary main_v0 main_v1 main_v2 (mulf : (⟨S16384x200x64, .f32⟩ : BufTy).Contents (Elt F) → (⟨S16384x200x64, .f32⟩ : BufTy).Contents (Elt F) → (⟨S16384x200x64, .f32⟩ : BufTy).Contents (Elt F)) ]

attribute [local irreducible] Host.reduce Host.gather in
set_option maxRecDepth 8192 in
/-- The two spellings of the operation list are one list. -/
theorem ops_eq : (ops : List (HloOp τ sig (Elt F))) = opsU := rfl

attribute [local irreducible] Host.reduce Host.gather in
set_option maxRecDepth 8192 in
set_option maxHeartbeats 800000 in
/-- The fold of the 26 operations, read at the result buffer, is `res` of the valuation at the two argument buffers:
    each operation's result is read where it is written and passed over elsewhere. The reduction and the gather stay
    folded meanwhile: the equation never looks inside them. -/
theorem out_eq (V : Valuation τ sig (Elt F)) :
    after ops V (main_v2 : DevRef τ sig) = res (F := F) (V (main_arg0 : DevRef τ sig)) (V (main_arg1 : DevRef τ sig)) := by
  rw [ops_eq]
  after_results_simp
  rfl

set_option maxRecDepth 8192 in
set_option maxHeartbeats 800000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 800000 in
/-- No operation writes the second argument. -/
theorem arg1_eq (V : Valuation τ sig (Elt F)) :
    after ops V (main_arg1 : DevRef τ sig) = V (main_arg1 : DevRef τ sig) := by
  after_results_simp

/-- From any memory with zero counters, every weakly fair execution of the reference terminates with its result
    buffer at `res` of the two argument buffers' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
          = res (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run (defs (F := Ideal)) _ _).mono (fun _ h c => ⟨(h c main_v2).trans (out_eq _),
      (h c main_arg0).trans (arg0_eq _),
      (h c main_arg1).trans (arg1_eq _)⟩)
    (run_seq scopedRefs_eq scopedSems_eq (defs (F := Ideal)) (main (F := Ideal)) (fun _ => ops) main_eq (fun _ => ops_sub) m ρ)

end Cert.ReferenceIdeal.RefValue

end
-- ==== Proof.RefValue.lean ====
/-
  The reference's value under the precondition's range. With every index word w in [0, 999999] (signed), the
  reference's wrap of negative words does nothing, its range test is 1 everywhere (so the select keeps the gathered
  row and never the NaN constant), and the gather's start index, read signed and clamped to the last row, is the
  word's unsigned value. So the reference computes table[x[b, l], d] times the constant: the lookup `G`.
-/
import proofs.«206412_g41506563948974_cont_8to1_b_738_25_alg».proof.Proof.RefRun
import proofs.«206412_g41506563948974_cont_8to1_b_738_25_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll

noncomputable section

namespace Cert.ReferenceIdeal.RefValue

open Cert.ReferenceIdeal Cert.ReferenceIdeal.Gen Idealize.ShloMosaic Idealize.ShloMosaic.ValueIdx

/-- A reduction by `and` from 1 over words that are all 1 is 1. -/
theorem reduce_andi_of_all_one {s t u : Shape} {axes : List (Fin s.rank)} (p : s.Idx → BitVec 1) (init : u.Idx → BitVec 1)
    (h : s.ReducesTo axes t) (hu : 0 < u.numel) (j : t.Idx) (hp : ∀ i, p i = 1#1) (hi : init (Shape.Idx.first hu) = 1#1) :
    Host.reduce IntOp.andi p init h hu j = 1#1 := by
  rw [Host.reduce_eq_foldl, hi]
  generalize (((List.finRange s.numel).map s.rowMajor.symm).filter fun i => h.drop i = j) = l
  induction l with
  | nil => rfl
  | cons a l ih =>
    rw [List.foldl_cons, hp a, show IntOp.andi 1#1 1#1 = 1#1 from by decide]
    exact ih

/-- A word in the range, read signed, is its unsigned value. -/
theorem toInt_of_range {w : BitVec 32} (h : w.toNat < 1000000) : w.toInt = (w.toNat : Int) := by
  have hw := BitVec.toInt_eq_toNat_cond w
  split at hw <;> omega

section
variable (x : IVec S16384x200 32)

/-- A non-negative word is kept by the wrap. -/
theorem wrapped_apply (i : S16384x200.Idx) (h0 : 0 ≤ (x i).toInt) : wrapped x i = x i := by
  unfold wrapped
  rw [select_apply]
  have hc : cmpi .slt x (broadcastInDim S16384x200 ![] bcast_S_S16384x200 (constantI S_ 32 0#32)) i = 0#1 := by
    apply eq_zero_of_ne_one
    intro e
    have e' : IntOp.cmpi .slt (x i) 0#32 = 1#1 := e
    rw [IntOp.cmpi_slt] at e'
    have e0 : (0#32 : BitVec 32).toInt = 0 := by decide
    omega
  rw [hc, select_zero]

/-- The start-index table at (b, l, 0) is the wrapped word at (b, l). -/
theorem starts_apply (k : S16384x200x1.Idx) : starts x k = wrapped x (ix2 (n0 := 16384) (n1 := 200) (k 0) (k 1)) := by
  unfold starts
  exact broadcastInDim_apply _ bcast_S16384x200_S16384x200x1_0_1 _ k _
    (fun a => match a with | ⟨0, _⟩ => rfl | ⟨1, _⟩ => rfl)

/-- Under the range, the range test is 1 everywhere. -/
theorem inRange_apply (hr : ∀ j, (x j).toNat < 1000000 ∧ 0 ≤ (x j).toInt) (i : S16384x200.Idx) : inRange x i = 1#1 := by
  unfold inRange
  refine reduce_andi_of_all_one _ _ _ _ _ (fun k => ?_) rfl
  show IntOp.andi (IntOp.cmpi .sge (starts x k) 0#32) (IntOp.cmpi .sle (starts x k) 999999#32) = 1#1
  have h := hr (ix2 (n0 := 16384) (n1 := 200) (k 0) (k 1))
  rw [starts_apply, wrapped_apply x _ h.2, IntOp.andi_eq_one, IntOp.cmpi_sge, IntOp.cmpi_sle]
  have e0 : (0#32 : BitVec 32).toInt = 0 := by decide
  have e1 : (999999#32 : BitVec 32).toInt = 999999 := by decide
  have e2 := toInt_of_range h.1
  constructor <;> omega

end

/-- Under the precondition's range the reference computes the lookup. -/
theorem res_eq (x : IVec S16384x200 32) (tab : FVec Ideal S1000000x64 .f32)
    (hr : ∀ j, (x j).toNat < 1000000 ∧ 0 ≤ (x j).toInt) :
    res x tab = Cert.Lookup.G x tab := by
  funext j
  unfold res
  rw [mulf_apply, broadcastInDim_scalar_apply, constant_apply]
  show _ = tab (ix2 (Cert.Lookup.rowOf (x (ix2 (n0 := 16384) (n1 := 200) (j 0) (j 1)))) (j 2 : Fin 64)) * Ideal.ofBits .f32 0x41000000#32
  refine congrArg (fun z => z * Ideal.ofBits .f32 0x41000000#32) ?_
  rw [select_apply]
  have hc : broadcastInDim S16384x200x64 ![0, 1] bcast_S16384x200_S16384x200x64_0_1 (inRange x) j = 1#1 := by
    rw [broadcastInDim_apply _ bcast_S16384x200_S16384x200x64_0_1 _ j (ix2 (n0 := 16384) (n1 := 200) (j 0) (j 1))
      (fun a => match a with | ⟨0, _⟩ => rfl | ⟨1, _⟩ => rfl)]
    exact inRange_apply x hr _
  rw [hc, select_one]
  -- the gather read at (b, l, d)
  have h := hr (ix2 (n0 := 16384) (n1 := 200) (j 0) (j 1))
  unfold Host.gather
  refine congrArg tab ?_
  funext a
  refine Fin.ext ?_
  match a with
  | ⟨0, _⟩ =>
    show gather_S1000000x64_S16384x200x1_S16384x200x64_2_0_n_n_0_2_164.start j (starts x) 0 + gather_S1000000x64_S16384x200x1_S16384x200x64_2_0_n_n_0_2_164.batchCoord j 0 + gather_S1000000x64_S16384x200x1_S16384x200x64_2_0_n_n_0_2_164.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S16384x200x1_S16384x200x64_2_0_n_n_0_2_164.startIndexMap from List.mem_singleton.mpr rfl)]
    have hsi : gather_S1000000x64_S16384x200x1_S16384x200x64_2_0_n_n_0_2_164.siIdx j ⟨List.idxOf (0 : Fin 2) gather_S1000000x64_S16384x200x1_S16384x200x64_2_0_n_n_0_2_164.startIndexMap,
        List.idxOf_lt_length_iff.2 (List.mem_singleton.mpr rfl)⟩
        = ix3 (n0 := 16384) (n1 := 200) (n2 := 1) (j 0) (j 1) 0 := by
      funext b; refine Fin.ext ?_
      match b with
      | ⟨0, _⟩ => rfl
      | ⟨1, _⟩ => rfl
      | ⟨2, _⟩ => rfl
    rw [hsi, starts_apply, wrapped_apply x _ h.2]
    show min (x (ix2 (n0 := 16384) (n1 := 200) (j 0) (j 1))).toInt.toNat (1000000 - 1) = min (x (ix2 (n0 := 16384) (n1 := 200) (j 0) (j 1))).toNat 999999
    rw [toInt_of_range h.1]
    rfl
  | ⟨1, _⟩ =>
    show gather_S1000000x64_S16384x200x1_S16384x200x64_2_0_n_n_0_2_164.start j (starts x) 1 + gather_S1000000x64_S16384x200x1_S16384x200x64_2_0_n_n_0_2_164.batchCoord j 1 + gather_S1000000x64_S16384x200x1_S16384x200x64_2_0_n_n_0_2_164.offCoord j 1 = (j 2).val
    rw [GatherDims.batchCoord_eq_zero _ _ _ List.not_mem_nil]
    unfold GatherDims.start
    rw [dif_neg (show ¬ (1 : Fin 2) ∈ gather_S1000000x64_S16384x200x1_S16384x200x64_2_0_n_n_0_2_164.startIndexMap from by decide)]
    unfold GatherDims.offCoord
    rw [dif_pos (show (1 : Fin 2) ∈ gather_S1000000x64_S16384x200x1_S16384x200x64_2_0_n_n_0_2_164.sKept from by decide)]
    simp only [Nat.add_zero, Nat.zero_add]
    rfl

end Cert.ReferenceIdeal.RefValue

end
-- ==== Proof.HostValue.lean ====
/-
  The kernel's host operations around the staging array, at the ideal instance. The index array is transposed to
  [200, 16384]; the table is padded on the right to 128 lanes with zeros; the staging array holds, at (l, c, k),
  entry (xT[l, c], k) of the padded table; its first 64 lanes are cut out, the two leading axes are swapped back, and
  every entry is multiplied by the constant. Read at an output index (b, l, d): the transpose reads the slice at
  (l, b, d), the slice reads the staging array at (l, b, d) with d < 64 < 128, the staging array reads the padded
  table at row xT[l, b] = x[b, l] and lane d, and lane d < 64 of the padded table is lane d of the table itself. So the
  value is table[x[b, l], d] times the constant, which is the lookup `G`.
-/
import proofs.«206412_g41506563948974_cont_8to1_b_738_25_alg».proof.KernelIdeal
import proofs.«206412_g41506563948974_cont_8to1_b_738_25_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.Lookup

open Idealize.ShloMosaic Idealize.ShloMosaic.ValueIdx
open Cert.KernelIdeal Cert.KernelIdeal.Facts₀

variable [Cert.KernelIdeal.Facts₀]

/-- The padded table read at a lane below 64 is the table there. -/
theorem pad_read (tab : FVec Ideal S1000000x64 .f32) (v : FVec Ideal S_ .f32) (r : Fin 1000000) (d : Fin 64) :
    pad S1000000x128 ![0, 0] ![0, 64] ![0, 0] tab v pads_S1000000x64_S1000000x128_000_0640 h_S_
        (ix2 r (⟨d.val, by omega⟩ : Fin 128)) = tab (ix2 r d) := by
  refine pad_apply_of_inside _ _ _ tab v pads_S1000000x64_S1000000x128_000_0640 h_S_ _ (ix2 r d) fun a => ?_
  match a with
  | ⟨0, _⟩ => show r.val = 0 + r.val * (0 + 1); omega
  | ⟨1, _⟩ => show d.val = 0 + d.val * (0 + 1); omega

/-- The host chain around the staging array computes the lookup. -/
theorem kernel_value (x : IVec S16384x200 32) (tab : FVec Ideal S1000000x64 .f32)
    (hr : ∀ j, (x j).toNat < 1000000) :
    mulf (transpose S16384x200x64 [1, 0, 2] (extractStridedSlice S200x16384x64 ![0, 0, 0] (Cert.Lookup.GK (F := Ideal) (transpose S200x16384 [1, 0] x transposes_S16384x200_S200x16384_1_0) (pad S1000000x128 ![0, 0] ![0, 64] ![0, 0] tab (sitofp .f32 (constantI S_ 32 0#32)) pads_S1000000x64_S1000000x128_000_0640 h_S_)) slices_S200x16384x128_S200x16384x64_0_0_0) transposes_S200x16384x64_S16384x200x64_1_0_2) (broadcastInDim S16384x200x64 ![] bcast_S_S16384x200x64 (constant S_ .f32 0x41000000#32)) = Cert.Lookup.G x tab := by
  funext j
  rw [mulf_apply, broadcastInDim_scalar_apply, constant_apply]
  show _ = tab (ix2 (rowOf (x (ix2 (n0 := 16384) (n1 := 200) (j 0) (j 1)))) (j 2 : Fin 64)) * Ideal.ofBits .f32 0x41000000#32
  congr 1
  -- the outer transpose reads the slice at (l, b, d)
  have hd : (j 2 : Fin 64).val < 128 := by have h64 : (j 2 : Fin 64).val < 64 := (j 2).isLt; omega
  refine (transpose_apply _ _ transposes_S200x16384x64_S16384x200x64_1_0_2 j
    (ix3 (n0 := 200) (n1 := 16384) (n2 := 64) (j 1) (j 0) (j 2))
    (fun b => match b with | ⟨0, _⟩ => rfl | ⟨1, _⟩ => rfl | ⟨2, _⟩ => rfl)).trans ?_
  -- the slice reads the staging array at (l, b, d)
  refine (extractStridedSlice_apply _ _ slices_S200x16384x128_S200x16384x64_0_0_0 _
    (ix3 (n0 := 200) (n1 := 16384) (n2 := 128) (j 1) (j 0) ⟨(j 2 : Fin 64).val, hd⟩)
    (fun a => match a with
      | ⟨0, _⟩ => by show (j 1).val = 0 + (j 1).val; omega
      | ⟨1, _⟩ => by show (j 0).val = 0 + (j 0).val; omega
      | ⟨2, _⟩ => by show (j 2).val = 0 + (j 2).val; omega)).trans ?_
  -- the staging array reads the padded table at row xT[l, b]
  show pad S1000000x128 ![0, 0] ![0, 64] ![0, 0] tab (sitofp .f32 (constantI S_ 32 0#32)) pads_S1000000x64_S1000000x128_000_0640 h_S_
      (ix2 (rowOf (transpose S200x16384 [1, 0] x transposes_S16384x200_S200x16384_1_0 (ix2 (n0 := 200) (n1 := 16384) (j 1) (j 0))))
        (⟨(j 2 : Fin 64).val, hd⟩ : Fin 128)) = _
  rw [transpose_ix2_apply x transposes_S16384x200_S200x16384_1_0 (j 1) (j 0)]
  exact pad_read tab _ _ (j 2)

end Cert.Lookup

end
-- ==== Proof.ClaimsKI.lean ====
/-
  The reference's frame claim and the algebraic claim. The reference's run ends with its result at the composed term
  `res` of its arguments and the arguments unchanged; dropping the value gives its frame. For the algebraic claim the
  shared value on device c is the lookup `G` of the kernel program's two argument arrays: the kernel program's run
  ends with its result at the host operations' term around the staging array, which is `G` of its arguments; the
  reference's run ends at `res` of its own arguments, which agree with the kernel program's and lie in the
  precondition's range, where `res` is `G`.
-/
import proofs.«206412_g41506563948974_cont_8to1_b_738_25_alg».proof.Defs
import proofs.«206412_g41506563948974_cont_8to1_b_738_25_alg».proof.Proof.LaunchKI
import proofs.«206412_g41506563948974_cont_8to1_b_738_25_alg».proof.Proof.RefRun
import proofs.«206412_g41506563948974_cont_8to1_b_738_25_alg».proof.Proof.RefValue
import proofs.«206412_g41506563948974_cont_8to1_b_738_25_alg».proof.Proof.HostValue
import proofs.«206412_g41506563948974_cont_8to1_b_738_25_alg».proof.Proof.PreRange
import proofs.«206412_g41506563948974_cont_8to1_b_738_25_alg».proof.Proof.Gen.KernelIdeal
import proofs.«206412_g41506563948974_cont_8to1_b_738_25_alg».proof.Proof.Gen.ReferenceIdeal
import proofs.«206412_g41506563948974_cont_8to1_b_738_25_alg».proof.Proof.Gen.Pre_input_domain

noncomputable section

namespace Cert.Proof.Claims

open Idealize.ShloMosaic Idealize.SL.Sem

/-- `Cert.frame_ReferenceIdeal` (Defs.lean). -/
theorem frame_R : Cert.frame_ReferenceIdeal (hReferenceIdeal := Cert.ReferenceIdeal.Gen.facts) (hPre_input_domain := Cert.Pre_input_domain.Gen.facts) :=
  fun m g _ =>
    (θ_run (Cert.ReferenceIdeal.defs (F := Ideal)) _ _).mono (fun _ h c => ⟨(h c).2.1, (h c).2.2⟩)
      (Cert.ReferenceIdeal.RefValue.run m g)

/-- `Cert.algebraic_KernelIdeal_ReferenceIdeal` (Defs.lean). -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hr := fun c : Dev Cert.KernelIdeal.nD => Cert.Lookup.range_of_pre (F := Ideal) _ _ (hpre c)
  refine ⟨fun c => Cert.Lookup.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun _ h c => ⟨?_, (h c).2.1, (h c).2.2⟩)
      (Cert.Proof.KI.run_main (F := Ideal) m g fun d j => (hr d j).1)
    exact (h c).1.trans (Cert.Lookup.kernel_value _ _ fun j => (hr c j).1)
  · refine (θ_run (Cert.ReferenceIdeal.defs (F := Ideal)) _ _).mono (fun _ h c => ⟨?_, (h c).2.1, (h c).2.2⟩)
      (Cert.ReferenceIdeal.RefValue.run m' g')
    refine (h c).1.trans ?_
    rw [(hagree c).1, (hagree c).2]
    exact Cert.ReferenceIdeal.RefValue.res_eq _ _ (hr c)

end Cert.Proof.Claims

end
-- ==== Proof.lean ====
/-
  The embedding lookup `result[b, l, d] = table[x[b, l], d] · 8` on the SparseCores, against jnp's `take` scaled by 8.
  The kernel program transposes `x`, pads the table to 128 lanes, has each of the 32 vector subcores walk the 200
  rows of the transposed index array over its own 512 columns — a ring of four slots, each: copy 128 row numbers into a
  list buffer, gather the 128 table rows they name into a row buffer, copy the rows out to `out[l, 128 columns, :]` —,
  then cuts the padding off, transposes back and scales by 8. Both idealized programs compute the function
  `Cert.Lookup.G` of the two arguments (no law of the extended reals is needed beyond reading the two programs at an
  index; the index range `0 ≤ x < 1000000` makes every gather land on a row and makes jnp's out-of-range fill and
  negative wrap-around inert): the three frames, the empty ledger, and the equality of the results.
-/
import proofs.«206412_g41506563948974_cont_8to1_b_738_25_alg».proof.Defs
import proofs.«206412_g41506563948974_cont_8to1_b_738_25_alg».proof.Proof.Gen.Kernel
import proofs.«206412_g41506563948974_cont_8to1_b_738_25_alg».proof.Proof.Gen.Kernel.Skeleton
import proofs.«206412_g41506563948974_cont_8to1_b_738_25_alg».proof.Proof.Gen.KernelIdeal
import proofs.«206412_g41506563948974_cont_8to1_b_738_25_alg».proof.Proof.Gen.KernelIdeal.Skeleton
import proofs.«206412_g41506563948974_cont_8to1_b_738_25_alg».proof.Proof.Gen.ReferenceIdeal
import proofs.«206412_g41506563948974_cont_8to1_b_738_25_alg».proof.Proof.Gen.Pre_input_domain
import proofs.«206412_g41506563948974_cont_8to1_b_738_25_alg».proof.Proof.FrameK
import proofs.«206412_g41506563948974_cont_8to1_b_738_25_alg».proof.Proof.FrameKI
import proofs.«206412_g41506563948974_cont_8to1_b_738_25_alg».proof.Proof.ClaimsKI
import Idealize.ShloMosaic.Adequacy
import Idealize.ShloMosaic.Init

noncomputable section

namespace Cert.Proof

open Idealize.ShloMosaic Idealize.SL.Sem Cert.Kernel

/-- Everything the certificate claims: the kernel program and its idealization run to the end and keep their
    arguments, so does the reference; the idealization rewrote nothing; and the two idealized programs end with the
    same result, `Cert.Lookup.G` of the arguments. -/
theorem claim : Cert.Claim := ⟨Cert.Kernel.Gen.facts, Cert.KernelIdeal.Gen.facts, Cert.ReferenceIdeal.Gen.facts, Cert.Pre_input_domain.Gen.facts,
  Cert.Proof.K.frame_K, Cert.Proof.KI.frame_KI, Cert.Proof.Claims.frame_R, trivial, Cert.Proof.Claims.algebraic⟩

end Cert.Proof

end
